-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x512 : Shape := ⟨4, ![16, 64, 64, 512]⟩
abbrev S32x512 : Shape := ⟨2, ![32, 512]⟩
abbrev S32 : Shape := ⟨1, ![32]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S16x64x64x512 : S_.BroadcastsInDim S16x64x64x512 (![] : Fin 0 → Fin S16x64x64x512.rank)
  reducesTo_S16x64x64x512_S_d0_1_2_3 : S16x64x64x512.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512x1 .f32) (main_arg10 : FVec F S1 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1 .f32 := Host.absf main_arg9
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S512 .f32) (main_arg5 : FVec F S512 .f32) (main_arg6 : FVec F S512 .f32) (main_arg7 : FVec F S512x512 .f32) (main_arg8 : FVec F S512 .f32) (main_arg9 : FVec F S512x1 .f32) (main_arg10 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16x64x64x512 .f32) (main_arg1 : FVec F S32x512 .f32) (main_arg2 : FVec F S32 .f32) (main_arg3 : FVec F S512 .f32) (main_arg4 : FVec F S512 .f32) (main_arg5 : FVec F S512 .f32) (main_arg6 : FVec F S512 .f32) (main_arg7 : FVec F S512x512 .f32) (main_arg8 : FVec F S512 .f32) (main_arg9 : FVec F S512x1 .f32) (main_arg10 : FVec F S1 .f32) : IVec S_ 1 :=
  let main_v0 : FVec F S16x64x64x512 .f32 := Host.absf main_arg0
  let main_cst : FVec F S_ .f32 := constant S_ .f32 0x7F800000#32
  let main_v1 : FVec F S16x64x64x512 .f32 := broadcastInDim S16x64x64x512 ![] bcast_S_S16x64x64x512 main_cst
  let main_v2 : IVec S16x64x64x512 1 := cmpf .olt main_v0 main_v1
  let main_c : IVec S_ 1 := constantI S_ 1 1#1
  let main_v3 : IVec S_ 1 := (fun x v => Host.reduce IntOp.andi x v reducesTo_S16x64x64x512_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_v13 main_v16
-- ==== Kernel.lean ====
abbrev S16x64x64x512 : Shape := ⟨4, ![16, 64, 64, 512]⟩
abbrev S32x512 : Shape := ⟨2, ![32, 512]⟩
abbrev S32 : Shape := ⟨1, ![32]⟩
abbrev S512 : Shape := ⟨1, ![512]⟩
abbrev S512x512 : Shape := ⟨2, ![512, 512]⟩
abbrev S512x1 : Shape := ⟨2, ![512, 1]⟩
abbrev S1 : Shape := ⟨1, ![1]⟩
abbrev S16x4096x512 : Shape := ⟨3, ![16, 4096, 512]⟩
abbrev S1x32 : Shape := ⟨2, ![1, 32]⟩
abbrev S1x512 : Shape := ⟨2, ![1, 512]⟩
abbrev S16x1x512 : Shape := ⟨3, ![16, 1, 512]⟩
abbrev S1x1024x512 : Shape := ⟨3, ![1, 1024, 512]⟩
abbrev S1x1x512 : Shape := ⟨3, ![1, 1, 512]⟩
abbrev S32x1 : Shape := ⟨2, ![32, 1]⟩
abbrev S1024x512 : Shape := ⟨2, ![1024, 512]⟩
abbrev S1024 : Shape := ⟨1, ![1024]⟩
abbrev S1024x1 : Shape := ⟨2, ![1024, 1]⟩
abbrev S512x32 : Shape := ⟨2, ![512, 32]⟩
abbrev S1024x32 : Shape := ⟨2, ![1024, 32]⟩
abbrev S32x1024 : Shape := ⟨2, ![32, 1024]⟩
abbrev S16x512 : Shape := ⟨2, ![16, 512]⟩
abbrev S_ : Shape := ⟨0, ![]⟩
abbrev S16x1 : Shape := ⟨2, ![16, 1]⟩
abbrev S1x1 : Shape := ⟨2, ![1, 1]⟩

abbrev nBuf : Space → Nat
  | .hbm => 38
  | .vmem => 18
  | .smem => 0
  | _ => 0

abbrev bufTy : (tb : Table) → Fin (tcTables nBuf tb) → BufTy
  | .hbm, ⟨0, _⟩ => ⟨S16x64x64x512, .f32⟩
  | .hbm, ⟨1, _⟩ => ⟨S32x512, .f32⟩
  | .hbm, ⟨2, _⟩ => ⟨S32, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S16x4096x512, .f32⟩
  | .hbm, ⟨12, _⟩ => ⟨S1x32, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S16x1x512, .f32⟩
  | .hbm, ⟨18, _⟩ => ⟨S16x512, .f32⟩
  | .hbm, ⟨19, _⟩ => ⟨S16x512, .f32⟩
  | .hbm, ⟨20, _⟩ => ⟨S1x512, .f32⟩
  | .hbm, ⟨21, _⟩ => ⟨S16x512, .f32⟩
  | .hbm, ⟨22, _⟩ => ⟨S16x512, .f32⟩
  | .hbm, ⟨23, _⟩ => ⟨S16x512, .f32⟩
  | .hbm, ⟨24, _⟩ => ⟨S16x512, .f32⟩
  | .hbm, ⟨25, _⟩ => ⟨S_, .f32⟩
  | .hbm, ⟨26, _⟩ => ⟨S16x512, .f32⟩
  | .hbm, ⟨27, _⟩ => ⟨S16x512, .f32⟩
  | .hbm, ⟨28, _⟩ => ⟨S_, .f32⟩
  | .hbm, ⟨29, _⟩ => ⟨S16x512, .f32⟩
  | .hbm, ⟨30, _⟩ => ⟨S16x512, .f32⟩
  | .hbm, ⟨31, _⟩ => ⟨S16x1, .f32⟩
  | .hbm, ⟨32, _⟩ => ⟨S1x1, .f32⟩
  | .hbm, ⟨33, _⟩ => ⟨S16x1, .f32⟩
  | .hbm, ⟨34, _⟩ => ⟨S16x1, .f32⟩
  | .hbm, ⟨35, _⟩ => ⟨S16x1x512, .f32⟩
  | .hbm, ⟨36, _⟩ => ⟨S16x4096x512, .f32⟩
  | .hbm, ⟨37, _⟩ => ⟨S16x64x64x512, .f32⟩
  | .local _ .vmem, ⟨0, _⟩ => ⟨S1x1024x512, .f32⟩
  | .local _ .vmem, ⟨1, _⟩ => ⟨S1x1024x512, .f32⟩
  | .local _ .vmem, ⟨2, _⟩ => ⟨S32x512, .f32⟩
  | .local _ .vmem, ⟨3, _⟩ => ⟨S1x32, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x1x512, .f32⟩
  | .local _ .vmem, ⟨9, _⟩ => ⟨S1x1x512, .f32⟩
  | .local _ .vmem, ⟨10, _⟩ => ⟨S32x512, .f32⟩
  | .local _ .vmem, ⟨11, _⟩ => ⟨S32x1, .f32⟩
  | .local _ .vmem, ⟨12, _⟩ => ⟨S1x1024x512, .f32⟩
  | .local _ .vmem, ⟨13, _⟩ => ⟨S1x1024x512, .f32⟩
  | .local _ .vmem, ⟨14, _⟩ => ⟨S1x1x512, .f32⟩
  | .local _ .vmem, ⟨15, _⟩ => ⟨S1x1x512, .f32⟩
  | .local _ .vmem, ⟨16, _⟩ => ⟨S1x1024x512, .f32⟩
  | .local _ .vmem, ⟨17, _⟩ => ⟨S1x1024x512, .f32⟩
  | _, _ => ⟨S16x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_22 : BitVec 32 := 0#32
  let v52 : BitVec 1 := Scalar.cmpi .ne v51 c0_i32_22
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16x64x64x512_S16x4096x512 : S16x64x64x512.ShapeCasts S16x4096x512
  shapeCasts_S32_S1x32 : S32.ShapeCasts S1x32
  shapeCasts_S512_S1x512 : S512.ShapeCasts S1x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x32_S1x32_0_0 : ∀ a, (![0, 0] : Fin 2 → Nat) a + S1x32.size a ≤ S1x32.size a
  h_S1x32 : 0 < S1x32.numel
  shapeCasts_S1x32_S1x32 : S1x32.ShapeCasts S1x32
  bitsLt_bf16_f32 : FTy.bits .bf16 < FTy.bits .f32
  reduces_S32x512_S32 : S32x512.Reduces [1] S32
  reduces_S1024x512_S1024 : S1024x512.Reduces [1] S1024
  shapeCasts_S1024_S1024x1 : S1024.ShapeCasts S1024x1
  transposes_S32x512_p1_0_S512x32 : S32x512.Transposes [1, 0] S512x32
  broadcasts_S1024x1_S1024x32 : S1024x1.Broadcasts S1024x32
  broadcasts_S1x32_S1024x32 : S1x32.Broadcasts S1024x32
  reduces_S1024x32_S1024 : S1024x32.Reduces [1] S1024
  transposes_S1024x32_p1_0_S32x1024 : S1024x32.Transposes [1, 0] S32x1024
  reduces_S1024x32_S32 : S1024x32.Reduces [0] S32
  shapeCasts_S32_S32x1 : S32.ShapeCasts S32x1
  broadcasts_S32x1_S32x512 : S32x1.Broadcasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  reduces_S32x512_S512 : S32x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S16x1x512_S16x512 : S16x1x512.ShapeCasts S16x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  shapeCasts_S16x512_S16x1x512 : S16x512.ShapeCasts S16x1x512
  broadcasts_S1x512_S1024x512 : S1x512.Broadcasts S1024x512
  shapeCasts_S1024x512_S1x1024x512 : S1024x512.ShapeCasts S1x1024x512
  shapeCasts_S16x4096x512_S16x64x64x512 : S16x4096x512.ShapeCasts S16x64x64x512
  dot_S1024x512_S512x32_S1024x32_1_0_0_1_n_n_wf : DotDims.WF S1024x512 S512x32 S1024x32 [1] [0] [0] [1] [] []
  dot_S32x1024_S1024x512_S32x512_1_0_0_1_n_n_wf : DotDims.WF S32x1024 S1024x512 S32x512 [1] [0] [0] [1] [] []
  dot_S16x512_S512x512_S16x512_1_0_0_1_n_n_wf : DotDims.WF S16x512 S512x512 S16x512 [1] [0] [0] [1] [] []
  dot_S16x512_S512x1_S16x1_1_0_0_1_n_n_wf : DotDims.WF S16x512 S512x1 S16x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x4096x512.size a
  hwx0_0 : ∀ i : grid0.Coords, EltTy.bits .f32 = 32 ∨ (Rect.block (s := S16x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x512.size a ≤ S16x1x512.size a
  hwx0_7 : ∀ i : grid0.Coords, EltTy.bits .f32 = 32 ∨ (Rect.block (s := S16x1x512) S1x1x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S16x4096x512.size a
  hwx1_0 : ∀ i : grid1.Coords, EltTy.bits .f32 = 32 ∨ (Rect.block (s := S16x4096x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S16x1x512.size a
  hwx1_1 : ∀ i : grid1.Coords, EltTy.bits .f32 = 32 ∨ (Rect.block (s := S16x1x512) S1x1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x512.size a ≤ S16x4096x512.size a
  hwx1_2 : ∀ i : grid1.Coords, EltTy.bits .f32 = 32 ∨ (Rect.block (s := S16x4096x512) S1x1024x512.size (cc1_transform_2 i) (hinb1_2 i)).WholeWords (EltTy.packing .f32)

variable [Facts₀]

def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S16x512_S512x1_S16x1_1_0_0_1_n_n : DotDims S16x512 S512x1 S16x1 where
  lhsContracting := [1]
  rhsContracting := [0]
  lhsNonContracting := [0]
  rhsNonContracting := [1]
  lhsBatch := []
  rhsBatch := []
  wf := dot_S16x512_S512x1_S16x1_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x64x64x512 : Shape := ⟨4, ![16, 64, 64, 512]⟩
abbrev S32x512 : Shape := ⟨2, ![32, 512]⟩
abbrev S32 : Shape := ⟨1, ![32]⟩
abbrev S512 : Shape := ⟨1, ![512]⟩
abbrev S512x512 : Shape := ⟨2, ![512, 512]⟩
abbrev S512x1 : Shape := ⟨2, ![512, 1]⟩
abbrev S1 : Shape := ⟨1, ![1]⟩
abbrev S16x4096x512 : Shape := ⟨3, ![16, 4096, 512]⟩
abbrev S_ : Shape := ⟨0, ![]⟩
abbrev S16x4096 : Shape := ⟨2, ![16, 4096]⟩
abbrev S16x4096x1 : Shape := ⟨3, ![16, 4096, 1]⟩
abbrev S16x4096x32 : Shape := ⟨3, ![16, 4096, 32]⟩
abbrev S1x1x32 : Shape := ⟨3, ![1, 1, 32]⟩
abbrev S16x32 : Shape := ⟨2, ![16, 32]⟩
abbrev S16x32x512 : Shape := ⟨3, ![16, 32, 512]⟩
abbrev S16x32x1 : Shape := ⟨3, ![16, 32, 1]⟩
abbrev S1x32x512 : Shape := ⟨3, ![1, 32, 512]⟩
abbrev S1x1x512 : Shape := ⟨3, ![1, 1, 512]⟩
abbrev S16x512 : Shape := ⟨2, ![16, 512]⟩
abbrev S1x512 : Shape := ⟨2, ![1, 512]⟩
abbrev S16x1x1x512 : Shape := ⟨4, ![16, 1, 1, 512]⟩
abbrev S16x1 : Shape := ⟨2, ![16, 1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S16x64x64x512, .f32⟩
  | .hbm, ⟨1, _⟩ => ⟨S32x512, .f32⟩
  | .hbm, ⟨2, _⟩ => ⟨S32, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S16x4096x512, .f32⟩
  | .hbm, ⟨12, _⟩ => ⟨S16x4096x512, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S32x512, .f32⟩
  | .hbm, ⟨17, _⟩ => ⟨S_, .f32⟩
  | .hbm, ⟨18, _⟩ => ⟨S32, .f32⟩
  | .hbm, ⟨19, _⟩ => ⟨S16x4096x32, .f32⟩
  | .hbm, ⟨20, _⟩ => ⟨S_, .f32⟩
  | .hbm, ⟨21, _⟩ => ⟨S16x4096x32, .f32⟩
  | .hbm, ⟨22, _⟩ => ⟨S16x4096x32, .f32⟩
  | .hbm, ⟨23, _⟩ => ⟨S16x4096x32, .f32⟩
  | .hbm, ⟨24, _⟩ => ⟨S16x4096x32, .f32⟩
  | .hbm, ⟨25, _⟩ => ⟨S1x1x32, .f32⟩
  | .hbm, ⟨26, _⟩ => ⟨S16x4096x32, .f32⟩
  | .hbm, ⟨27, _⟩ => ⟨S16x4096x32, .f32⟩
  | .hbm, ⟨28, _⟩ => ⟨S1x1x32, .f32⟩
  | .hbm, ⟨29, _⟩ => ⟨S16x4096x32, .f32⟩
  | .hbm, ⟨30, _⟩ => ⟨S16x4096x32, .f32⟩
  | .hbm, ⟨31, _⟩ => ⟨S_, .f32⟩
  | .hbm, ⟨32, _⟩ => ⟨S16x4096, .f32⟩
  | .hbm, ⟨33, _⟩ => ⟨S_, .f32⟩
  | .hbm, ⟨34, _⟩ => ⟨S16x4096, .f32⟩
  | .hbm, ⟨35, _⟩ => ⟨S16x4096, .f32⟩
  | .hbm, ⟨36, _⟩ => ⟨S16x4096x1, .f32⟩
  | .hbm, ⟨37, _⟩ => ⟨S16x4096x32, .f32⟩
  | .hbm, ⟨38, _⟩ => ⟨S16x4096x32, .f32⟩
  | .hbm, ⟨39, _⟩ => ⟨S16x4096x32, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S16x4096x32, .f32⟩
  | .hbm, ⟨44, _⟩ => ⟨S16x4096x32, .f32⟩
  | .hbm, ⟨45, _⟩ => ⟨S_, .f32⟩
  | .hbm, ⟨46, _⟩ => ⟨S16x32, .f32⟩
  | .hbm, ⟨47, _⟩ => ⟨S16x32x512, .f32⟩
  | .hbm, ⟨48, _⟩ => ⟨S16x32x1, .f32⟩
  | .hbm, ⟨49, _⟩ => ⟨S1x32x512, .f32⟩
  | .hbm, ⟨50, _⟩ => ⟨S16x32x512, .f32⟩
  | .hbm, ⟨51, _⟩ => ⟨S16x32x512, .f32⟩
  | .hbm, ⟨52, _⟩ => ⟨S16x32x512, .f32⟩
  | .hbm, ⟨53, _⟩ => ⟨S16x32x512, .f32⟩
  | .hbm, ⟨54, _⟩ => ⟨S1x1x512, .f32⟩
  | .hbm, ⟨55, _⟩ => ⟨S16x32x512, .f32⟩
  | .hbm, ⟨56, _⟩ => ⟨S16x32x512, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S512, .f32⟩
  | .hbm, ⟨61, _⟩ => ⟨S1x1x512, .f32⟩
  | .hbm, ⟨62, _⟩ => ⟨S16x32x512, .f32⟩
  | .hbm, ⟨63, _⟩ => ⟨S16x32x512, .f32⟩
  | .hbm, ⟨64, _⟩ => ⟨S1x1x512, .f32⟩
  | .hbm, ⟨65, _⟩ => ⟨S16x32x512, .f32⟩
  | .hbm, ⟨66, _⟩ => ⟨S16x32x512, .f32⟩
  | .hbm, ⟨67, _⟩ => ⟨S1x1x512, .f32⟩
  | .hbm, ⟨68, _⟩ => ⟨S16x32x512, .f32⟩
  | .hbm, ⟨69, _⟩ => ⟨S16x32x512, .f32⟩
  | .hbm, ⟨70, _⟩ => ⟨S_, .f32⟩
  | .hbm, ⟨71, _⟩ => ⟨S16x32x512, .f32⟩
  | .hbm, ⟨72, _⟩ => ⟨S16x32x512, .f32⟩
  | .hbm, ⟨73, _⟩ => ⟨S_, .f32⟩
  | .hbm, ⟨74, _⟩ => ⟨S16x512, .f32⟩
  | .hbm, ⟨75, _⟩ => ⟨S16x512, .f32⟩
  | .hbm, ⟨76, _⟩ => ⟨S1x512, .f32⟩
  | .hbm, ⟨77, _⟩ => ⟨S16x512, .f32⟩
  | .hbm, ⟨78, _⟩ => ⟨S16x512, .f32⟩
  | .hbm, ⟨79, _⟩ => ⟨S16x512, .f32⟩
  | .hbm, ⟨80, _⟩ => ⟨S16x512, .f32⟩
  | .hbm, ⟨81, _⟩ => ⟨S_, .f32⟩
  | .hbm, ⟨82, _⟩ => ⟨S16x512, .f32⟩
  | .hbm, ⟨83, _⟩ => ⟨S16x512, .f32⟩
  | .hbm, ⟨84, _⟩ => ⟨S_, .f32⟩
  | .hbm, ⟨85, _⟩ => ⟨S16x512, .f32⟩
  | .hbm, ⟨86, _⟩ => ⟨S16x512, .f32⟩
  | .hbm, ⟨87, _⟩ => ⟨S16x1x1x512, .f32⟩
  | .hbm, ⟨88, _⟩ => ⟨S16x64x64x512, .f32⟩
  | .hbm, ⟨89, _⟩ => ⟨S16x64x64x512, .f32⟩
  | .hbm, ⟨90, _⟩ => ⟨S16x1, .f32⟩
  | .hbm, ⟨91, _⟩ => ⟨S1x1, .f32⟩
  | .hbm, ⟨92, _⟩ => ⟨S16x1, .f32⟩
  | .hbm, ⟨93, _⟩ => ⟨S16x1, .f32⟩
  | _, _ => ⟨S16x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_cst : Ref sig .tc := ⟨.hbm, 70, rfl⟩
abbrev main_call0_v0 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  shapeCasts_S16x64x64x512_S16x4096x512 : S16x64x64x512.ShapeCasts S16x4096x512
  reducesTo_S16x4096x512_S16x4096_d2 : S16x4096x512.ReducesTo [2] S16x4096
  h_S_ : 0 < S_.numel
  bcast_S16x4096_S16x4096x1_0_1 : S16x4096.BroadcastsInDim S16x4096x1 (![0, 1] : Fin 2 → Fin S16x4096x1.rank)
  reducesTo_S32x512_S32_d1 : S32x512.ReducesTo [1] S32
  bcast_S_S16x4096x32 : S_.BroadcastsInDim S16x4096x32 (![] : Fin 0 → Fin S16x4096x32.rank)
  bcast_S16x4096x1_S16x4096x32_0_1_2 : S16x4096x1.BroadcastsInDim S16x4096x32 (![0, 1, 2] : Fin 3 → Fin S16x4096x32.rank)
  bcast_S32_S1x1x32_2 : S32.BroadcastsInDim S1x1x32 (![2] : Fin 1 → Fin S1x1x32.rank)
  bcast_S1x1x32_S16x4096x32_0_1_2 : S1x1x32.BroadcastsInDim S16x4096x32 (![0, 1, 2] : Fin 3 → Fin S16x4096x32.rank)
  reducesTo_S16x4096x32_S16x4096_d2 : S16x4096x32.ReducesTo [2] S16x4096
  bcast_S_S16x4096 : S_.BroadcastsInDim S16x4096 (![] : Fin 0 → Fin S16x4096.rank)
  reducesTo_S16x4096x32_S16x32_d1 : S16x4096x32.ReducesTo [1] S16x32
  bcast_S16x32_S16x32x1_0_1 : S16x32.BroadcastsInDim S16x32x1 (![0, 1] : Fin 2 → Fin S16x32x1.rank)
  bcast_S32x512_S1x32x512_1_2 : S32x512.BroadcastsInDim S1x32x512 (![1, 2] : Fin 2 → Fin S1x32x512.rank)
  bcast_S16x32x1_S16x32x512_0_1_2 : S16x32x1.BroadcastsInDim S16x32x512 (![0, 1, 2] : Fin 3 → Fin S16x32x512.rank)
  bcast_S1x32x512_S16x32x512_0_1_2 : S1x32x512.BroadcastsInDim S16x32x512 (![0, 1, 2] : Fin 3 → Fin S16x32x512.rank)
  bcast_S512_S1x1x512_2 : S512.BroadcastsInDim S1x1x512 (![2] : Fin 1 → Fin S1x1x512.rank)
  bcast_S1x1x512_S16x32x512_0_1_2 : S1x1x512.BroadcastsInDim S16x32x512 (![0, 1, 2] : Fin 3 → Fin S16x32x512.rank)
  bcast_S_S512 : S_.BroadcastsInDim S512 (![] : Fin 0 → Fin S512.rank)
  bcast_S_S16x32x512 : S_.BroadcastsInDim S16x32x512 (![] : Fin 0 → Fin S16x32x512.rank)
  reducesTo_S16x32x512_S16x512_d1 : S16x32x512.ReducesTo [1] S16x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  bcast_S16x512_S16x1x1x512_0_3 : S16x512.BroadcastsInDim S16x1x1x512 (![0, 3] : Fin 2 → Fin S16x1x1x512.rank)
  bcast_S16x1x1x512_S16x64x64x512_0_1_2_3 : S16x1x1x512.BroadcastsInDim S16x64x64x512 (![0, 1, 2, 3] : Fin 4 → Fin S16x64x64x512.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  dot_S16x4096x512_S32x512_S16x4096x32_2_1_01_0_n_n_wf : DotDims.WF S16x4096x512 S32x512 S16x4096x32 [2] [1] [0, 1] [0] [] []
  dot_S16x4096x32_S16x4096x512_S16x32x512_1_1_2_2_0_0_wf : DotDims.WF S16x4096x32 S16x4096x512 S16x32x512 [1] [1] [2] [2] [0] [0]
  dot_S16x512_S512x512_S16x512_1_0_0_1_n_n_wf : DotDims.WF S16x512 S512x512 S16x512 [1] [0] [0] [1] [] []
  dot_S16x512_S512x1_S16x1_1_0_0_1_n_n_wf : DotDims.WF S16x512 S512x1 S16x1 [1] [0] [0] [1] [] []

variable [Facts₀]

def dot_S16x4096x512_S32x512_S16x4096x32_2_1_01_0_n_n : DotDims S16x4096x512 S32x512 S16x4096x32 where
  lhsContracting := [2]
  rhsContracting := [1]
  lhsNonContracting := [0, 1]
  rhsNonContracting := [0]
  lhsBatch := []
  rhsBatch := []
  wf := dot_S16x4096x512_S32x512_S16x4096x32_2_1_01_0_n_n_wf
def dot_S16x4096x32_S16x4096x512_S16x32x512_1_1_2_2_0_0 : DotDims S16x4096x32 S16x4096x512 S16x32x512 where
  lhsContracting := [1]
  rhsContracting := [1]
  lhsNonContracting := [2]
  rhsNonContracting := [2]
  lhsBatch := [0]
  rhsBatch := [0]
  wf := dot_S16x4096x32_S16x4096x512_S16x32x512_1_1_2_2_0_0_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S16x512_S512x1_S16x1_1_0_0_1_n_n : DotDims S16x512 S512x1 S16x1 where
  lhsContracting := [1]
  rhsContracting := [0]
  lhsNonContracting := [0]
  rhsNonContracting := [1]
  lhsBatch := []
  rhsBatch := []
  wf := dot_S16x512_S512x1_S16x1_1_0_0_1_n_n_wf

class Facts : Prop extends Facts₀ where

variable [Facts]
-- ==== Proof.KEncRuns.lean ====
/-
  Region 0 (the encoder kernel over the grid of 16 images × 4 row tiles): what its three control cases share.

  The body branches twice on the row-tile coordinate: at tile 0 it clears the two accumulators it keeps in scratch
  memory, at tile 3 it turns them into the image's encoding and stores that into the output block. So a grid point is
  in one of three cases: first tile (clear, accumulate), middle tile (accumulate), last tile (accumulate, emit).
  Here: the two conditions in closed form over the linear point number, where the output window is idle, the names of
  the memory references the body is called with, and the region's invariant with the scratch buffers set apart.
-/
import proofs.«123844_j1666447310975_2_alg».proof.Proof.Gen.Kernel.Launch
import proofs.«123844_j1666447310975_2_alg».proof.Proof.Gen.Kernel.Skeleton
import proofs.«123844_j1666447310975_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the image's first row tile", as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points whose number is 0 modulo 4 (the tile coordinate runs fastest). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the image's last row tile". -/
abbrev cond0_1 (i : grid0.Coords) : Prop := k0_cond2 i = 1#1
/-- It holds exactly at the points whose number is 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- On a first tile the output block is not stored and not written back. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
/-- Nor on a middle tile. -/
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
/-- On a last tile it is stored. -/
theorem liveAt0_7_C : ∀ t : Fin cfg0.N, ¬cond0_0 (grid0.coords t) → cond0_1 (grid0.coords t) → cfg0.idle 7 (grid0.coords t) = false := by decide +kernel

/-! ## The memory references the body is called with -/

/-- One staging buffer of the output window, through which its contents are stated. -/
abbrev VO0_7 : View sig .tc .vmem S1x1x512 .f32 := (Memref.whole cc0_stg7_0 : Memref sig .tc .vmem S1x1x512 .f32).view
abbrev ms0_0 (t : Fin cfg0.N) : Memref sig .tc .vmem S1x1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
/-- The accumulator of weighted rows (32 codewords × 512 features) and the accumulator of weights (32 × 1): whole scratch buffers. -/
abbrev scM0 : Memref sig .tc .vmem S32x512 .f32 := Memref.whole cc0_scratch0
abbrev scM1 : Memref sig .tc .vmem S32x1 .f32 := Memref.whole cc0_scratch1
abbrev VS0 : View sig .tc .vmem S32x512 .f32 := scM0.view
abbrev VS1 : View sig .tc .vmem S32x1 .f32 := scM1.view

/-- The other region's staging buffers, which this region never touches: each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's plain invariant with the two accumulators set apart as owned memory references at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ others (F := F) c) ∗ (∃ r, prngReg c r)) := by
  unfold Pipeline.ΦA others; rw [scopedRest0_eq]; simp only [scM0, scM1, owns_whole]; try rfl

end Cert.Kernel.Hand

end
-- ==== Proof.KEncRunA.lean ====
/-
  Region 0, first row tile: the body clears both accumulators, then adds this tile's weighted rows and weights into
  them; it stores nothing into the output block. The run of the body is found by symbolic execution; what each
  accumulator ends with is recorded as the list of the stores made into it.
-/
import proofs.«123844_j1666447310975_2_alg».proof.Proof.KEncRuns

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memory references — the feature tile, the codewords and the smoothing factors at their contents, the two
    accumulators at anything — the body at a first tile runs to the continuation holding the three inputs as they
    were and each accumulator with its stores written. -/
noncomputable def kernelRun0_A (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : cond0_0 i) (hc1 : ¬cond0_1 i)
    (x0 : Vec F S1x1024x512 .f32) (x1 : Vec F S32x512 .f32) (x2 : Vec F S1x32 .f32) :
    Σ' (LS0 : List (View.Piece (Elt F) S32x512 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__encoder_kernel_eq_skeleton]; unfold cc0__encoder_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KEncRunB.lean ====
/-
  Region 0, a middle row tile: the body adds this tile's weighted rows and weights into the two accumulators, which
  hold what the tile before left; it stores nothing into the output block.
-/
import proofs.«123844_j1666447310975_2_alg».proof.Proof.KEncRuns

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memory references — the three inputs at their contents, the two accumulators at the contents the tile
    before left — the body at a middle tile runs to the continuation holding the inputs as they were and each
    accumulator with its stores written. -/
noncomputable def kernelRun0_B (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : ¬cond0_0 i) (hc1 : ¬cond0_1 i)
    (x0 : Vec F S1x1024x512 .f32) (x1 : Vec F S32x512 .f32) (x2 : Vec F S1x32 .f32) (xs0 : Vec F S32x512 .f32) (xs1 : Vec F S32x1 .f32) :
    Σ' (LS0 : List (View.Piece (Elt F) S32x512 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__encoder_kernel_eq_skeleton]; unfold cc0__encoder_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KEncRunC.lean ====
/-
  Region 0, last row tile: the body adds this tile's weighted rows and weights into the two accumulators, then reads
  them back, forms the residuals against the codewords, normalises them with the four per-feature parameter rows, cuts
  them off at zero, sums over the codewords and stores the 512 sums as the output block.
-/
import proofs.«123844_j1666447310975_2_alg».proof.Proof.KEncRuns

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memory references — the seven inputs at their contents, the output block at anything, the two
    accumulators at the contents the tile before left — the body at a last tile runs to the continuation holding the
    inputs as they were and the output block and each accumulator with their stores written. -/
noncomputable def kernelRun0_C (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : ¬cond0_0 i) (hc1 : cond0_1 i)
    (x0 : Vec F S1x1024x512 .f32) (x1 : Vec F S32x512 .f32) (x2 : Vec F S1x32 .f32) (x3 x4 x5 x6 : Vec F S1x512 .f32) (xs0 : Vec F S32x512 .f32) (xs1 : Vec F S32x1 .f32) :
    Σ' (L7 : List (View.Piece (Elt F) S1x1x512 .f32)) (LS0 : List (View.Piece (Elt F) S32x512 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__encoder_kernel_eq_skeleton]; unfold cc0__encoder_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    iexists _; iexact HS1

end Cert.Kernel.Hand

end
-- ==== Proof.KEncRegion.lean ====
/-
  Region 0 (the encoder kernel) as one stage of the program: at any contents `V` of the device's buffers when the
  region is entered, what the two accumulators and the output block hold after every grid point, the region's
  invariant carrying the accumulators from point to point, and the obligation that the body, run at a point on what
  the pipeline hands it, leaves exactly that.

  Points are numbered image by image, four row tiles per image. After a first tile the accumulators hold that tile's
  sums alone; after a later tile, the sums of the tiles of the image so far; after the fourth, the output block holds
  the image's encoding. Between the fourth tile of one image and the first of the next nothing is carried: the first
  tile clears the accumulators before it reads them.
-/
import proofs.«123844_j1666447310975_2_alg».proof.Proof.KEncRunA
import proofs.«123844_j1666447310975_2_alg».proof.Proof.KEncRunB
import proofs.«123844_j1666447310975_2_alg».proof.Proof.KEncRunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the pipeline fetched it there
    or kept it from the point before (the block index has then not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## What one point leaves: the output block, the accumulator of weighted rows, the accumulator of weights -/

/-- At a first tile: the output block is not stored (a value nothing reads stands in its place); each accumulator
    holds its stores read back. -/
def ptA (c : Dev nD) (t : Fin cfg0.N) (hc0 : cond0_0 (grid0.coords t)) (hc1 : ¬cond0_1 (grid0.coords t)) :
    Vec F S1x1x512 .f32 × Vec F S32x512 .f32 × Vec F S32x1 .f32 :=
  (VO0_7.read (Elt F) VO0_7.junk,
   VS0.read (Elt F) (VS0.writes (Elt F) VS0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).1),
   VS1.read (Elt F) (VS1.writes (Elt F) VS1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).2.1))

/-- At a middle tile, over what the point before left in the accumulators. -/
def ptB (c : Dev nD) (t : Fin cfg0.N) (hc0 : ¬cond0_0 (grid0.coords t)) (hc1 : ¬cond0_1 (grid0.coords t))
    (p0 : Vec F S32x512 .f32) (p1 : Vec F S32x1 .f32) : Vec F S1x1x512 .f32 × Vec F S32x512 .f32 × Vec F S32x1 .f32 :=
  (VO0_7.read (Elt F) VO0_7.junk,
   VS0.read (Elt F) (VS0.writes (Elt F) VS0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).1),
   VS1.read (Elt F) (VS1.writes (Elt F) VS1.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).2.1))

/-- At a last tile, over what the point before left in the accumulators: now the output block is stored too. -/
def ptC (c : Dev nD) (t : Fin cfg0.N) (hc0 : ¬cond0_0 (grid0.coords t)) (hc1 : cond0_1 (grid0.coords t))
    (p0 : Vec F S32x512 .f32) (p1 : Vec F S32x1 .f32) : Vec F S1x1x512 .f32 × Vec F S32x512 .f32 × Vec F S32x1 .f32 :=
  (VO0_7.read (Elt F) (VO0_7.writes (Elt F) VO0_7.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).1),
   VS0.read (Elt F) (VS0.writes (Elt F) VS0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.1),
   VS1.read (Elt F) (VS1.writes (Elt F) VS1.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.2.1))

/-! The stores of each case tile the buffer they go into, so they cover it. -/

theorem scover0_A_0 (c : Dev nD) (t : Fin cfg0.N) (hc0 : cond0_0 (grid0.coords t)) (hc1 : ¬cond0_1 (grid0.coords t)) (y : S32x512.Idx) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).1, y ∈ pc.1.set :=
  View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).1 S32x512.size (by sl_kernel_rfl) y
theorem scover0_A_1 (c : Dev nD) (t : Fin cfg0.N) (hc0 : cond0_0 (grid0.coords t)) (hc1 : ¬cond0_1 (grid0.coords t)) (y : S32x1.Idx) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).2.1, y ∈ pc.1.set :=
  View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).2.1 S32x1.size (by sl_kernel_rfl) y
theorem scover0_B_0 (c : Dev nD) (t : Fin cfg0.N) (hc0 : ¬cond0_0 (grid0.coords t)) (hc1 : ¬cond0_1 (grid0.coords t))
    (p0 : Vec F S32x512 .f32) (p1 : Vec F S32x1 .f32) (y : S32x512.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).1, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).1 S32x512.size (by sl_kernel_rfl) y
theorem scover0_B_1 (c : Dev nD) (t : Fin cfg0.N) (hc0 : ¬cond0_0 (grid0.coords t)) (hc1 : ¬cond0_1 (grid0.coords t))
    (p0 : Vec F S32x512 .f32) (p1 : Vec F S32x1 .f32) (y : S32x1.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).2.1, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).2.1 S32x1.size (by sl_kernel_rfl) y
theorem cover0_C_7 (c : Dev nD) (t : Fin cfg0.N) (hc0 : ¬cond0_0 (grid0.coords t)) (hc1 : cond0_1 (grid0.coords t))
    (p0 : Vec F S32x512 .f32) (p1 : Vec F S32x1 .f32) (y : S1x1x512.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).1, y ∈ pc.1.set :=
  View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).1 S1x1x512.size (by sl_kernel_rfl) y
theorem scover0_C_0 (c : Dev nD) (t : Fin cfg0.N) (hc0 : ¬cond0_0 (grid0.coords t)) (hc1 : cond0_1 (grid0.coords t))
    (p0 : Vec F S32x512 .f32) (p1 : Vec F S32x1 .f32) (y : S32x512.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.1, y ∈ pc.1.set :=
  View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.1 S32x512.size (by sl_kernel_rfl) y
theorem scover0_C_1 (c : Dev nD) (t : Fin cfg0.N) (hc0 : ¬cond0_0 (grid0.coords t)) (hc1 : cond0_1 (grid0.coords t))
    (p0 : Vec F S32x512 .f32) (p1 : Vec F S32x1 .f32) (y : S32x1.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.2.1, y ∈ pc.1.set :=
  View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.2.1 S32x1.size (by sl_kernel_rfl) y

/-! ## What the output block and the accumulators hold after each point -/

/-- By recursion on the point's number `n`: the case its number modulo 4 selects, a later tile over what the tile
    before left in the accumulators. -/
def outsAt0 (c : Dev nD) : (n : ℕ) → n < cfg0.N → Vec F S1x1x512 .f32 × Vec F S32x512 .f32 × Vec F S32x1 .f32
  | 0, hn => ptA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 4 = 0 then
      if h1 : (n + 1) % 4 = 3 then
        False.elim (by omega)
      else
        ptA V c ⟨n + 1, hn⟩ ((hcond0_0 ⟨n + 1, hn⟩).mpr h0) (fun h => h1 ((hcond0_1 ⟨n + 1, hn⟩).mp h))
    else
      if h1 : (n + 1) % 4 = 3 then
        ptC V c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2
      else
        ptB V c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2

theorem outsAt0_A (c : Dev nD) (t : Fin cfg0.N) (h0 : t.val % 4 = 0) (h1 : ¬t.val % 4 = 3) :
    outsAt0 V c t.val t.isLt = ptA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = ptB V c t (fun h => h0 ((hcond0_0 t).mp h)) (fun h => h1 ((hcond0_1 t).mp h))
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = ptC V c t (fun h => h0 ((hcond0_0 t).mp h)) ((hcond0_1 t).mpr h1)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before point `n`: before the first point the plain invariant (both accumulators at anything); afterwards each
    accumulator at what the point before left in it, the other region's buffers and the generator register as they are. -/
def PhiS (c : Dev nD) : (n : ℕ) → n ≤ cfg0.N → sProp 𝕄
  | 0, _ => Pipeline.ΦA spec0 c
  | n + 1, hn => iprop(iprop(owns (c : Thread nD τ) scM0 fullShare (outsAt0 V c n hn).2.1 ∗ owns (c : Thread nD τ) scM1 fullShare (outsAt0 V c n hn).2.2 ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (outsAt0 V c n hn).2.1 ∗ owns (c : Thread nD τ) scM1 fullShare (outsAt0 V c n hn).2.2 ∗ others (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (outsAt0 V c (n - 1) (by omega)).2.1 ∗ owns (c : Thread nD τ) scM1 fullShare (outsAt0 V c (n - 1) (by omega)).2.2 ∗ others (F := F) c) ∗ (∃ r, prngReg c r)) := by
  cases n with
  | zero => exact absurd rfl hz
  | succ n => rfl

/-! ## The pipeline's proof data -/

/-- The arrays as the region finds them; after the body at point `t` each input's buffer at its block and the output
    block at `outsAt0`'s first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' buffers hold their blocks; the point's number modulo 4 says which case it is
    in; the invariant hands the body the accumulators (at anything before the very first point, else at what the point
    before left) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    · -- a first tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold ptA; (try dsimp only)
      by_cases hz : t.val = 0
      · rw [PhiS_castSucc V c t, PhiS_zero V c _ _ hz, PhiA0_eq]
        iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) ((hcond0_0 t).mpr h0) (fun h => h1 ((hcond0_1 t).mp h)) (iblk0 V c 0 t) (iblk0 V c 1 t) (iblk0 V c 2 t)).2.2 Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 V c t _ _)
            isplitl [HS1]
            · unfold owns; iexists _; isplitr
              swap; · iexact HS1
              ipureintro; exact View.read_writes_of_cover _ _ _ _ _ (scover0_A_1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) ((hcond0_0 t).mpr h0) (fun h => h1 ((hcond0_1 t).mp h)) (iblk0 V c 0 t) (iblk0 V c 1 t) (iblk0 V c 2 t)).2.2 Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 V c t _ _)
            isplitl [HS1]
            · unfold owns; iexists _; isplitr
              swap; · iexact HS1
              ipureintro; exact View.read_writes_of_cover _ _ _ _ _ (scover0_A_1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    · -- a last tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold ptC; (try dsimp only)
      have hz : t.val ≠ 0 := by omega
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 V c t _ _ _ _)
          isplitl [HS1]
          · unfold owns; iexists _; isplitr
            swap; · iexact HS1
            ipureintro; exact View.read_writes_of_cover _ _ _ _ _ (scover0_C_1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 V c t _ _ _ _)
    · -- a middle tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold ptB; (try dsimp only)
      have hz : t.val ≠ 0 := by omega
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) (fun h => h0 ((hcond0_0 t).mp h)) (fun h => h1 ((hcond0_1 t).mp h)) (iblk0 V c 0 t) (iblk0 V c 1 t) (iblk0 V c 2 t) _ _).2.2 Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 V c t _ _ _ _)
          isplitl [HS1]
          · unfold owns; iexists _; isplitr
            swap; · iexact HS1
            ipureintro; exact View.read_writes_of_cover _ _ _ _ _ (scover0_B_1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the plain one back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Region

end Cert.Kernel.Hand

end
-- ==== Proof.KMulRegion.lean ====
/-
  The multiply region of the kernel program, at an arbitrary entry valuation.

  Region 1 walks a 16 x 4 grid.  At grid point (b, j) it is handed rows 1024 j .. 1024 j + 1023 of
  image b (a 1 x 1024 x 512 tile of the 16 x 4096 x 512 array), and the gate row of image b (a
  1 x 1 x 512 tile of the 16 x 1 x 512 array; its block index depends on b alone, so the same
  row serves the four tiles of an image).  It writes back a tile of the same shape as the image
  tile whose entry (0, r, f) is  tile (0, r, f) * gate (0, 0, f).

  Nothing is carried from one grid point to the next: what the body leaves in the output tile is
  a function of the two input tiles at that point, and both input tiles are left as found.
-/
import proofs.«123844_j1666447310975_2_alg».proof.Proof.Gen.Kernel.Launch
import proofs.«123844_j1666447310975_2_alg».proof.Proof.Gen.Kernel.Skeleton
import proofs.«123844_j1666447310975_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section MulRegion

-- what every buffer of a core holds when the region is entered
variable (V : (c : Dev nD) → (b : Ref sig .tc) → Buf (Elt F) ((c : Thread nD τ).loc b))

/-! ## The tiles a grid point is handed -/

/-- The tile of window `w` at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The image tile sits in its staging buffer at every grid point, whether or not it was copied in there:
    a point that copies nothing has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate row likewise: it is copied in only at the first of an image's four tiles, and its block index
    does not move over the other three. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

/-- All of a 1 x 1024 x 512 tile. -/
abbrev tileAll : Rect S1x1024x512 := Rect.unit (s := S1x1024x512) ![0, 0, 0] S1x1024x512.size inb_S1x1024x512_S1x1024x512_0_0_0
/-- All of a 1 x 1 x 512 gate row. -/
abbrev gateAll : Rect S1x1x512 := Rect.unit (s := S1x1x512) ![0, 0, 0] S1x1x512.size inb_S1x1x512_S1x1x512_0_0_0

/-! ## What the body leaves in the output tile -/

/-- The output tile after the body, from the image tile `x0` and the gate row `x1`: one store over the whole
    tile, of the product  x0 (0, r, f) * x1 (0, 0, f). -/
def out1_2 (x0 : Vec F S1x1024x512 .f32) (x1 : Vec F S1x1x512 .f32) : Vec F S1x1024x512 .f32 :=
  View.canon [⟨tileAll, k1_pay1 (View.ld x0 tileAll) (View.ld x1 gateAll)⟩]

/-- That one store covers the tile. -/
theorem cover1_2 (p0 : Vec F S1x1024x512 .f32) (y : S1x1024x512.Idx) :
    ∃ pc ∈ ([⟨tileAll, p0⟩] : List (View.Piece (Elt F) S1x1024x512 .f32)), y ∈ pc.1.set :=
  View.cover_of_tiled [⟨tileAll, p0⟩] S1x1024x512.size (by rfl) y

/-! ## The body's triple -/

set_option maxHeartbeats 1000000 in
/-- Run on whole staging buffers — the image tile at `x0`, the gate row at `x1`, the output tile at anything — the
    body ends with both inputs as they were and the output tile at `out1_2 x0 x1`. -/
theorem sound_kernel1 (c : Dev nD) (E : Set ℕ) (i : grid1.Coords)
    (arg2 : Memref sig .tc .vmem S1x1024x512 .f32) (harg2 : arg2.IsWhole)
    (arg3 : Memref sig .tc .vmem S1x1x512 .f32) (harg3 : arg3.IsWhole)
    (arg4 : Memref sig .tc .vmem S1x1024x512 .f32) (harg4 : arg4.IsWhole)
    (x0 : Vec F S1x1024x512 .f32) (x1 : Vec F S1x1x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__mul_kernel i arg2 harg2 arg3 harg3 arg4 harg4) K := by
  simp only [cc1__mul_kernel_eq_skeleton]; unfold cc1__mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- Region 1 on core `c`: the arrays as the region finds them; after the body at point `t` both input buffers at
    their tiles and the output buffer at `out1_2` of them; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic grid point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end MulRegion

end Cert.Kernel.Hand

end
-- ==== Proof.KRun.lean ====
/-
  The run of the whole program, from the launch to the return, as five stretches:

    host operations (six reshapes of the arguments)  ·  region 0 (the encoder)  ·  host operations (the gate and the
    second result, eighteen operations on the encoding)  ·  region 1 (the multiply)  ·  one reshape of the product.

  Between two stretches a core holds every unscoped buffer whole at a known valuation, its generator register at
  some state, and owes nothing.  The valuations are a fold from the launch memory: a host stretch applies its
  operations; a region replaces its windows' arrays by what its write-backs leave and keeps every other buffer.
  No stretch writes an argument, so each argument ends as launched; the two results are read off the last valuation.
-/
import proofs.«123844_j1666447310975_2_alg».proof.Proof.KEncRegion
import proofs.«123844_j1666447310975_2_alg».proof.Proof.KMulRegion
import proofs.«123844_j1666447310975_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers' contents at each boundary -/

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After the six reshapes: what region 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the eighteen operations on the encoding: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last reshape: what the program returns with. -/
abbrev W5 : Dev nD → Valuation τ sig (Elt F) := fun c => StableHlo.after hostOps2 (W4 m ρ c)

/-! ## The arguments end as launched -/

/-- A buffer that no host operation writes and that is no window's array of either region holds at the end what it
    held at launch. -/
theorem W5_of_untouched (c : Dev nD) (b : Ref sig .tc) (h0 : b ∉ hostOps0_W) (h1 : b ∉ hostOps1_W) (h2 : b ∉ hostOps2_W)
    (ha0 : ∀ w, Pipeline.arrRef spec0 w ≠ b) (ha1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := StableHlo.after_of_writes_sub hostOps2 _ hostOps2_writes h2
    _ = W3 m ρ c (Proc.devRef .tc b) := W4_of_ne m ρ c b ha1
    _ = W2 m ρ c (Proc.devRef .tc b) := StableHlo.after_of_writes_sub hostOps1 _ hostOps1_writes h1
    _ = W1 m ρ c (Proc.devRef .tc b) := W2_of_ne m ρ c b ha0
    _ = W0 m ρ c (Proc.devRef .tc b) := StableHlo.after_of_writes_sub hostOps0 _ hostOps0_writes h0
    _ = m ((c : Thread nD τ).loc b) := rfl

theorem W5_main_arg0 (c : Dev nD) : W5 m ρ c (Proc.devRef .tc main_arg0) = m ((c : Thread nD τ).loc main_arg0) :=
  W5_of_untouched m ρ c main_arg0 (by decide) (by decide) (by decide) (by decide) (by decide)
theorem W5_main_arg2 (c : Dev nD) : W5 m ρ c (Proc.devRef .tc main_arg2) = m ((c : Thread nD τ).loc main_arg2) :=
  W5_of_untouched m ρ c main_arg2 (by decide) (by decide) (by decide) (by decide) (by decide)
theorem W5_main_arg3 (c : Dev nD) : W5 m ρ c (Proc.devRef .tc main_arg3) = m ((c : Thread nD τ).loc main_arg3) :=
  W5_of_untouched m ρ c main_arg3 (by decide) (by decide) (by decide) (by decide) (by decide)
theorem W5_main_arg4 (c : Dev nD) : W5 m ρ c (Proc.devRef .tc main_arg4) = m ((c : Thread nD τ).loc main_arg4) :=
  W5_of_untouched m ρ c main_arg4 (by decide) (by decide) (by decide) (by decide) (by decide)
theorem W5_main_arg5 (c : Dev nD) : W5 m ρ c (Proc.devRef .tc main_arg5) = m ((c : Thread nD τ).loc main_arg5) :=
  W5_of_untouched m ρ c main_arg5 (by decide) (by decide) (by decide) (by decide) (by decide)
theorem W5_main_arg6 (c : Dev nD) : W5 m ρ c (Proc.devRef .tc main_arg6) = m ((c : Thread nD τ).loc main_arg6) :=
  W5_of_untouched m ρ c main_arg6 (by decide) (by decide) (by decide) (by decide) (by decide)
theorem W5_main_arg7 (c : Dev nD) : W5 m ρ c (Proc.devRef .tc main_arg7) = m ((c : Thread nD τ).loc main_arg7) :=
  W5_of_untouched m ρ c main_arg7 (by decide) (by decide) (by decide) (by decide) (by decide)
theorem W5_main_arg8 (c : Dev nD) : W5 m ρ c (Proc.devRef .tc main_arg8) = m ((c : Thread nD τ).loc main_arg8) :=
  W5_of_untouched m ρ c main_arg8 (by decide) (by decide) (by decide) (by decide) (by decide)
theorem W5_main_arg9 (c : Dev nD) : W5 m ρ c (Proc.devRef .tc main_arg9) = m ((c : Thread nD τ).loc main_arg9) :=
  W5_of_untouched m ρ c main_arg9 (by decide) (by decide) (by decide) (by decide) (by decide)
theorem W5_main_arg10 (c : Dev nD) : W5 m ρ c (Proc.devRef .tc main_arg10) = m ((c : Thread nD τ).loc main_arg10) :=
  W5_of_untouched m ρ c main_arg10 (by decide) (by decide) (by decide) (by decide) (by decide)

/-- The codewords are region 0's second input window: an input window's array is never written back. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

/-! ## The two results, in terms of the regions' final arrays -/

/-- The second result is written by the host stretch between the regions and by nothing after it. -/
theorem W5_main_v21 (c : Dev nD) : W5 m ρ c (Proc.devRef .tc main_v21) = W3 m ρ c (Proc.devRef .tc main_v21) :=
  (StableHlo.after_of_writes_sub hostOps2 _ hostOps2_writes (by decide)).trans (W4_of_ne m ρ c main_v21 (by decide))

/-- Region 1's output array, as its write-backs leave it. -/
theorem W4_main_v23 (c : Dev nD) : W4 m ρ c (Proc.devRef .tc main_v23) = (dat1 (V3 m ρ) c).arrAt 2 cfg1.N :=
  W4_arr m ρ c 2

/-- Region 0's output array, as its write-backs leave it. -/
theorem W2_main_v6 (c : Dev nD) : W2 m ρ c (Proc.devRef .tc main_v6) = (dat0 (V1 m ρ) c).arrAt 7 cfg0.N :=
  W2_arr m ρ c 7

/-- The first result is region 1's output array, its 4096 rows per image regrouped as 64 x 64. -/
theorem W5_main_v24 (c : Dev nD) :
    W5 m ρ c (Proc.devRef .tc main_v24)
      = shapeCast S16x64x64x512 (W4 m ρ c (Proc.devRef .tc main_v23)) shapeCasts_S16x4096x512_S16x64x64x512 := by
  show StableHlo.after hostOps2 _ (Proc.devRef .tc main_v24) = _
  after_results
  rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev noPairs : GSem nD τ sig → Finset Unit := fun _ => ∅
abbrev lvl0 : GSem nD τ sig → Unit → ℕ := fun _ _ => 0
/-- What rides beside the buffers through every stretch: the generator register at some state, and nothing owed. -/
abbrev riding (c : Dev nD) : sProp 𝕄 := iprop((∃ r, prngReg c r) ∗ ∃ W, owes (c : Thread nD τ) (0 : CellTallies nD τ sig Unit) W)
/-- A host stretch as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- An unscoped reference of the core is among those the thread state holds. -/
theorem ucMem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register. -/
abbrev lastState (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0: entered from every unscoped buffer at `W1`, left at `W2`.  The generator register goes into the region's
    invariant and comes back; the invariant before the first point is the plain one, and after the last point it gives
    the plain one back (what the two accumulators hold is forgotten). -/
def reg0 : Pipeline.RegionSeg (pcfgs (F := F)) adm (pdats m ρ) () defs₀ 𝒱₀ noPairs lvl0 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs lvl0 0 fun _ _ => rfl
  pre c := iprop(StableHlo.held (c : Thread nD τ) (Pipeline.ucRefs τ sig) (W1 m ρ c) ∗ riding c)
  post c := iprop(StableHlo.held (c : Thread nD τ) (Pipeline.ucRefs τ sig) (W2 m ρ c) ∗ riding c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`.  Its invariant is the plain one at every
    point: the multiply keeps nothing between grid points. -/
def reg1 : Pipeline.RegionSeg (pcfgs (F := F)) adm (pdats m ρ) () defs₀ 𝒱₀ noPairs lvl0 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noPairs lvl0 1 fun _ _ => rfl
  pre c := iprop(StableHlo.held (c : Thread nD τ) (Pipeline.ucRefs τ sig) (W3 m ρ c) ∗ riding c)
  post c := iprop(StableHlo.held (c : Thread nD τ) (Pipeline.ucRefs τ sig) (W4 m ρ c) ∗ riding c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five stretches in order. -/
abbrev segs : List (Pipeline.Seg (pcfgs (F := F)) adm (pdats m ρ) () defs₀ 𝒱₀ noPairs lvl0) :=
  [ .host (hostSeg hostOps0 hostOps0_sub hostOps0_fresh (W0 m ρ)),
    .region (reg0 m ρ),
    .host (hostSeg hostOps1 hostOps1_sub hostOps1_fresh (W2 m ρ)),
    .region (reg1 m ρ),
    .host (hostSeg hostOps2 hostOps2_sub hostOps2_fresh (W4 m ρ)) ]
/-- The program is the run of its five stretches. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    the final memory holds every unscoped buffer of every core at the last valuation. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ noPairs lvl0 m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := lastState m ρ)
    (hch := ⟨fun _ => .rfl, fun _ => .rfl, fun _ => .rfl, fun _ => .rfl, fun _ => .rfl, fun c => by
      show iprop(StableHlo.held (c : Thread nD τ) (Pipeline.ucRefs τ sig) (W5 m ρ c)
          ∗ (∃ r, prngReg c r) ∗ ∃ W, owes (c : Thread nD τ) (0 : CellTallies nD τ sig Unit) W)
        ⊢ iprop((StableHlo.held (c : Thread nD τ) (Pipeline.ucRefs τ sig) (W5 m ρ c) ∗ ∃ r, prngReg c r)
          ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs lvl0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- Every argument array ends holding what it was launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨ (h c _ (ucMem main_arg0 (by decide))).trans (W5_main_arg0 m ρ c),
      (h c _ (ucMem main_arg1 (by decide))).trans (W5_main_arg1 m ρ c),
      (h c _ (ucMem main_arg2 (by decide))).trans (W5_main_arg2 m ρ c),
      (h c _ (ucMem main_arg3 (by decide))).trans (W5_main_arg3 m ρ c),
      (h c _ (ucMem main_arg4 (by decide))).trans (W5_main_arg4 m ρ c),
      (h c _ (ucMem main_arg5 (by decide))).trans (W5_main_arg5 m ρ c),
      (h c _ (ucMem main_arg6 (by decide))).trans (W5_main_arg6 m ρ c),
      (h c _ (ucMem main_arg7 (by decide))).trans (W5_main_arg7 m ρ c),
      (h c _ (ucMem main_arg8 (by decide))).trans (W5_main_arg8 m ρ c),
      (h c _ (ucMem main_arg9 (by decide))).trans (W5_main_arg9 m ρ c),
      (h c _ (ucMem main_arg10 (by decide))).trans (W5_main_arg10 m ρ c) ⟩) (run_all m ρ)

end Cert.Kernel.Hand

end
-- ==== Proof.EncRuns.lean ====
/-
  Region 0 (the encoder kernel over the grid of 16 images × 4 row tiles): what its three control cases share.

  The body branches twice on the row-tile coordinate: at tile 0 it clears the two accumulators it keeps in scratch
  memory, at tile 3 it turns them into the image's encoding and stores that into the output block. So a grid point is
  in one of three cases: first tile (clear, accumulate), middle tile (accumulate), last tile (accumulate, emit).
  Here: the two conditions in closed form over the linear point number, where the output window is idle, the names of
  the memory references the body is called with, and the region's invariant with the scratch buffers set apart.
-/
import proofs.«123844_j1666447310975_2_alg».proof.Proof.Gen.KernelIdeal.Launch
import proofs.«123844_j1666447310975_2_alg».proof.Proof.Gen.KernelIdeal.Skeleton
import proofs.«123844_j1666447310975_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the image's first row tile", as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points whose number is 0 modulo 4 (the tile coordinate runs fastest). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the image's last row tile". -/
abbrev cond0_1 (i : grid0.Coords) : Prop := k0_cond2 i = 1#1
/-- It holds exactly at the points whose number is 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- On a first tile the output block is not stored and not written back. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
/-- Nor on a middle tile. -/
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
/-- On a last tile it is stored. -/
theorem liveAt0_7_C : ∀ t : Fin cfg0.N, ¬cond0_0 (grid0.coords t) → cond0_1 (grid0.coords t) → cfg0.idle 7 (grid0.coords t) = false := by decide +kernel

/-! ## The memory references the body is called with -/

/-- One staging buffer of the output window, through which its contents are stated. -/
abbrev VO0_7 : View sig .tc .vmem S1x1x512 .f32 := (Memref.whole cc0_stg7_0 : Memref sig .tc .vmem S1x1x512 .f32).view
abbrev ms0_0 (t : Fin cfg0.N) : Memref sig .tc .vmem S1x1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
/-- The accumulator of weighted rows (32 codewords × 512 features) and the accumulator of weights (32 × 1): whole scratch buffers. -/
abbrev scM0 : Memref sig .tc .vmem S32x512 .f32 := Memref.whole cc0_scratch0
abbrev scM1 : Memref sig .tc .vmem S32x1 .f32 := Memref.whole cc0_scratch1
abbrev VS0 : View sig .tc .vmem S32x512 .f32 := scM0.view
abbrev VS1 : View sig .tc .vmem S32x1 .f32 := scM1.view

/-- The other region's staging buffers, which this region never touches: each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's plain invariant with the two accumulators set apart as owned memory references at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ others (F := F) c) ∗ (∃ r, prngReg c r)) := by
  unfold Pipeline.ΦA others; rw [scopedRest0_eq]; simp only [scM0, scM1, owns_whole]; try rfl

end Cert.KernelIdeal.Hand

end
-- ==== Proof.EncRunA.lean ====
/-
  Region 0, first row tile: the body clears both accumulators, then adds this tile's weighted rows and weights into
  them; it stores nothing into the output block. The run of the body is found by symbolic execution; what each
  accumulator ends with is recorded as the list of the stores made into it.
-/
import proofs.«123844_j1666447310975_2_alg».proof.Proof.EncRuns

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memory references — the feature tile, the codewords and the smoothing factors at their contents, the two
    accumulators at anything — the body at a first tile runs to the continuation holding the three inputs as they
    were and each accumulator with its stores written. -/
noncomputable def kernelRun0_A (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : cond0_0 i) (hc1 : ¬cond0_1 i)
    (x0 : Vec F S1x1024x512 .f32) (x1 : Vec F S32x512 .f32) (x2 : Vec F S1x32 .f32) :
    Σ' (LS0 : List (View.Piece (Elt F) S32x512 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__encoder_kernel_eq_skeleton]; unfold cc0__encoder_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.EncRunB.lean ====
/-
  Region 0, a middle row tile: the body adds this tile's weighted rows and weights into the two accumulators, which
  hold what the tile before left; it stores nothing into the output block.
-/
import proofs.«123844_j1666447310975_2_alg».proof.Proof.EncRuns

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memory references — the three inputs at their contents, the two accumulators at the contents the tile
    before left — the body at a middle tile runs to the continuation holding the inputs as they were and each
    accumulator with its stores written. -/
noncomputable def kernelRun0_B (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : ¬cond0_0 i) (hc1 : ¬cond0_1 i)
    (x0 : Vec F S1x1024x512 .f32) (x1 : Vec F S32x512 .f32) (x2 : Vec F S1x32 .f32) (xs0 : Vec F S32x512 .f32) (xs1 : Vec F S32x1 .f32) :
    Σ' (LS0 : List (View.Piece (Elt F) S32x512 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__encoder_kernel_eq_skeleton]; unfold cc0__encoder_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.EncRunC.lean ====
/-
  Region 0, last row tile: the body adds this tile's weighted rows and weights into the two accumulators, then reads
  them back, forms the residuals against the codewords, normalises them with the four per-feature parameter rows, cuts
  them off at zero, sums over the codewords and stores the 512 sums as the output block.
-/
import proofs.«123844_j1666447310975_2_alg».proof.Proof.EncRuns

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memory references — the seven inputs at their contents, the output block at anything, the two
    accumulators at the contents the tile before left — the body at a last tile runs to the continuation holding the
    inputs as they were and the output block and each accumulator with their stores written. -/
noncomputable def kernelRun0_C (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : ¬cond0_0 i) (hc1 : cond0_1 i)
    (x0 : Vec F S1x1024x512 .f32) (x1 : Vec F S32x512 .f32) (x2 : Vec F S1x32 .f32) (x3 x4 x5 x6 : Vec F S1x512 .f32) (xs0 : Vec F S32x512 .f32) (xs1 : Vec F S32x1 .f32) :
    Σ' (L7 : List (View.Piece (Elt F) S1x1x512 .f32)) (LS0 : List (View.Piece (Elt F) S32x512 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__encoder_kernel_eq_skeleton]; unfold cc0__encoder_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    iexists _; iexact HS1

end Cert.KernelIdeal.Hand

end
-- ==== Proof.EncRegion.lean ====
/-
  Region 0 (the encoder kernel) as one stage of the program: at any contents `V` of the device's buffers when the
  region is entered, what the two accumulators and the output block hold after every grid point, the region's
  invariant carrying the accumulators from point to point, and the obligation that the body, run at a point on what
  the pipeline hands it, leaves exactly that.

  Points are numbered image by image, four row tiles per image. After a first tile the accumulators hold that tile's
  sums alone; after a later tile, the sums of the tiles of the image so far; after the fourth, the output block holds
  the image's encoding. Between the fourth tile of one image and the first of the next nothing is carried: the first
  tile clears the accumulators before it reads them.
-/
import proofs.«123844_j1666447310975_2_alg».proof.Proof.EncRunA
import proofs.«123844_j1666447310975_2_alg».proof.Proof.EncRunB
import proofs.«123844_j1666447310975_2_alg».proof.Proof.EncRunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the pipeline fetched it there
    or kept it from the point before (the block index has then not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## What one point leaves: the output block, the accumulator of weighted rows, the accumulator of weights -/

/-- At a first tile: the output block is not stored (a value nothing reads stands in its place); each accumulator
    holds its stores read back. -/
def ptA (c : Dev nD) (t : Fin cfg0.N) (hc0 : cond0_0 (grid0.coords t)) (hc1 : ¬cond0_1 (grid0.coords t)) :
    Vec F S1x1x512 .f32 × Vec F S32x512 .f32 × Vec F S32x1 .f32 :=
  (VO0_7.read (Elt F) VO0_7.junk,
   VS0.read (Elt F) (VS0.writes (Elt F) VS0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).1),
   VS1.read (Elt F) (VS1.writes (Elt F) VS1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).2.1))

/-- At a middle tile, over what the point before left in the accumulators. -/
def ptB (c : Dev nD) (t : Fin cfg0.N) (hc0 : ¬cond0_0 (grid0.coords t)) (hc1 : ¬cond0_1 (grid0.coords t))
    (p0 : Vec F S32x512 .f32) (p1 : Vec F S32x1 .f32) : Vec F S1x1x512 .f32 × Vec F S32x512 .f32 × Vec F S32x1 .f32 :=
  (VO0_7.read (Elt F) VO0_7.junk,
   VS0.read (Elt F) (VS0.writes (Elt F) VS0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).1),
   VS1.read (Elt F) (VS1.writes (Elt F) VS1.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).2.1))

/-- At a last tile, over what the point before left in the accumulators: now the output block is stored too. -/
def ptC (c : Dev nD) (t : Fin cfg0.N) (hc0 : ¬cond0_0 (grid0.coords t)) (hc1 : cond0_1 (grid0.coords t))
    (p0 : Vec F S32x512 .f32) (p1 : Vec F S32x1 .f32) : Vec F S1x1x512 .f32 × Vec F S32x512 .f32 × Vec F S32x1 .f32 :=
  (VO0_7.read (Elt F) (VO0_7.writes (Elt F) VO0_7.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).1),
   VS0.read (Elt F) (VS0.writes (Elt F) VS0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.1),
   VS1.read (Elt F) (VS1.writes (Elt F) VS1.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.2.1))

/-! The stores of each case tile the buffer they go into, so they cover it. -/

theorem scover0_A_0 (c : Dev nD) (t : Fin cfg0.N) (hc0 : cond0_0 (grid0.coords t)) (hc1 : ¬cond0_1 (grid0.coords t)) (y : S32x512.Idx) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).1, y ∈ pc.1.set :=
  View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).1 S32x512.size (by sl_kernel_rfl) y
theorem scover0_A_1 (c : Dev nD) (t : Fin cfg0.N) (hc0 : cond0_0 (grid0.coords t)) (hc1 : ¬cond0_1 (grid0.coords t)) (y : S32x1.Idx) :
    ∃ pc ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).2.1, y ∈ pc.1.set :=
  View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t)).2.1 S32x1.size (by sl_kernel_rfl) y
theorem scover0_B_0 (c : Dev nD) (t : Fin cfg0.N) (hc0 : ¬cond0_0 (grid0.coords t)) (hc1 : ¬cond0_1 (grid0.coords t))
    (p0 : Vec F S32x512 .f32) (p1 : Vec F S32x1 .f32) (y : S32x512.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).1, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).1 S32x512.size (by sl_kernel_rfl) y
theorem scover0_B_1 (c : Dev nD) (t : Fin cfg0.N) (hc0 : ¬cond0_0 (grid0.coords t)) (hc1 : ¬cond0_1 (grid0.coords t))
    (p0 : Vec F S32x512 .f32) (p1 : Vec F S32x1 .f32) (y : S32x1.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).2.1, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) p0 p1).2.1 S32x1.size (by sl_kernel_rfl) y
theorem cover0_C_7 (c : Dev nD) (t : Fin cfg0.N) (hc0 : ¬cond0_0 (grid0.coords t)) (hc1 : cond0_1 (grid0.coords t))
    (p0 : Vec F S32x512 .f32) (p1 : Vec F S32x1 .f32) (y : S1x1x512.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).1, y ∈ pc.1.set :=
  View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).1 S1x1x512.size (by sl_kernel_rfl) y
theorem scover0_C_0 (c : Dev nD) (t : Fin cfg0.N) (hc0 : ¬cond0_0 (grid0.coords t)) (hc1 : cond0_1 (grid0.coords t))
    (p0 : Vec F S32x512 .f32) (p1 : Vec F S32x1 .f32) (y : S32x512.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.1, y ∈ pc.1.set :=
  View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.1 S32x512.size (by sl_kernel_rfl) y
theorem scover0_C_1 (c : Dev nD) (t : Fin cfg0.N) (hc0 : ¬cond0_0 (grid0.coords t)) (hc1 : cond0_1 (grid0.coords t))
    (p0 : Vec F S32x512 .f32) (p1 : Vec F S32x1 .f32) (y : S32x1.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.2.1, y ∈ pc.1.set :=
  View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) hc0 hc1 (iblk0 V c 0 t) (iblk0 V c 1 t) (iblk0 V c 2 t) (iblk0 V c 3 t) (iblk0 V c 4 t) (iblk0 V c 5 t) (iblk0 V c 6 t) p0 p1).2.2.1 S32x1.size (by sl_kernel_rfl) y

/-! ## What the output block and the accumulators hold after each point -/

/-- By recursion on the point's number `n`: the case its number modulo 4 selects, a later tile over what the tile
    before left in the accumulators. -/
def outsAt0 (c : Dev nD) : (n : ℕ) → n < cfg0.N → Vec F S1x1x512 .f32 × Vec F S32x512 .f32 × Vec F S32x1 .f32
  | 0, hn => ptA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 4 = 0 then
      if h1 : (n + 1) % 4 = 3 then
        False.elim (by omega)
      else
        ptA V c ⟨n + 1, hn⟩ ((hcond0_0 ⟨n + 1, hn⟩).mpr h0) (fun h => h1 ((hcond0_1 ⟨n + 1, hn⟩).mp h))
    else
      if h1 : (n + 1) % 4 = 3 then
        ptC V c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2
      else
        ptB V c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2

theorem outsAt0_A (c : Dev nD) (t : Fin cfg0.N) (h0 : t.val % 4 = 0) (h1 : ¬t.val % 4 = 3) :
    outsAt0 V c t.val t.isLt = ptA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = ptB V c t (fun h => h0 ((hcond0_0 t).mp h)) (fun h => h1 ((hcond0_1 t).mp h))
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = ptC V c t (fun h => h0 ((hcond0_0 t).mp h)) ((hcond0_1 t).mpr h1)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before point `n`: before the first point the plain invariant (both accumulators at anything); afterwards each
    accumulator at what the point before left in it, the other region's buffers and the generator register as they are. -/
def PhiS (c : Dev nD) : (n : ℕ) → n ≤ cfg0.N → sProp 𝕄
  | 0, _ => Pipeline.ΦA spec0 c
  | n + 1, hn => iprop(iprop(owns (c : Thread nD τ) scM0 fullShare (outsAt0 V c n hn).2.1 ∗ owns (c : Thread nD τ) scM1 fullShare (outsAt0 V c n hn).2.2 ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (outsAt0 V c n hn).2.1 ∗ owns (c : Thread nD τ) scM1 fullShare (outsAt0 V c n hn).2.2 ∗ others (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (outsAt0 V c (n - 1) (by omega)).2.1 ∗ owns (c : Thread nD τ) scM1 fullShare (outsAt0 V c (n - 1) (by omega)).2.2 ∗ others (F := F) c) ∗ (∃ r, prngReg c r)) := by
  cases n with
  | zero => exact absurd rfl hz
  | succ n => rfl

/-! ## The pipeline's proof data -/

/-- The arrays as the region finds them; after the body at point `t` each input's buffer at its block and the output
    block at `outsAt0`'s first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' buffers hold their blocks; the point's number modulo 4 says which case it is
    in; the invariant hands the body the accumulators (at anything before the very first point, else at what the point
    before left) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    · -- a first tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold ptA; (try dsimp only)
      by_cases hz : t.val = 0
      · rw [PhiS_castSucc V c t, PhiS_zero V c _ _ hz, PhiA0_eq]
        iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) ((hcond0_0 t).mpr h0) (fun h => h1 ((hcond0_1 t).mp h)) (iblk0 V c 0 t) (iblk0 V c 1 t) (iblk0 V c 2 t)).2.2 Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 V c t _ _)
            isplitl [HS1]
            · unfold owns; iexists _; isplitr
              swap; · iexact HS1
              ipureintro; exact View.read_writes_of_cover _ _ _ _ _ (scover0_A_1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) ((hcond0_0 t).mpr h0) (fun h => h1 ((hcond0_1 t).mp h)) (iblk0 V c 0 t) (iblk0 V c 1 t) (iblk0 V c 2 t)).2.2 Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 V c t _ _)
            isplitl [HS1]
            · unfold owns; iexists _; isplitr
              swap; · iexact HS1
              ipureintro; exact View.read_writes_of_cover _ _ _ _ _ (scover0_A_1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    · -- a last tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold ptC; (try dsimp only)
      have hz : t.val ≠ 0 := by omega
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 V c t _ _ _ _)
          isplitl [HS1]
          · unfold owns; iexists _; isplitr
            swap; · iexact HS1
            ipureintro; exact View.read_writes_of_cover _ _ _ _ _ (scover0_C_1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 V c t _ _ _ _)
    · -- a middle tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold ptB; (try dsimp only)
      have hz : t.val ≠ 0 := by omega
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) (fun h => h0 ((hcond0_0 t).mp h)) (fun h => h1 ((hcond0_1 t).mp h)) (iblk0 V c 0 t) (iblk0 V c 1 t) (iblk0 V c 2 t) _ _).2.2 Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 V c t _ _ _ _)
          isplitl [HS1]
          · unfold owns; iexists _; isplitr
            swap; · iexact HS1
            ipureintro; exact View.read_writes_of_cover _ _ _ _ _ (scover0_B_1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the plain one back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Region

end Cert.KernelIdeal.Hand

end
-- ==== Proof.MulRegion.lean ====
/-
  The multiply region of the kernel program, at an arbitrary entry valuation.

  Region 1 walks a 16 x 4 grid.  At grid point (b, j) it is handed rows 1024 j .. 1024 j + 1023 of
  image b (a 1 x 1024 x 512 tile of the 16 x 4096 x 512 array), and the gate row of image b (a
  1 x 1 x 512 tile of the 16 x 1 x 512 array; its block index depends on b alone, so the same
  row serves the four tiles of an image).  It writes back a tile of the same shape as the image
  tile whose entry (0, r, f) is  tile (0, r, f) * gate (0, 0, f).

  Nothing is carried from one grid point to the next: what the body leaves in the output tile is
  a function of the two input tiles at that point, and both input tiles are left as found.
-/
import proofs.«123844_j1666447310975_2_alg».proof.Proof.Gen.KernelIdeal.Launch
import proofs.«123844_j1666447310975_2_alg».proof.Proof.Gen.KernelIdeal.Skeleton
import proofs.«123844_j1666447310975_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section MulRegion

-- what every buffer of a core holds when the region is entered
variable (V : (c : Dev nD) → (b : Ref sig .tc) → Buf (Elt F) ((c : Thread nD τ).loc b))

/-! ## The tiles a grid point is handed -/

/-- The tile of window `w` at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The image tile sits in its staging buffer at every grid point, whether or not it was copied in there:
    a point that copies nothing has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate row likewise: it is copied in only at the first of an image's four tiles, and its block index
    does not move over the other three. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

/-- All of a 1 x 1024 x 512 tile. -/
abbrev tileAll : Rect S1x1024x512 := Rect.unit (s := S1x1024x512) ![0, 0, 0] S1x1024x512.size inb_S1x1024x512_S1x1024x512_0_0_0
/-- All of a 1 x 1 x 512 gate row. -/
abbrev gateAll : Rect S1x1x512 := Rect.unit (s := S1x1x512) ![0, 0, 0] S1x1x512.size inb_S1x1x512_S1x1x512_0_0_0

/-! ## What the body leaves in the output tile -/

/-- The output tile after the body, from the image tile `x0` and the gate row `x1`: one store over the whole
    tile, of the product  x0 (0, r, f) * x1 (0, 0, f). -/
def out1_2 (x0 : Vec F S1x1024x512 .f32) (x1 : Vec F S1x1x512 .f32) : Vec F S1x1024x512 .f32 :=
  View.canon [⟨tileAll, k1_pay1 (View.ld x0 tileAll) (View.ld x1 gateAll)⟩]

/-- That one store covers the tile. -/
theorem cover1_2 (p0 : Vec F S1x1024x512 .f32) (y : S1x1024x512.Idx) :
    ∃ pc ∈ ([⟨tileAll, p0⟩] : List (View.Piece (Elt F) S1x1024x512 .f32)), y ∈ pc.1.set :=
  View.cover_of_tiled [⟨tileAll, p0⟩] S1x1024x512.size (by rfl) y

/-! ## The body's triple -/

set_option maxHeartbeats 1000000 in
/-- Run on whole staging buffers — the image tile at `x0`, the gate row at `x1`, the output tile at anything — the
    body ends with both inputs as they were and the output tile at `out1_2 x0 x1`. -/
theorem sound_kernel1 (c : Dev nD) (E : Set ℕ) (i : grid1.Coords)
    (arg2 : Memref sig .tc .vmem S1x1024x512 .f32) (harg2 : arg2.IsWhole)
    (arg3 : Memref sig .tc .vmem S1x1x512 .f32) (harg3 : arg3.IsWhole)
    (arg4 : Memref sig .tc .vmem S1x1024x512 .f32) (harg4 : arg4.IsWhole)
    (x0 : Vec F S1x1024x512 .f32) (x1 : Vec F S1x1x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__mul_kernel i arg2 harg2 arg3 harg3 arg4 harg4) K := by
  simp only [cc1__mul_kernel_eq_skeleton]; unfold cc1__mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- Region 1 on core `c`: the arrays as the region finds them; after the body at point `t` both input buffers at
    their tiles and the output buffer at `out1_2` of them; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic grid point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end MulRegion

end Cert.KernelIdeal.Hand

end
-- ==== Proof.Run.lean ====
/-
  The run of the whole program, from the launch to the return, as five stretches:

    host operations (six reshapes of the arguments)  ·  region 0 (the encoder)  ·  host operations (the gate and the
    second result, eighteen operations on the encoding)  ·  region 1 (the multiply)  ·  one reshape of the product.

  Between two stretches a core holds every unscoped buffer whole at a known valuation, its generator register at
  some state, and owes nothing.  The valuations are a fold from the launch memory: a host stretch applies its
  operations; a region replaces its windows' arrays by what its write-backs leave and keeps every other buffer.
  No stretch writes an argument, so each argument ends as launched; the two results are read off the last valuation.
-/
import proofs.«123844_j1666447310975_2_alg».proof.Proof.EncRegion
import proofs.«123844_j1666447310975_2_alg».proof.Proof.MulRegion
import proofs.«123844_j1666447310975_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers' contents at each boundary -/

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After the six reshapes: what region 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the eighteen operations on the encoding: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last reshape: what the program returns with. -/
abbrev W5 : Dev nD → Valuation τ sig (Elt F) := fun c => StableHlo.after hostOps2 (W4 m ρ c)

/-! ## The arguments end as launched -/

/-- A buffer that no host operation writes and that is no window's array of either region holds at the end what it
    held at launch. -/
theorem W5_of_untouched (c : Dev nD) (b : Ref sig .tc) (h0 : b ∉ hostOps0_W) (h1 : b ∉ hostOps1_W) (h2 : b ∉ hostOps2_W)
    (ha0 : ∀ w, Pipeline.arrRef spec0 w ≠ b) (ha1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := StableHlo.after_of_writes_sub hostOps2 _ hostOps2_writes h2
    _ = W3 m ρ c (Proc.devRef .tc b) := W4_of_ne m ρ c b ha1
    _ = W2 m ρ c (Proc.devRef .tc b) := StableHlo.after_of_writes_sub hostOps1 _ hostOps1_writes h1
    _ = W1 m ρ c (Proc.devRef .tc b) := W2_of_ne m ρ c b ha0
    _ = W0 m ρ c (Proc.devRef .tc b) := StableHlo.after_of_writes_sub hostOps0 _ hostOps0_writes h0
    _ = m ((c : Thread nD τ).loc b) := rfl

theorem W5_main_arg0 (c : Dev nD) : W5 m ρ c (Proc.devRef .tc main_arg0) = m ((c : Thread nD τ).loc main_arg0) :=
  W5_of_untouched m ρ c main_arg0 (by decide) (by decide) (by decide) (by decide) (by decide)
theorem W5_main_arg2 (c : Dev nD) : W5 m ρ c (Proc.devRef .tc main_arg2) = m ((c : Thread nD τ).loc main_arg2) :=
  W5_of_untouched m ρ c main_arg2 (by decide) (by decide) (by decide) (by decide) (by decide)
theorem W5_main_arg3 (c : Dev nD) : W5 m ρ c (Proc.devRef .tc main_arg3) = m ((c : Thread nD τ).loc main_arg3) :=
  W5_of_untouched m ρ c main_arg3 (by decide) (by decide) (by decide) (by decide) (by decide)
theorem W5_main_arg4 (c : Dev nD) : W5 m ρ c (Proc.devRef .tc main_arg4) = m ((c : Thread nD τ).loc main_arg4) :=
  W5_of_untouched m ρ c main_arg4 (by decide) (by decide) (by decide) (by decide) (by decide)
theorem W5_main_arg5 (c : Dev nD) : W5 m ρ c (Proc.devRef .tc main_arg5) = m ((c : Thread nD τ).loc main_arg5) :=
  W5_of_untouched m ρ c main_arg5 (by decide) (by decide) (by decide) (by decide) (by decide)
theorem W5_main_arg6 (c : Dev nD) : W5 m ρ c (Proc.devRef .tc main_arg6) = m ((c : Thread nD τ).loc main_arg6) :=
  W5_of_untouched m ρ c main_arg6 (by decide) (by decide) (by decide) (by decide) (by decide)
theorem W5_main_arg7 (c : Dev nD) : W5 m ρ c (Proc.devRef .tc main_arg7) = m ((c : Thread nD τ).loc main_arg7) :=
  W5_of_untouched m ρ c main_arg7 (by decide) (by decide) (by decide) (by decide) (by decide)
theorem W5_main_arg8 (c : Dev nD) : W5 m ρ c (Proc.devRef .tc main_arg8) = m ((c : Thread nD τ).loc main_arg8) :=
  W5_of_untouched m ρ c main_arg8 (by decide) (by decide) (by decide) (by decide) (by decide)
theorem W5_main_arg9 (c : Dev nD) : W5 m ρ c (Proc.devRef .tc main_arg9) = m ((c : Thread nD τ).loc main_arg9) :=
  W5_of_untouched m ρ c main_arg9 (by decide) (by decide) (by decide) (by decide) (by decide)
theorem W5_main_arg10 (c : Dev nD) : W5 m ρ c (Proc.devRef .tc main_arg10) = m ((c : Thread nD τ).loc main_arg10) :=
  W5_of_untouched m ρ c main_arg10 (by decide) (by decide) (by decide) (by decide) (by decide)

/-- The codewords are region 0's second input window: an input window's array is never written back. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

/-! ## The two results, in terms of the regions' final arrays -/

/-- The second result is written by the host stretch between the regions and by nothing after it. -/
theorem W5_main_v21 (c : Dev nD) : W5 m ρ c (Proc.devRef .tc main_v21) = W3 m ρ c (Proc.devRef .tc main_v21) :=
  (StableHlo.after_of_writes_sub hostOps2 _ hostOps2_writes (by decide)).trans (W4_of_ne m ρ c main_v21 (by decide))

/-- Region 1's output array, as its write-backs leave it. -/
theorem W4_main_v23 (c : Dev nD) : W4 m ρ c (Proc.devRef .tc main_v23) = (dat1 (V3 m ρ) c).arrAt 2 cfg1.N :=
  W4_arr m ρ c 2

/-- Region 0's output array, as its write-backs leave it. -/
theorem W2_main_v6 (c : Dev nD) : W2 m ρ c (Proc.devRef .tc main_v6) = (dat0 (V1 m ρ) c).arrAt 7 cfg0.N :=
  W2_arr m ρ c 7

/-- The first result is region 1's output array, its 4096 rows per image regrouped as 64 x 64. -/
theorem W5_main_v24 (c : Dev nD) :
    W5 m ρ c (Proc.devRef .tc main_v24)
      = shapeCast S16x64x64x512 (W4 m ρ c (Proc.devRef .tc main_v23)) shapeCasts_S16x4096x512_S16x64x64x512 := by
  show StableHlo.after hostOps2 _ (Proc.devRef .tc main_v24) = _
  after_results
  rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev noPairs : GSem nD τ sig → Finset Unit := fun _ => ∅
abbrev lvl0 : GSem nD τ sig → Unit → ℕ := fun _ _ => 0
/-- What rides beside the buffers through every stretch: the generator register at some state, and nothing owed. -/
abbrev riding (c : Dev nD) : sProp 𝕄 := iprop((∃ r, prngReg c r) ∗ ∃ W, owes (c : Thread nD τ) (0 : CellTallies nD τ sig Unit) W)
/-- A host stretch as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- An unscoped reference of the core is among those the thread state holds. -/
theorem ucMem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register. -/
abbrev lastState (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0: entered from every unscoped buffer at `W1`, left at `W2`.  The generator register goes into the region's
    invariant and comes back; the invariant before the first point is the plain one, and after the last point it gives
    the plain one back (what the two accumulators hold is forgotten). -/
def reg0 : Pipeline.RegionSeg (pcfgs (F := F)) adm (pdats m ρ) () defs₀ 𝒱₀ noPairs lvl0 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs lvl0 0 fun _ _ => rfl
  pre c := iprop(StableHlo.held (c : Thread nD τ) (Pipeline.ucRefs τ sig) (W1 m ρ c) ∗ riding c)
  post c := iprop(StableHlo.held (c : Thread nD τ) (Pipeline.ucRefs τ sig) (W2 m ρ c) ∗ riding c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`.  Its invariant is the plain one at every
    point: the multiply keeps nothing between grid points. -/
def reg1 : Pipeline.RegionSeg (pcfgs (F := F)) adm (pdats m ρ) () defs₀ 𝒱₀ noPairs lvl0 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noPairs lvl0 1 fun _ _ => rfl
  pre c := iprop(StableHlo.held (c : Thread nD τ) (Pipeline.ucRefs τ sig) (W3 m ρ c) ∗ riding c)
  post c := iprop(StableHlo.held (c : Thread nD τ) (Pipeline.ucRefs τ sig) (W4 m ρ c) ∗ riding c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five stretches in order. -/
abbrev segs : List (Pipeline.Seg (pcfgs (F := F)) adm (pdats m ρ) () defs₀ 𝒱₀ noPairs lvl0) :=
  [ .host (hostSeg hostOps0 hostOps0_sub hostOps0_fresh (W0 m ρ)),
    .region (reg0 m ρ),
    .host (hostSeg hostOps1 hostOps1_sub hostOps1_fresh (W2 m ρ)),
    .region (reg1 m ρ),
    .host (hostSeg hostOps2 hostOps2_sub hostOps2_fresh (W4 m ρ)) ]
/-- The program is the run of its five stretches. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    the final memory holds every unscoped buffer of every core at the last valuation. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ noPairs lvl0 m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := lastState m ρ)
    (hch := ⟨fun _ => .rfl, fun _ => .rfl, fun _ => .rfl, fun _ => .rfl, fun _ => .rfl, fun c => by
      show iprop(StableHlo.held (c : Thread nD τ) (Pipeline.ucRefs τ sig) (W5 m ρ c)
          ∗ (∃ r, prngReg c r) ∗ ∃ W, owes (c : Thread nD τ) (0 : CellTallies nD τ sig Unit) W)
        ⊢ iprop((StableHlo.held (c : Thread nD τ) (Pipeline.ucRefs τ sig) (W5 m ρ c) ∗ ∃ r, prngReg c r)
          ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs lvl0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- Every argument array ends holding what it was launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨ (h c _ (ucMem main_arg0 (by decide))).trans (W5_main_arg0 m ρ c),
      (h c _ (ucMem main_arg1 (by decide))).trans (W5_main_arg1 m ρ c),
      (h c _ (ucMem main_arg2 (by decide))).trans (W5_main_arg2 m ρ c),
      (h c _ (ucMem main_arg3 (by decide))).trans (W5_main_arg3 m ρ c),
      (h c _ (ucMem main_arg4 (by decide))).trans (W5_main_arg4 m ρ c),
      (h c _ (ucMem main_arg5 (by decide))).trans (W5_main_arg5 m ρ c),
      (h c _ (ucMem main_arg6 (by decide))).trans (W5_main_arg6 m ρ c),
      (h c _ (ucMem main_arg7 (by decide))).trans (W5_main_arg7 m ρ c),
      (h c _ (ucMem main_arg8 (by decide))).trans (W5_main_arg8 m ρ c),
      (h c _ (ucMem main_arg9 (by decide))).trans (W5_main_arg9 m ρ c),
      (h c _ (ucMem main_arg10 (by decide))).trans (W5_main_arg10 m ρ c) ⟩) (run_all m ρ)

end Cert.KernelIdeal.Hand

end
-- ==== Proof.Spec.lean ====
/-
  The mathematics both programs compute, stated once over plain functions of finite indices into the extended reals.

  A feature row `xr` (512 features) is compared with 32 codewords: the surrogate squared distance
  `|xr|² − 2·⟨xr, c_k⟩ + |c_k|²`, scaled by the codeword's smoothing factor, is the row's score for codeword `k`;
  the scores are turned into weights by a softmax shifted by the row's largest score. Over the 4096 rows of one
  image the weighted residuals `Σ_n w_nk·x_nf − (Σ_n w_nk)·c_kf` are normalised feature by feature
  (inference-mode batch normalisation), cut off below at zero and summed over the codewords.
-/
import Idealize.ShloMosaic.PureOps.Ideal
import Idealize.ShloMosaic.PureOps.Ideal.Laws

noncomputable section

namespace Cert.Spec

open Idealize.ShloMosaic

/-- The literal 2.0 of the cross term. -/
abbrev two : EReal := Ideal.ofBits .f32 0x40000000#32
/-- The literal added to the variance before the reciprocal square root. -/
abbrev eps : EReal := Ideal.ofBits .f32 0x3A83126F#32
/-- The value a row maximum starts from. -/
abbrev negInf : EReal := Ideal.ofBits .f32 0xFF800000#32

/-- The score of row `xr` for codeword `k`. -/
def score (xr : Fin 512 → EReal) (cw : Fin 32 → Fin 512 → EReal) (sm : Fin 32 → EReal) (k : Fin 32) : EReal :=
  ((∑ f, xr f * xr f) - two * (∑ f, xr f * cw k f) + ∑ f, cw k f * cw k f) * sm k

/-- The largest of 32 scores, starting from `negInf`. -/
def rowMax (l : Fin 32 → EReal) : EReal := (Finset.univ : Finset (Fin 32)).fold max negInf l

/-- The shifted exponential of a row's score for codeword `k`. -/
def expo (xr : Fin 512 → EReal) (cw : Fin 32 → Fin 512 → EReal) (sm : Fin 32 → EReal) (k : Fin 32) : EReal :=
  Ideal.exp (score xr cw sm k - rowMax (score xr cw sm))

/-- The softmax weight of codeword `k` for row `xr`. -/
def weight (xr : Fin 512 → EReal) (cw : Fin 32 → Fin 512 → EReal) (sm : Fin 32 → EReal) (k : Fin 32) : EReal :=
  Ideal.div (expo xr cw sm k) (∑ k', expo xr cw sm k')

/-- The aggregated residual of one image `X` (4096 rows) for codeword `k`, feature `f`. -/
def resid (X : Fin 4096 → Fin 512 → EReal) (cw : Fin 32 → Fin 512 → EReal) (sm : Fin 32 → EReal) (k : Fin 32) (f : Fin 512) : EReal :=
  (∑ n, weight (X n) cw sm k * X n f) - (∑ n, weight (X n) cw sm k) * cw k f

/-- Normalisation of one entry followed by the cut-off at zero. -/
def normCut (e mu va g be : EReal) : EReal := max ((e - mu) * Ideal.rsqrt (va + eps) * g + be) 0

/-- The encoding of one image: feature `f`. -/
def encode (X : Fin 4096 → Fin 512 → EReal) (cw : Fin 32 → Fin 512 → EReal) (sm : Fin 32 → EReal)
    (g be mu va : Fin 512 → EReal) (f : Fin 512) : EReal :=
  ∑ k, normCut (resid X cw sm k f) (mu f) (va f) (g f) (be f)

end Cert.Spec

end
-- ==== Proof.PayLayout.lean ====
/-
  Reading a matrix operation at an entry: a vector made a column, a column repeated along the rows, and the sum or
  the largest entry of a matrix along one of its two axes. Each is stated at a pair of coordinates.
-/
import proofs.«123844_j1666447310975_2_alg».proof.Proof.Gen.KernelIdeal.Skeleton
import proofs.«123844_j1666447310975_2_alg».proof.Proof.Spec

import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.SL.Sem
open ValueIdx

variable {α : Type}

/-- A vector of length `a` laid out as an `[a, 1]` column reads, at `(i, u)`, the vector at `i`. -/
theorem column_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- An `[a, 1]` column repeated to `[a, b]` reads, at `(p, c)`, the column at `p`. -/
theorem spread_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix down its columns, at column `c`. -/
theorem sumRows_apply {a b : ℕ} (v : FVec Ideal ⟨2, ![a, b]⟩ .f32) (h : (⟨2, ![a, b]⟩ : Shape).Reduces [0] ⟨1, ![b]⟩)
    (c : Fin b) :
    multiReduction .add [0] ⟨1, ![b]⟩ v 0x00000000#32 h (.inl rfl) rfl (ix1 c) = ∑ r : Fin a, v (ix2 r c) := by
  refine (Ideal.multiReduction_add_single v 0x00000000#32 h (.inl rfl) rfl (ix1 c)).trans ?_
  show ∑ r : Fin a, v (h.lift (ix1 c) r) = _
  refine Finset.sum_congr rfl fun (r : Fin a) _ => congrArg v (funext fun ax => Fin.ext ?_)
  match ax with
  | ⟨0, _⟩ => rfl
  | ⟨1, _⟩ => rfl

/-- The sum of an `[a, b]` matrix along its rows, at row `r`. -/
theorem sumCols_apply {a b : ℕ} (v : FVec Ideal ⟨2, ![a, b]⟩ .f32) (h : (⟨2, ![a, b]⟩ : Shape).Reduces [1] ⟨1, ![a]⟩)
    (r : Fin a) :
    multiReduction .add [1] ⟨1, ![a]⟩ v 0x00000000#32 h (.inl rfl) rfl (ix1 r) = ∑ c : Fin b, v (ix2 r c) := by
  refine (Ideal.multiReduction_add_single v 0x00000000#32 h (.inl rfl) rfl (ix1 r)).trans ?_
  show ∑ c : Fin b, v (h.lift (ix1 r) c) = _
  refine Finset.sum_congr rfl fun (c : Fin b) _ => congrArg v (funext fun ax => Fin.ext ?_)
  match ax with
  | ⟨0, _⟩ => rfl
  | ⟨1, _⟩ => rfl

/-- The largest entry of a row of an `[a, b]` matrix, starting from −∞, at row `r`. -/
theorem maxCols_apply {a b : ℕ} (v : FVec Ideal ⟨2, ![a, b]⟩ .f32) (h : (⟨2, ![a, b]⟩ : Shape).Reduces [1] ⟨1, ![a]⟩)
    (r : Fin a) :
    multiReduction .maximumf [1] ⟨1, ![a]⟩ v 0xFF800000#32 h (.inl rfl) rfl (ix1 r)
      = (Finset.univ : Finset (Fin b)).fold max (Ideal.ofBits .f32 0xFF800000#32) (fun c => v (ix2 r c)) := by
  refine (Ideal.multiReduction_maximumf_single v 0xFF800000#32 h (.inl rfl) rfl (ix1 r)).trans ?_
  show (Finset.univ : Finset (Fin b)).fold max (Ideal.ofBits .f32 0xFF800000#32) (fun c => v (h.lift (ix1 r) c)) = _
  refine Finset.fold_congr fun (c : Fin b) _ => congrArg v (funext fun ax => Fin.ext ?_)
  match ax with
  | ⟨0, _⟩ => rfl
  | ⟨1, _⟩ => rfl

end Cert.KernelIdeal.PayValue

end
-- ==== Proof.PayMul.lean ====
/-
  The second kernel, read at an entry: each entry of a tile of 1024 rows is multiplied by the gate's entry for its
  feature.
-/
import proofs.«123844_j1666447310975_2_alg».proof.Proof.Gen.KernelIdeal.Skeleton
import proofs.«123844_j1666447310975_2_alg».proof.Proof.Spec
import proofs.«123844_j1666447310975_2_alg».proof.Proof.PayLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.SL.Sem
open ValueIdx

/-- The scaled tile at (row, feature): the input entry times the gate at that feature. -/
theorem k1_pay1_apply (v0 : Vec Ideal S1x1024x512 .f32) (v2 : Vec Ideal S1x1x512 .f32) (r : Fin 1024) (f : Fin 512) :
    k1_pay1 (F := Ideal) v0 v2 (ix3 (0 : Fin 1) r f) = v0 (ix3 (0 : Fin 1) r f) * v2 (ix3 (0 : Fin 1) (0 : Fin 1) f) := by
  unfold k1_pay1
  refine (shapeCast_ab_1ab_apply _ _ (0 : Fin 1) r f).trans ?_
  refine (mulf_apply _ _ _).trans ?_
  refine congrArg₂ (· * ·) (shapeCast_1ab_ab_apply v0 _ r f) ?_
  refine (broadcastTo_1b_ab_apply _ _ r f).trans ?_
  exact shapeCast_1ab_ab_apply v2 _ (0 : Fin 1) f

end Cert.KernelIdeal.PayValue

end
-- ==== Proof.MulValue.lean ====
/-
  What the multiply region leaves in its output array, as one function of its two input arrays.

  The output array has 16 images of 4096 rows of 512 features.  Grid point (b, j) writes back rows
  1024 j .. 1024 j + 1023 of image b, and what it writes at (b, n, f) is the input array's entry (b, n, f)
  times the gate array's entry (b, 0, f).  The sixty-four tiles cover the array — row n of image b lies in the
  tile of point (b, n / 1024) — so after the region the whole array is that product.
-/
import proofs.«123844_j1666447310975_2_alg».proof.Proof.MulRegion
import proofs.«123844_j1666447310975_2_alg».proof.Proof.PayMul
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open ValueIdx

/-- The product the region computes: entry (b, n, f) of the images times entry (b, 0, f) of the gate. -/
def scaled (A : S16x4096x512.Idx → EReal) (G : S16x1x512.Idx → EReal) : S16x4096x512.Idx → EReal :=
  fun i => A i * G (ix3 (i 0 : Fin 16) (0 : Fin 1) (i 2 : Fin 512))

theorem scaled_apply (A : S16x4096x512.Idx → EReal) (G : S16x1x512.Idx → EReal) (b : Fin 16) (n : Fin 4096) (f : Fin 512) :
    scaled A G (ix3 b n f) = A (ix3 b n f) * G (ix3 b (0 : Fin 1) f) := rfl

section
variable (V : (c : Dev nD) → (b : Ref sig .tc) → Buf (Elt Ideal) ((c : Thread nD τ).loc b))

theorem zeros3 : (![0, 0, 0] : Fin 3 → Nat) = fun _ => 0 := funext fun a => by fin_cases a <;> rfl

/-- The block indices of the three windows, decided over the sixty-four grid points: the image tile moves with the
    output tile; the gate row follows the output's image index and stays at 0 on its other two axes; the output's
    feature index is 0. -/
theorem tileIdx : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 3) = win1_2.index t (0 : Fin 3)
    ∧ win1_1.index t (1 : Fin 3) = 0
    ∧ win1_1.index t (2 : Fin 3) = 0
    ∧ win1_2.index t (2 : Fin 3) = 0 :=
  (by decide +kernel : ∀ t : Fin grid1.N, _)

/-- Every (image, row tile) pair is some grid point's. -/
theorem tileOnto : ∀ (q0 : Fin 16) (q1 : Fin 4), ∃ t : Fin cfg1.N, win1_2.index t = ![q0.val, q1.val, 0] :=
  (by decide +kernel : ∀ (q0 : Fin 16) (q1 : Fin 4), ∃ t : Fin grid1.N, win1_2.index t = ![q0.val, q1.val, 0])

/-- What point `t` writes back is tile `t` of the product of the two input arrays as the region finds them. -/
theorem flushed1_2_eq (c : Dev nD) (t : Fin cfg1.N) :
    (dat1 V c).flushed 2 t = ((cfg1.win 2).blk t).view.read (Elt Ideal) (scaled (V c main_v0) (V c main_v22)) := by
  show (cfg1.win 2).cut (grid1.coords t) ((dat1 V c).after 2 t) = _
  rw [after1_2]
  unfold out1_2
  rw [View.canon_unit_zero zeros3]
  simp only [View.ld_unit_zero (S := S1x1024x512) zeros3, View.ld_unit_zero (S := S1x1x512) zeros3]
  obtain ⟨e0, e1, e2, e3, e4, e5, e6⟩ := tileIdx t
  funext j
  obtain ⟨u, r, f, rfl⟩ : ∃ (u : Fin 1) (r : Fin 1024) (f : Fin 512), j = ix3 u r f := ⟨j 0, j 1, j 2, eq_ix3 j⟩
  obtain rfl : u = 0 := Subsingleton.elim _ _
  refine (Cert.KernelIdeal.PayValue.k1_pay1_apply (iblk1 V c 0 t) (iblk1 V c 1 t) r f).trans ?_
  have h0 : ((cfg1.win 0).blk t).view.emb (ix3 (0 : Fin 1) r f) = ((cfg1.win 2).blk t).view.emb (ix3 (0 : Fin 1) r f) := by
    funext a; apply Fin.ext
    match a with
    | ⟨0, _⟩ => show win1_0.index t (0 : Fin 3) * 1 + 1 * 0 = win1_2.index t (0 : Fin 3) * 1 + 1 * 0; omega
    | ⟨1, _⟩ => show win1_0.index t (1 : Fin 3) * 1024 + 1 * r.val = win1_2.index t (1 : Fin 3) * 1024 + 1 * r.val; omega
    | ⟨2, _⟩ => show win1_0.index t (2 : Fin 3) * 512 + 1 * f.val = win1_2.index t (2 : Fin 3) * 512 + 1 * f.val; omega
  have h1 : ((cfg1.win 1).blk t).view.emb (ix3 (0 : Fin 1) (0 : Fin 1) f)
      = ix3 ((((cfg1.win 2).blk t).view.emb (ix3 (0 : Fin 1) r f)) 0 : Fin 16) (0 : Fin 1) ((((cfg1.win 2).blk t).view.emb (ix3 (0 : Fin 1) r f)) 2 : Fin 512) := by
    funext a; apply Fin.ext
    match a with
    | ⟨0, _⟩ => show win1_1.index t (0 : Fin 3) * 1 + 1 * 0 = win1_2.index t (0 : Fin 3) * 1 + 1 * 0; omega
    | ⟨1, _⟩ => show win1_1.index t (1 : Fin 3) * 1 + 1 * 0 = 0; omega
    | ⟨2, _⟩ => show win1_1.index t (2 : Fin 3) * 512 + 1 * f.val = win1_2.index t (2 : Fin 3) * 512 + 1 * f.val; omega
  have key : ∀ (A : S16x4096x512.Idx → EReal) (G : S16x1x512.Idx → EReal),
      A (((cfg1.win 0).blk t).view.emb (ix3 (0 : Fin 1) r f)) * G (((cfg1.win 1).blk t).view.emb (ix3 (0 : Fin 1) (0 : Fin 1) f))
        = scaled A G (((cfg1.win 2).blk t).view.emb (ix3 (0 : Fin 1) r f)) := by
    intro A G
    rw [h0, h1]
    rfl
  exact key (V c main_v0) (V c main_v22)

/-- An index of the output array is in point `t`'s tile iff each coordinate is in the tile's range on its axis. -/
theorem mem_tile (t : Fin cfg1.N) (i : S16x4096x512.Idx) :
    i ∈ ((cfg1.win 2).blk t).view.set ↔ ∀ a : Fin 3, win1_2.index t a * S1x1024x512.size a ≤ (i a).val ∧ (i a).val < win1_2.index t a * S1x1024x512.size a + S1x1024x512.size a := by
  show i ∈ ((View.whole main_v23).slice (win1_2.rect t)).set ↔ _
  rw [View.set_slice_whole, Rect.mem_set_unit]
  exact Iff.rfl

/-- The tiles cover the output array: row n of image b is in the tile of point (b, n / 1024). -/
theorem tiles_cover (i : S16x4096x512.Idx) :
    ∃ t : Fin cfg1.N, (cfg1.win 2).flush t = true ∧ i ∈ ((cfg1.win 2).blk t).view.set := by
  have hi0 : (i 0).val < 16 := (i 0).isLt
  have hi1 : (i 1).val < 4096 := (i 1).isLt
  have hi2 : (i 2).val < 512 := (i 2).isLt
  obtain ⟨t, ht⟩ := tileOnto ⟨(i 0).val, hi0⟩ ⟨(i 1).val / 1024, by omega⟩
  have q0 : win1_2.index t (0 : Fin 3) = (i 0).val := congrFun ht 0
  have q1 : win1_2.index t (1 : Fin 3) = (i 1).val / 1024 := congrFun ht 1
  have q2 : win1_2.index t (2 : Fin 3) = 0 := congrFun ht 2
  refine ⟨t, flush1_2 t, ?_⟩
  rw [mem_tile]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 512 ≤ (i 2).val ∧ (i 2).val < win1_2.index t (2 : Fin 3) * 512 + 512; omega

/-- After the region its output array is the product of the two input arrays as it found them. -/
theorem mul_final (c : Dev nD) : (dat1 V c).arrAt 2 cfg1.N = scaled (V c main_v0) (V c main_v22) :=
  (dat1 V c).arrAt_eq_of_cover 2 (scaled (V c main_v0) (V c main_v22)) (fun t _ => flushed1_2_eq V c t) tiles_cover

end

end Cert.KernelIdeal.Hand

end
-- ==== Proof.HostTails.lean ====
/-
  The two short chains of host operations the kernel's program applies to the encoding E (a [16, 512] array, one
  row per image) between its two regions, each written out operation by operation as a function of E:

    the gate      1 / (1 + exp (−(E·W + b)))     a [16, 512] array, which the second region multiplies into the images;
    the read-out  E·w + b                        a [16, 1] array, the program's second result.

  They are meant to be carried as opaque functions of the encoding.
-/
import proofs.«123844_j1666447310975_2_alg».proof.Proof.Gen.KernelIdeal
import Idealize.ShloMosaic.PureOps.Ideal

noncomputable section

namespace Cert.KernelIdeal.Hand

open Cert.KernelIdeal Cert.KernelIdeal.Gen
open Idealize.ShloMosaic Idealize.SL.Sem

/-- The gate: `1 / (1 + exp (−(E·W + b)))`, entry by entry of a [16, 512] array. -/
def kAttn (E : FVec Ideal S16x512 .f32) (w7 : FVec Ideal S512x512 .f32) (b8 : FVec Ideal S512 .f32) :
    FVec Ideal S16x512 .f32 :=
  Host.divf (F := Ideal) (broadcastInDim S16x512 ![] bcast_S_S16x512 (constant (F := Ideal) S_ .f32 0x3F800000#32))
    (addf (broadcastInDim S16x512 ![] bcast_S_S16x512 (constant (F := Ideal) S_ .f32 0x3F800000#32))
      (Host.exp (F := Ideal) (Host.negf (F := Ideal)
        (addf (Host.dotGeneral (F := Ideal) dot_S16x512_S512x512_S16x512_1_0_0_1_n_n none E w7)
          (broadcastInDim S16x512 ![0, 1] bcast_S1x512_S16x512_0_1 (broadcastInDim S1x512 ![1] bcast_S512_S1x512_1 b8))))))

/-- The read-out: `E·w + b`, a [16, 1] array. -/
def kSe (E : FVec Ideal S16x512 .f32) (w9 : FVec Ideal S512x1 .f32) (b10 : FVec Ideal S1 .f32) :
    FVec Ideal S16x1 .f32 :=
  addf (Host.dotGeneral (F := Ideal) dot_S16x512_S512x1_S16x1_1_0_0_1_n_n none E w9)
    (broadcastInDim S16x1 ![0, 1] bcast_S1x1_S16x1_0_1 (broadcastInDim S1x1 ![1] bcast_S1_S1x1_1 b10))

end Cert.KernelIdeal.Hand

end
-- ==== Proof.RunValue.lean ====
/-
  The two results of the kernel's program, as values.

  Write E for region 0's output array read as a [16, 512] array (one row per image).  The host stretch between the
  regions computes from E the gate  kAttn E W b  and the read-out  kSe E w b.  The read-out is the second result.
  The first result is region 1's output array with its 4096 rows per image regrouped as 64 x 64, and region 1's
  output array is the image array times the gate: at image b, position (h, w), feature f,

      result (b, h, w, f) = x (b, h, w, f) * kAttn E W b (b, f).
-/
import proofs.«123844_j1666447310975_2_alg».proof.Proof.Run
import proofs.«123844_j1666447310975_2_alg».proof.Proof.MulValue
import proofs.«123844_j1666447310975_2_alg».proof.Proof.HostTails
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)
open ValueIdx

/-! ## The host stretches, from any contents -/

/-- The first reshape: the images with their 64 x 64 positions listed as 4096 rows. -/
theorem hostOps0_main_v0 (V : Valuation τ sig (Elt Ideal)) :
    StableHlo.after hostOps0 V (Proc.devRef .tc main_v0)
      = shapeCast S16x4096x512 (V (Proc.devRef .tc main_arg0)) shapeCasts_S16x64x64x512_S16x4096x512 := by
  after_results
  rfl

/-- The read-out, from the contents the stretch between the regions starts from. -/
theorem hostOps1_main_v21 (V : Valuation τ sig (Elt Ideal)) :
    StableHlo.after hostOps1 V (Proc.devRef .tc main_v21)
      = kSe (shapeCast S16x512 (V (Proc.devRef .tc main_v6)) shapeCasts_S16x1x512_S16x512)
          (V (Proc.devRef .tc main_arg9)) (V (Proc.devRef .tc main_arg10)) := by
  after_results
  rfl

/-- The gate, laid out as region 1's second input array. -/
theorem hostOps1_main_v22 (V : Valuation τ sig (Elt Ideal)) :
    StableHlo.after hostOps1 V (Proc.devRef .tc main_v22)
      = shapeCast S16x1x512
          (kAttn (shapeCast S16x512 (V (Proc.devRef .tc main_v6)) shapeCasts_S16x1x512_S16x512)
            (V (Proc.devRef .tc main_arg7)) (V (Proc.devRef .tc main_arg8)))
          shapeCasts_S16x512_S16x1x512 := by
  after_results
  rfl

/-! ## The three regroupings, read at an entry -/

/-- A [16, 1, 512] array read as [16, 512]: entry (b, f) is entry (b, 0, f). -/
theorem squeeze_apply {α : Type} (X : S16x1x512.Idx → α) (b : Fin 16) (f : Fin 512) :
    shapeCast S16x512 X shapeCasts_S16x1x512_S16x512 (ix2 b f) = X (ix3 b (0 : Fin 1) f) :=
  shapeCast_apply X _ _ _ (by
    rw [Shape.rowMajor_val_three, Shape.rowMajor_val_two]
    show (b.val * 1 + 0) * 512 + f.val = b.val * 512 + f.val
    omega)

/-- A [16, 512] array read as [16, 1, 512]: entry (b, 0, f) is entry (b, f). -/
theorem unsqueeze_apply {α : Type} (X : S16x512.Idx → α) (b : Fin 16) (u : Fin 1) (f : Fin 512) :
    shapeCast S16x1x512 X shapeCasts_S16x512_S16x1x512 (ix3 b u f) = X (ix2 b f) :=
  shapeCast_apply X _ _ _ (by
    have hu : u.val = 0 := by omega
    rw [Shape.rowMajor_val_three, Shape.rowMajor_val_two]
    show b.val * 512 + f.val = (b.val * 1 + u.val) * 512 + f.val
    omega)

/-- Row h * 64 + w of an image is its position (h, w). -/
def rowOf (h w : Fin 64) : Fin 4096 := ⟨h.val * 64 + w.val, by have := h.isLt; have := w.isLt; omega⟩

/-- The images with positions listed as rows: entry (b, 64 h + w, f) is entry (b, h, w, f). -/
theorem rows_apply {α : Type} (X : S16x64x64x512.Idx → α) (b : Fin 16) (h w : Fin 64) (f : Fin 512) :
    shapeCast S16x4096x512 X shapeCasts_S16x64x64x512_S16x4096x512 (ix3 b (rowOf h w) f) = X (ix4 b h w f) :=
  shapeCast_apply X _ _ _ (by
    rw [Shape.rowMajor_val_three, Shape.rowMajor_val_four]
    show ((b.val * 64 + h.val) * 64 + w.val) * 512 + f.val = (b.val * 4096 + (h.val * 64 + w.val)) * 512 + f.val
    omega)

/-- and back: entry (b, h, w, f) of the regrouped array is entry (b, 64 h + w, f). -/
theorem grid_apply {α : Type} (X : S16x4096x512.Idx → α) (b : Fin 16) (h w : Fin 64) (f : Fin 512) :
    shapeCast S16x64x64x512 X shapeCasts_S16x4096x512_S16x64x64x512 (ix4 b h w f) = X (ix3 b (rowOf h w) f) :=
  shapeCast_apply X _ _ _ (by
    rw [Shape.rowMajor_val_three, Shape.rowMajor_val_four]
    show (b.val * 4096 + (h.val * 64 + w.val)) * 512 + f.val = ((b.val * 64 + h.val) * 64 + w.val) * 512 + f.val
    omega)

variable (m : (ℓ : Loc nD τ sig) → Buf (Elt Ideal) ℓ) (ρ : Dev nD → PrngReg)

/-! ## What region 0 leaves, and what reaches the later stretches unchanged -/

/-- The encoding: region 0's output array read as a [16, 512] array. -/
def encK (c : Dev nD) : FVec Ideal S16x512 .f32 :=
  shapeCast S16x512 (W2 m ρ c (Proc.devRef .tc main_v6)) shapeCasts_S16x1x512_S16x512

theorem encK_apply (c : Dev nD) (b : Fin 16) (f : Fin 512) :
    encK m ρ c (ix2 b f) = (W2 m ρ c (Proc.devRef .tc main_v6) : S16x1x512.Idx → EReal) (ix3 b (0 : Fin 1) f) :=
  squeeze_apply _ b f

/-- A buffer that the first stretch does not write and that is no array of region 0 holds, after region 0, what it
    held at launch. -/
theorem W2_of_untouched (c : Dev nD) (b : Ref sig .tc) (h0 : b ∉ hostOps0_W) (ha0 : ∀ w, Pipeline.arrRef spec0 w ≠ b) :
    W2 m ρ c (Proc.devRef .tc b) = m ((c : Thread nD τ).loc b) :=
  (W2_of_ne m ρ c b ha0).trans ((StableHlo.after_of_writes_sub hostOps0 _ hostOps0_writes h0).trans rfl)

theorem W2_main_arg7 (c : Dev nD) : W2 m ρ c (Proc.devRef .tc main_arg7) = m ((c : Thread nD τ).loc main_arg7) :=
  W2_of_untouched m ρ c main_arg7 (by decide) (by decide)
theorem W2_main_arg8 (c : Dev nD) : W2 m ρ c (Proc.devRef .tc main_arg8) = m ((c : Thread nD τ).loc main_arg8) :=
  W2_of_untouched m ρ c main_arg8 (by decide) (by decide)
theorem W2_main_arg9 (c : Dev nD) : W2 m ρ c (Proc.devRef .tc main_arg9) = m ((c : Thread nD τ).loc main_arg9) :=
  W2_of_untouched m ρ c main_arg9 (by decide) (by decide)
theorem W2_main_arg10 (c : Dev nD) : W2 m ρ c (Proc.devRef .tc main_arg10) = m ((c : Thread nD τ).loc main_arg10) :=
  W2_of_untouched m ρ c main_arg10 (by decide) (by decide)

/-! ## The second result -/

/-- The second result is the read-out of the encoding. -/
theorem val_main_v21 (c : Dev nD) :
    W5 m ρ c (Proc.devRef .tc main_v21)
      = kSe (encK m ρ c) (m ((c : Thread nD τ).loc main_arg9)) (m ((c : Thread nD τ).loc main_arg10)) := by
  rw [W5_main_v21]
  show StableHlo.after hostOps1 (W2 m ρ c) (Proc.devRef .tc main_v21) = _
  rw [hostOps1_main_v21, W2_main_arg9, W2_main_arg10]
  rfl

/-! ## The first result -/

/-- Region 1's first input array is the images with positions listed as rows: the first stretch writes it, region 0
    reads it through an input window, and the stretch between the regions leaves it alone. -/
theorem V3_main_v0 (c : Dev nD) :
    V3 m ρ c main_v0 = shapeCast S16x4096x512 (m ((c : Thread nD τ).loc main_arg0)) shapeCasts_S16x64x64x512_S16x4096x512 :=
  calc W3 m ρ c (Proc.devRef .tc main_v0)
    _ = W2 m ρ c (Proc.devRef .tc main_v0) := StableHlo.after_of_writes_sub hostOps1 _ hostOps1_writes (by decide)
    _ = W1 m ρ c (Proc.devRef .tc main_v0) := (W2_arr m ρ c 0).trans (((dat0 (V1 m ρ) c).arrAt_in 0 rfl _).trans (A_eq0 (V1 m ρ) c 0))
    _ = _ := hostOps0_main_v0 (W0 m ρ c)

/-- Region 1's second input array is the gate of the encoding. -/
theorem V3_main_v22 (c : Dev nD) :
    V3 m ρ c main_v22
      = shapeCast S16x1x512 (kAttn (encK m ρ c) (m ((c : Thread nD τ).loc main_arg7)) (m ((c : Thread nD τ).loc main_arg8)))
          shapeCasts_S16x512_S16x1x512 := by
  show StableHlo.after hostOps1 (W2 m ρ c) (Proc.devRef .tc main_v22) = _
  rw [hostOps1_main_v22, W2_main_arg7, W2_main_arg8]
  rfl

/-- The images as launched, entry by entry. -/
def imgs (c : Dev nD) : S16x64x64x512.Idx → EReal := m ((c : Thread nD τ).loc main_arg0)

/-- The first result after the run, entry by entry. -/
def out24 (c : Dev nD) : S16x64x64x512.Idx → EReal := W5 m ρ c (Proc.devRef .tc main_v24)

/-- The gate of the encoding, entry by entry. -/
def gateK (c : Dev nD) : S16x512.Idx → EReal :=
  kAttn (encK m ρ c) (m ((c : Thread nD τ).loc main_arg7)) (m ((c : Thread nD τ).loc main_arg8))

/-- The first result is region 1's product, regrouped: the images listed by rows, times the gate laid out as region 1's
    second input, then the rows regrouped as positions. -/
theorem out24_eq (c : Dev nD) :
    out24 m ρ c = shapeCast S16x64x64x512
      (scaled (shapeCast S16x4096x512 (imgs m c) shapeCasts_S16x64x64x512_S16x4096x512)
        (shapeCast S16x1x512 (gateK m ρ c) shapeCasts_S16x512_S16x1x512))
      shapeCasts_S16x4096x512_S16x64x64x512 := by
  unfold out24
  rw [W5_main_v24, W4_main_v23, mul_final (V3 m ρ) c, V3_main_v0, V3_main_v22]
  rfl

/-- The first result at image b, position (h, w), feature f: the image's entry times the gate at (b, f). -/
theorem val_main_v24_at (c : Dev nD) (b : Fin 16) (h w : Fin 64) (f : Fin 512) :
    out24 m ρ c (ix4 b h w f) = imgs m c (ix4 b h w f) * gateK m ρ c (ix2 b f) := by
  rw [out24_eq]
  refine (grid_apply _ b h w f).trans ?_
  refine (scaled_apply _ _ b (rowOf h w) f).trans ?_
  exact congrArg₂ (· * ·) (rows_apply _ b h w f) (unsqueeze_apply _ b (0 : Fin 1) f)

/-- The same at an index of the result. -/
theorem val_main_v24 (c : Dev nD) (i : S16x64x64x512.Idx) :
    out24 m ρ c i = imgs m c i * gateK m ρ c (ix2 (i 0 : Fin 16) (i 3 : Fin 512)) := by
  obtain ⟨b, h, w, f, rfl⟩ : ∃ (b : Fin 16) (h w : Fin 64) (f : Fin 512), i = ix4 b h w f := ⟨i 0, i 1, i 2, i 3, eq_ix4 i⟩
  exact val_main_v24_at m ρ c b h w f

/-- The same as one equation between buffers: what the final memory holds at the first result. -/
theorem val_main_v24_buf (c : Dev nD) :
    W5 m ρ c (Proc.devRef .tc main_v24)
      = (fun i : S16x64x64x512.Idx => imgs m c i * gateK m ρ c (ix2 (i 0 : Fin 16) (i 3 : Fin 512))) :=
  funext fun i => val_main_v24 m ρ c i

end Cert.KernelIdeal.Hand

end
-- ==== Proof.RefRun.lean ====
/-
  The reference program's run, read back: every execution of the reference ends with each result at the
  composed term of its operations over the argument arrays. This module only brings the generated run and
  its stage-by-stage reading into scope for the modules that state the reference's value.
-/
import proofs.«123844_j1666447310975_2_alg».proof.Proof.Gen.ReferenceIdeal.Read
-- ==== Proof.RefDefs.lean ====
/-
  The reference's value, cut where the kernel's program is cut: the encoding of the sixteen images (a [16, 512]
  array, one row per image), and the two short chains of host operations that both programs apply to it — the
  gate `1 / (1 + exp (−(E·W + b)))` that scales every feature map, and the affine read-out `E·w + b`.
  The encoding is named by the reference's own stages; the two chains are written out operation by operation and
  are meant to be carried as opaque functions of the encoding.
-/
import proofs.«123844_j1666447310975_2_alg».proof.Proof.RefRun
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The encoding the reference computes: its stage for the [16, 512] array that is summed over the codewords,
    as a function of the images, the codewords, the smoothing factors and the four normalisation vectors. -/
def refEnc (x : FVec Ideal S16x64x64x512 .f32) (cw : FVec Ideal S32x512 .f32) (sm : FVec Ideal S32 .f32)
    (g be mu va : FVec Ideal S512 .f32) : FVec Ideal S16x512 .f32 :=
  Cert.ReferenceIdeal.Read.val_main_v52 (F := Ideal) x cw sm g be mu va

/-- The gate: `1 / (1 + exp (−(E·W + b)))`, entry by entry of a [16, 512] array. -/
def tailAttn (E : FVec Ideal S16x512 .f32) (w7 : FVec Ideal S512x512 .f32) (b8 : FVec Ideal S512 .f32) :
    FVec Ideal S16x512 .f32 :=
  Host.divf (F := Ideal) (broadcastInDim S16x512 ![] bcast_S_S16x512 (constant (F := Ideal) S_ .f32 0x3F800000#32))
    (addf (broadcastInDim S16x512 ![] bcast_S_S16x512 (constant (F := Ideal) S_ .f32 0x3F800000#32))
      (Host.exp (F := Ideal) (Host.negf (F := Ideal)
        (addf (Host.dotGeneral (F := Ideal) dot_S16x512_S512x512_S16x512_1_0_0_1_n_n none E w7)
          (broadcastInDim S16x512 ![0, 1] bcast_S1x512_S16x512_0_1 (broadcastInDim S1x512 ![1] bcast_S512_S1x512_1 b8))))))

/-- The read-out: `E·w + b`, a [16, 1] array. -/
def tailSe (E : FVec Ideal S16x512 .f32) (w9 : FVec Ideal S512x1 .f32) (b10 : FVec Ideal S1 .f32) :
    FVec Ideal S16x1 .f32 :=
  addf (Host.dotGeneral (F := Ideal) dot_S16x512_S512x1_S16x1_1_0_0_1_n_n none E w9)
    (broadcastInDim S16x1 ![0, 1] bcast_S1x1_S16x1_0_1 (broadcastInDim S1x1 ![1] bcast_S1_S1x1_1 b10))

end Cert.ReferenceIdeal.RefValue

end
-- ==== Proof.TailMatch.lean ====
/-
  The two host chains the kernel's program applies to the encoding are, operation for operation, the two chains the
  reference applies to its own encoding: the same contraction records, the same broadcasts, the same order.
-/
import proofs.«123844_j1666447310975_2_alg».proof.Proof.HostTails
import proofs.«123844_j1666447310975_2_alg».proof.Proof.RefDefs

noncomputable section

namespace Cert.KernelIdeal.Hand

open Idealize.ShloMosaic

/-- The kernel's program and the reference apply the same gate to the encoding. -/
theorem kAttn_eq_tailAttn (E : FVec Ideal Cert.KernelIdeal.S16x512 .f32) (w7 : FVec Ideal Cert.KernelIdeal.S512x512 .f32)
    (b8 : FVec Ideal Cert.KernelIdeal.S512 .f32) :
    kAttn E w7 b8 = Cert.ReferenceIdeal.RefValue.tailAttn E w7 b8 := rfl

/-- and the same read-out. -/
theorem kSe_eq_tailSe (E : FVec Ideal Cert.KernelIdeal.S16x512 .f32) (w9 : FVec Ideal Cert.KernelIdeal.S512x1 .f32)
    (b10 : FVec Ideal Cert.KernelIdeal.S1 .f32) :
    kSe E w9 b10 = Cert.ReferenceIdeal.RefValue.tailSe E w9 b10 := rfl

end Cert.KernelIdeal.Hand

end
-- ==== Proof.EncPieces.lean ====
/-
  Region 0: what the stores of each control case amount to, as values. The body's arithmetic is named by the
  program's payload terms: `k0_pay8` the 1024 × 32 softmax weights of a row tile, `k0_pay9` their product with the
  tile (32 × 512), `k0_pay1` / `k0_pay2` the two accumulator updates, `k0_pay4` / `k0_pay5` the cleared
  accumulators, `k0_pay3` the encoding formed from the accumulators and the parameter rows. Each case's stores,
  read back, are these terms of the blocks the body loaded: every store fills its buffer whole, so the last store
  into a buffer is what the buffer holds, and a load after a store reads that store's value.
-/
import proofs.«123844_j1666447310975_2_alg».proof.Proof.EncRegion
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle tile: each accumulator is updated once -/

theorem runB_acc0 (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : ¬cond0_0 i) (hc1 : ¬cond0_1 i)
    (x0 : Vec F S1x1024x512 .f32) (x1 : Vec F S32x512 .f32) (x2 : Vec F S1x32 .f32) (xs0 : Vec F S32x512 .f32) (xs1 : Vec F S32x1 .f32) :
    View.canon (kernelRun0_B c i arg2 harg2 arg3 harg3 arg4 harg4 arg5 harg5 arg6 harg6 arg7 harg7 arg8 harg8 arg9 harg9 arg10 harg10 arg11 harg11 hc0 hc1 x0 x1 x2 xs0 xs1).1 = k0_pay1 xs0 (k0_pay9 x0 x1 x2) := by
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S32x512) hz2, View.ld_unit_zero (S := S32x1) hz2, View.ld_unit_zero (S := S1x32) hz2, View.ld_unit_zero (S := S1x512) hz2, View.ld_unit_zero (S := S1x1024x512) hz3, View.ld_unit_zero (S := S1x1x512) hz3]

theorem runB_acc1 (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : ¬cond0_0 i) (hc1 : ¬cond0_1 i)
    (x0 : Vec F S1x1024x512 .f32) (x1 : Vec F S32x512 .f32) (x2 : Vec F S1x32 .f32) (xs0 : Vec F S32x512 .f32) (xs1 : Vec F S32x1 .f32) :
    View.canon (kernelRun0_B c i arg2 harg2 arg3 harg3 arg4 harg4 arg5 harg5 arg6 harg6 arg7 harg7 arg8 harg8 arg9 harg9 arg10 harg10 arg11 harg11 hc0 hc1 x0 x1 x2 xs0 xs1).2.1 = k0_pay2 (k0_pay8 x0 x1 x2) xs1 := by
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S32x512) hz2, View.ld_unit_zero (S := S32x1) hz2, View.ld_unit_zero (S := S1x32) hz2, View.ld_unit_zero (S := S1x512) hz2, View.ld_unit_zero (S := S1x1024x512) hz3, View.ld_unit_zero (S := S1x1x512) hz3]

/-! ## A first tile: each accumulator is cleared, read back, and updated -/

theorem runA_acc0 (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : cond0_0 i) (hc1 : ¬cond0_1 i)
    (x0 : Vec F S1x1024x512 .f32) (x1 : Vec F S32x512 .f32) (x2 : Vec F S1x32 .f32) :
    View.canon (kernelRun0_A c i arg2 harg2 arg3 harg3 arg4 harg4 arg5 harg5 arg6 harg6 arg7 harg7 arg8 harg8 arg9 harg9 arg10 harg10 arg11 harg11 hc0 hc1 x0 x1 x2).1 = k0_pay1 (k0_pay4 (F := F)) (k0_pay9 x0 x1 x2) := by
  unfold kernelRun0_A
  dsimp only
  sl_unfold_words
  rw [View.canon_cons_unit_zero (S := S32x512) hz2]
  simp only [View.readAt_eq_ld, harg2.read_unread, harg3.read_unread, harg4.read_unread, harg5.read_unread, harg6.read_unread, harg7.read_unread, harg8.read_unread, harg9.read_unread, harg10.read_unread, harg11.read_unread, View.readCov_unit_zero (S := S32x512) _ hz2, View.readCov_unit_zero (S := S32x1) _ hz2, View.ld_unit_zero (S := S32x512) hz2, View.ld_unit_zero (S := S32x1) hz2, View.ld_unit_zero (S := S1x32) hz2, View.ld_unit_zero (S := S1x512) hz2, View.ld_unit_zero (S := S1x1024x512) hz3, View.ld_unit_zero (S := S1x1x512) hz3]

theorem runA_acc1 (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : cond0_0 i) (hc1 : ¬cond0_1 i)
    (x0 : Vec F S1x1024x512 .f32) (x1 : Vec F S32x512 .f32) (x2 : Vec F S1x32 .f32) :
    View.canon (kernelRun0_A c i arg2 harg2 arg3 harg3 arg4 harg4 arg5 harg5 arg6 harg6 arg7 harg7 arg8 harg8 arg9 harg9 arg10 harg10 arg11 harg11 hc0 hc1 x0 x1 x2).2.1 = k0_pay2 (k0_pay8 x0 x1 x2) (k0_pay5 (F := F)) := by
  unfold kernelRun0_A
  dsimp only
  sl_unfold_words
  rw [View.canon_cons_unit_zero (S := S32x1) hz2]
  simp only [View.readAt_eq_ld, harg2.read_unread, harg3.read_unread, harg4.read_unread, harg5.read_unread, harg6.read_unread, harg7.read_unread, harg8.read_unread, harg9.read_unread, harg10.read_unread, harg11.read_unread, View.readCov_unit_zero (S := S32x512) _ hz2, View.readCov_unit_zero (S := S32x1) _ hz2, View.ld_unit_zero (S := S32x512) hz2, View.ld_unit_zero (S := S32x1) hz2, View.ld_unit_zero (S := S1x32) hz2, View.ld_unit_zero (S := S1x512) hz2, View.ld_unit_zero (S := S1x1024x512) hz3, View.ld_unit_zero (S := S1x1x512) hz3]

/-! ## A last tile: the accumulators are updated, read back, and turned into the output block -/

theorem runC_acc0 (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : ¬cond0_0 i) (hc1 : cond0_1 i)
    (x0 : Vec F S1x1024x512 .f32) (x1 : Vec F S32x512 .f32) (x2 : Vec F S1x32 .f32) (x3 x4 x5 x6 : Vec F S1x512 .f32) (xs0 : Vec F S32x512 .f32) (xs1 : Vec F S32x1 .f32) :
    View.canon (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).2.1 = k0_pay1 xs0 (k0_pay9 x0 x1 x2) := by
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S32x512) hz2, View.ld_unit_zero (S := S32x1) hz2, View.ld_unit_zero (S := S1x32) hz2, View.ld_unit_zero (S := S1x512) hz2, View.ld_unit_zero (S := S1x1024x512) hz3, View.ld_unit_zero (S := S1x1x512) hz3]

theorem runC_acc1 (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : ¬cond0_0 i) (hc1 : cond0_1 i)
    (x0 : Vec F S1x1024x512 .f32) (x1 : Vec F S32x512 .f32) (x2 : Vec F S1x32 .f32) (x3 x4 x5 x6 : Vec F S1x512 .f32) (xs0 : Vec F S32x512 .f32) (xs1 : Vec F S32x1 .f32) :
    View.canon (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1 = k0_pay2 (k0_pay8 x0 x1 x2) xs1 := by
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S32x512) hz2, View.ld_unit_zero (S := S32x1) hz2, View.ld_unit_zero (S := S1x32) hz2, View.ld_unit_zero (S := S1x512) hz2, View.ld_unit_zero (S := S1x1024x512) hz3, View.ld_unit_zero (S := S1x1x512) hz3]

theorem runC_out (c : Dev nD) (i : grid0.Coords) (arg2 : Memref sig .tc .vmem S1x1024x512 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1x512 .f32) (harg9 : arg9.IsWhole) (arg10 : Memref sig .tc .vmem S32x512 .f32) (harg10 : arg10.IsWhole) (arg11 : Memref sig .tc .vmem S32x1 .f32) (harg11 : arg11.IsWhole) (hc0 : ¬cond0_0 i) (hc1 : cond0_1 i)
    (x0 : Vec F S1x1024x512 .f32) (x1 : Vec F S32x512 .f32) (x2 : Vec F S1x32 .f32) (x3 x4 x5 x6 : Vec F S1x512 .f32) (xs0 : Vec F S32x512 .f32) (xs1 : Vec F S32x1 .f32) :
    View.canon (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).1
      = k0_pay3 x1 (k0_pay1 xs0 (k0_pay9 x0 x1 x2)) (k0_pay2 (k0_pay8 x0 x1 x2) xs1) x5 x6 x3 x4 := by
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.readCov_unit_zero (S := S32x512) _ hz2, View.readCov_unit_zero (S := S32x1) _ hz2, View.ld_unit_zero (S := S32x512) hz2, View.ld_unit_zero (S := S32x1) hz2, View.ld_unit_zero (S := S1x32) hz2, View.ld_unit_zero (S := S1x512) hz2, View.ld_unit_zero (S := S1x1024x512) hz3, View.ld_unit_zero (S := S1x1x512) hz3]

end Cert.KernelIdeal.Hand

end
-- ==== Proof.EncPoints.lean ====
/-
  Region 0: the accumulators and the output block after a grid point, as the program's payload terms of the blocks at
  that point and of what the point before left. A first tile starts from the cleared accumulators; a later tile adds
  to what the tile before left; a last tile also forms the output block from the updated accumulators.
-/
import proofs.«123844_j1666447310975_2_alg».proof.Proof.EncPieces

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Points
variable (V : (c : Dev nD) → (b : Ref sig .tc) → Buf (Elt F) ((c : Thread nD τ).loc b))

/-! ## One point, by case -/

theorem ptA_acc0 (c : Dev nD) (t : Fin cfg0.N) (hc0 : cond0_0 (grid0.coords t)) (hc1 : ¬cond0_1 (grid0.coords t)) :
    (ptA V c t hc0 hc1).2.1 = k0_pay1 (k0_pay4 (F := F)) (k0_pay9 (iblk0 V c 0 t) (iblk0 V c 1 t) (iblk0 V c 2 t)) := by
  unfold ptA; dsimp only
  rw [View.read_writes_eq_canon _ _ _ (scover0_A_0 V c t hc0 hc1)]
  exact runA_acc0 c _ _ _ _ _ _ _ _ _ _ _ _ _ _ _ _ _ _ _ _ _ hc0 hc1 _ _ _

theorem ptA_acc1 (c : Dev nD) (t : Fin cfg0.N) (hc0 : cond0_0 (grid0.coords t)) (hc1 : ¬cond0_1 (grid0.coords t)) :
    (ptA V c t hc0 hc1).2.2 = k0_pay2 (k0_pay8 (iblk0 V c 0 t) (iblk0 V c 1 t) (iblk0 V c 2 t)) (k0_pay5 (F := F)) := by
  unfold ptA; dsimp only
  rw [View.read_writes_eq_canon _ _ _ (scover0_A_1 V c t hc0 hc1)]
  exact runA_acc1 c _ _ _ _ _ _ _ _ _ _ _ _ _ _ _ _ _ _ _ _ _ hc0 hc1 _ _ _

theorem ptB_acc0 (c : Dev nD) (t : Fin cfg0.N) (hc0 : ¬cond0_0 (grid0.coords t)) (hc1 : ¬cond0_1 (grid0.coords t))
    (p0 : Vec F S32x512 .f32) (p1 : Vec F S32x1 .f32) :
    (ptB V c t hc0 hc1 p0 p1).2.1 = k0_pay1 p0 (k0_pay9 (iblk0 V c 0 t) (iblk0 V c 1 t) (iblk0 V c 2 t)) := by
  unfold ptB; dsimp only
  rw [View.read_writes_eq_canon _ _ _ (scover0_B_0 V c t hc0 hc1 p0 p1)]
  exact runB_acc0 c _ _ _ _ _ _ _ _ _ _ _ _ _ _ _ _ _ _ _ _ _ hc0 hc1 _ _ _ p0 p1

theorem ptB_acc1 (c : Dev nD) (t : Fin cfg0.N) (hc0 : ¬cond0_0 (grid0.coords t)) (hc1 : ¬cond0_1 (grid0.coords t))
    (p0 : Vec F S32x512 .f32) (p1 : Vec F S32x1 .f32) :
    (ptB V c t hc0 hc1 p0 p1).2.2 = k0_pay2 (k0_pay8 (iblk0 V c 0 t) (iblk0 V c 1 t) (iblk0 V c 2 t)) p1 := by
  unfold ptB; dsimp only
  rw [View.read_writes_eq_canon _ _ _ (scover0_B_1 V c t hc0 hc1 p0 p1)]
  exact runB_acc1 c _ _ _ _ _ _ _ _ _ _ _ _ _ _ _ _ _ _ _ _ _ hc0 hc1 _ _ _ p0 p1

theorem ptC_acc0 (c : Dev nD) (t : Fin cfg0.N) (hc0 : ¬cond0_0 (grid0.coords t)) (hc1 : cond0_1 (grid0.coords t))
    (p0 : Vec F S32x512 .f32) (p1 : Vec F S32x1 .f32) :
    (ptC V c t hc0 hc1 p0 p1).2.1 = k0_pay1 p0 (k0_pay9 (iblk0 V c 0 t) (iblk0 V c 1 t) (iblk0 V c 2 t)) := by
  unfold ptC; dsimp only
  rw [View.read_writes_eq_canon _ _ _ (scover0_C_0 V c t hc0 hc1 p0 p1)]
  exact runC_acc0 c _ _ _ _ _ _ _ _ _ _ _ _ _ _ _ _ _ _ _ _ _ hc0 hc1 _ _ _ _ _ _ _ p0 p1

theorem ptC_acc1 (c : Dev nD) (t : Fin cfg0.N) (hc0 : ¬cond0_0 (grid0.coords t)) (hc1 : cond0_1 (grid0.coords t))
    (p0 : Vec F S32x512 .f32) (p1 : Vec F S32x1 .f32) :
    (ptC V c t hc0 hc1 p0 p1).2.2 = k0_pay2 (k0_pay8 (iblk0 V c 0 t) (iblk0 V c 1 t) (iblk0 V c 2 t)) p1 := by
  unfold ptC; dsimp only
  rw [View.read_writes_eq_canon _ _ _ (scover0_C_1 V c t hc0 hc1 p0 p1)]
  exact runC_acc1 c _ _ _ _ _ _ _ _ _ _ _ _ _ _ _ _ _ _ _ _ _ hc0 hc1 _ _ _ _ _ _ _ p0 p1

theorem ptC_out (c : Dev nD) (t : Fin cfg0.N) (hc0 : ¬cond0_0 (grid0.coords t)) (hc1 : cond0_1 (grid0.coords t))
    (p0 : Vec F S32x512 .f32) (p1 : Vec F S32x1 .f32) :
    (ptC V c t hc0 hc1 p0 p1).1
      = k0_pay3 (iblk0 V c 1 t) (k0_pay1 p0 (k0_pay9 (iblk0 V c 0 t) (iblk0 V c 1 t) (iblk0 V c 2 t))) (k0_pay2 (k0_pay8 (iblk0 V c 0 t) (iblk0 V c 1 t) (iblk0 V c 2 t)) p1)
          (iblk0 V c 5 t) (iblk0 V c 6 t) (iblk0 V c 3 t) (iblk0 V c 4 t) := by
  unfold ptC; dsimp only
  rw [View.read_writes_eq_canon _ _ _ (cover0_C_7 V c t hc0 hc1 p0 p1)]
  exact runC_out c _ _ _ _ _ _ _ _ _ _ _ _ _ _ _ _ _ _ _ _ _ hc0 hc1 _ _ _ _ _ _ _ p0 p1

/-! ## After a point, by its number modulo 4 -/

theorem acc0_first (c : Dev nD) (n : ℕ) (hn : n < cfg0.N) (h : n % 4 = 0) :
    (outsAt0 V c n hn).2.1 = k0_pay1 (k0_pay4 (F := F)) (k0_pay9 (iblk0 V c 0 ⟨n, hn⟩) (iblk0 V c 1 ⟨n, hn⟩) (iblk0 V c 2 ⟨n, hn⟩)) :=
  (congrArg (fun o => o.2.1) (outsAt0_A V c ⟨n, hn⟩ h (by show ¬ n % 4 = 3; omega))).trans (ptA_acc0 V c ⟨n, hn⟩ _ _)

theorem acc1_first (c : Dev nD) (n : ℕ) (hn : n < cfg0.N) (h : n % 4 = 0) :
    (outsAt0 V c n hn).2.2 = k0_pay2 (k0_pay8 (iblk0 V c 0 ⟨n, hn⟩) (iblk0 V c 1 ⟨n, hn⟩) (iblk0 V c 2 ⟨n, hn⟩)) (k0_pay5 (F := F)) :=
  (congrArg (fun o => o.2.2) (outsAt0_A V c ⟨n, hn⟩ h (by show ¬ n % 4 = 3; omega))).trans (ptA_acc1 V c ⟨n, hn⟩ _ _)

theorem acc0_later (c : Dev nD) (n : ℕ) (hn : n < cfg0.N) (h : n % 4 ≠ 0) :
    (outsAt0 V c n hn).2.1 = k0_pay1 (outsAt0 V c (n - 1) (by omega)).2.1 (k0_pay9 (iblk0 V c 0 ⟨n, hn⟩) (iblk0 V c 1 ⟨n, hn⟩) (iblk0 V c 2 ⟨n, hn⟩)) := by
  by_cases h1 : n % 4 = 3
  · exact (congrArg (fun o => o.2.1) (outsAt0_C V c ⟨n, hn⟩ h h1)).trans (ptC_acc0 V c ⟨n, hn⟩ _ _ _ _)
  · exact (congrArg (fun o => o.2.1) (outsAt0_B V c ⟨n, hn⟩ h h1)).trans (ptB_acc0 V c ⟨n, hn⟩ _ _ _ _)

theorem acc1_later (c : Dev nD) (n : ℕ) (hn : n < cfg0.N) (h : n % 4 ≠ 0) :
    (outsAt0 V c n hn).2.2 = k0_pay2 (k0_pay8 (iblk0 V c 0 ⟨n, hn⟩) (iblk0 V c 1 ⟨n, hn⟩) (iblk0 V c 2 ⟨n, hn⟩)) (outsAt0 V c (n - 1) (by omega)).2.2 := by
  by_cases h1 : n % 4 = 3
  · exact (congrArg (fun o => o.2.2) (outsAt0_C V c ⟨n, hn⟩ h h1)).trans (ptC_acc1 V c ⟨n, hn⟩ _ _ _ _)
  · exact (congrArg (fun o => o.2.2) (outsAt0_B V c ⟨n, hn⟩ h h1)).trans (ptB_acc1 V c ⟨n, hn⟩ _ _ _ _)

/-- After a last tile the output block is the encoding formed from the accumulators as that tile leaves them. -/
theorem out_last (c : Dev nD) (n : ℕ) (hn : n < cfg0.N) (h : n % 4 = 3) :
    (outsAt0 V c n hn).1
      = k0_pay3 (iblk0 V c 1 ⟨n, hn⟩) (outsAt0 V c n hn).2.1 (outsAt0 V c n hn).2.2
          (iblk0 V c 5 ⟨n, hn⟩) (iblk0 V c 6 ⟨n, hn⟩) (iblk0 V c 3 ⟨n, hn⟩) (iblk0 V c 4 ⟨n, hn⟩) := by
  have h0 : ¬ n % 4 = 0 := by omega
  rw [acc0_later V c n hn h0, acc1_later V c n hn h0]
  exact (congrArg (fun o => o.1) (outsAt0_C V c ⟨n, hn⟩ h0 h)).trans (ptC_out V c ⟨n, hn⟩ _ _ _ _)

end Points

end Cert.KernelIdeal.Hand

end
-- ==== Proof.PayAccum.lean ====
/-
  The two running totals the encoder keeps over the four row tiles of an image, read at an entry: what the first
  tile starts them from (zero), and what each tile adds — to the [32, 512] total the tile's matrix product, to the
  [32, 1] total the tile's column sums of the weights.
-/
import proofs.«123844_j1666447310975_2_alg».proof.Proof.Gen.KernelIdeal.Skeleton
import proofs.«123844_j1666447310975_2_alg».proof.Proof.Spec
import proofs.«123844_j1666447310975_2_alg».proof.Proof.PayLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.SL.Sem
open ValueIdx

/-- The first total after a tile: the total before plus the tile's contribution, entry by entry. -/
theorem pay1_apply (v36 : Vec Ideal S32x512 .f32) (v38 : FVec Ideal S32x512 .f32) (k : Fin 32) (f : Fin 512) :
    k0_pay1 (F := Ideal) v36 v38 (ix2 k f) = v36 (ix2 k f) + v38 (ix2 k f) := by
  unfold k0_pay1
  simp only [shapeCast_self]
  rfl

/-- The second total after a tile: the total before plus the sum over the tile's 1024 rows of the weights of
    codeword `k`. -/
theorem pay2_apply (v34 : FVec Ideal S1024x32 .f32) (v45 : Vec Ideal S32x1 .f32) (k : Fin 32) :
    k0_pay2 (F := Ideal) v34 v45 (ix2 k (0 : Fin 1)) = v45 (ix2 k (0 : Fin 1)) + ∑ r : Fin 1024, v34 (ix2 r k) := by
  unfold k0_pay2
  simp only [shapeCast_self]
  refine (addf_apply _ _ _).trans (congrArg (v45 (ix2 k (0 : Fin 1)) + ·) ?_)
  refine (column_apply _ _ k (0 : Fin 1)).trans ?_
  exact sumRows_apply v34 _ k

/-- The first total starts from zero. -/
theorem pay4_apply (k : Fin 32) (f : Fin 512) : k0_pay4 (F := Ideal) (ix2 k f) = 0 := by
  unfold k0_pay4
  simp only [shapeCast_self]
  exact Ideal.ofBits_zero_f32

/-- The second total starts from zero. -/
theorem pay5_apply (k : Fin 32) : k0_pay5 (F := Ideal) (ix2 k (0 : Fin 1)) = 0 := by
  unfold k0_pay5
  simp only [shapeCast_self]
  exact Ideal.ofBits_zero_f32

end Cert.KernelIdeal.PayValue

end
-- ==== Proof.PayWeights.lean ====
/-
  The encoder's weights for one tile of 1024 rows, read at (row, codeword): the kernel computes, for every row of
  the tile, the scores against the 32 codewords (squared length of the row, minus twice its products with the
  codewords, plus the squared lengths of the codewords, times the smoothing factors), shifts them by the row's
  largest score, exponentiates and divides by the row's total. That is the specification's softmax weight of the
  row. The products are taken after a change of float format that is the identity on the extended reals.
-/
import proofs.«123844_j1666447310975_2_alg».proof.Proof.Gen.KernelIdeal.Skeleton
import proofs.«123844_j1666447310975_2_alg».proof.Proof.Spec
import proofs.«123844_j1666447310975_2_alg».proof.Proof.PayLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.SL.Sem
open ValueIdx

variable (x : Vec Ideal S1x1024x512 .f32) (cw : Vec Ideal S32x512 .f32) (sm : Vec Ideal S1x32 .f32)

/-- Row `r` of the tile. -/
abbrev rowOf (r : Fin 1024) : Fin 512 → EReal := fun f' => x (ix3 (0 : Fin 1) r f')
/-- The codewords as a function of (codeword, feature). -/
abbrev cwOf : Fin 32 → Fin 512 → EReal := fun k' f' => cw (ix2 k' f')
/-- The smoothing factors as a function of the codeword. -/
abbrev smOf : Fin 32 → EReal := fun k' => sm (ix2 (0 : Fin 1) k')

/-- An exponential at an entry. -/
theorem exp_apply {s : Shape} (a : FVec Ideal s .f32) (i : s.Idx) : (exp a : FVec Ideal s .f32) i = Ideal.exp (a i) := rfl
/-- A literal of the scalar unit is the extended real its word encodes. -/
theorem scalarWord (b : BitVec 32) : Scalar.ofBits (F := Ideal) .f32 b = Ideal.ofBits .f32 b := rfl

/-- The tile with its leading unit axis dropped. -/
theorem pay6_apply (r : Fin 1024) (f : Fin 512) : k0_pay6 (F := Ideal) x (ix2 r f) = x (ix3 (0 : Fin 1) r f) := by
  unfold k0_pay6
  exact shapeCast_1ab_ab_apply x _ r f

/-- The same after the change of format. -/
theorem pay7_apply (r : Fin 1024) (f : Fin 512) : k0_pay7 (F := Ideal) x (ix2 r f) = x (ix3 (0 : Fin 1) r f) := by
  unfold k0_pay7
  show k0_pay6 (F := Ideal) x (ix2 r f) = _
  exact pay6_apply x r f

theorem rowsByCodewords_apply_l0 (i : S1024x32.Idx) (q : dot_S1024x512_S512x32_S1024x32_1_0_0_1_n_n.contr.Idx) : (dot_S1024x512_S512x32_S1024x32_1_0_0_1_n_n.lhsIdx i q 0).val = (i 0).val := by
  unfold DotDims.lhsIdx
  rw [dif_neg (show ¬(0 : Fin S1024x512.rank) ∈ dot_S1024x512_S512x32_S1024x32_1_0_0_1_n_n.lhsBatch by decide),
    dif_pos (show (0 : Fin S1024x512.rank) ∈ dot_S1024x512_S512x32_S1024x32_1_0_0_1_n_n.lhsNonContracting by decide)]
  rfl
theorem rowsByCodewords_apply_l1 (i : S1024x32.Idx) (q : dot_S1024x512_S512x32_S1024x32_1_0_0_1_n_n.contr.Idx) : (dot_S1024x512_S512x32_S1024x32_1_0_0_1_n_n.lhsIdx i q 1).val = (q ⟨0, by decide⟩).val :=
  dot_S1024x512_S512x32_S1024x32_1_0_0_1_n_n.lhsIdx_val_of_single rfl i q
theorem rowsByCodewords_apply_r0 (i : S1024x32.Idx) (q : dot_S1024x512_S512x32_S1024x32_1_0_0_1_n_n.contr.Idx) : (dot_S1024x512_S512x32_S1024x32_1_0_0_1_n_n.rhsIdx i q 0).val = (q ⟨0, by decide⟩).val :=
  dot_S1024x512_S512x32_S1024x32_1_0_0_1_n_n.rhsIdx_val_of_single rfl i q
theorem rowsByCodewords_apply_r1 (i : S1024x32.Idx) (q : dot_S1024x512_S512x32_S1024x32_1_0_0_1_n_n.contr.Idx) : (dot_S1024x512_S512x32_S1024x32_1_0_0_1_n_n.rhsIdx i q 1).val = (i 1).val := by
  unfold DotDims.rhsIdx
  rw [dif_neg (show ¬(1 : Fin S512x32.rank) ∈ dot_S1024x512_S512x32_S1024x32_1_0_0_1_n_n.rhsBatch by decide),
    dif_pos (show (1 : Fin S512x32.rank) ∈ dot_S1024x512_S512x32_S1024x32_1_0_0_1_n_n.rhsNonContracting by decide)]
  rfl

/-- The product of the tile's rows with the transposed codewords, at (row, codeword). -/
theorem rowsByCodewords_apply (l : FVec Ideal S1024x512 .bf16) (rr : FVec Ideal S512x32 .bf16) (p : Fin 1024) (q : Fin 32) :
    matmul dot_S1024x512_S512x32_S1024x32_1_0_0_1_n_n none l rr (constant S1024x32 .f32 0x00000000#32) (ix2 p q)
      = ∑ c : Fin 512, l (ix2 p c) * rr (ix2 c q) := by
  refine (Ideal.matmul_constant_zero_apply dot_S1024x512_S512x32_S1024x32_1_0_0_1_n_n none l rr (ix2 p q)).trans ?_
  rw [← Equiv.sum_comp (ValueIdx.contrEquiv1 dot_S1024x512_S512x32_S1024x32_1_0_0_1_n_n 512 rfl rfl).symm]
  refine Finset.sum_congr rfl fun c _ => ?_
  have hc := ValueIdx.contrEquiv1_symm_val dot_S1024x512_S512x32_S1024x32_1_0_0_1_n_n 512 rfl rfl c
  have el : dot_S1024x512_S512x32_S1024x32_1_0_0_1_n_n.lhsIdx (ix2 p q) ((ValueIdx.contrEquiv1 dot_S1024x512_S512x32_S1024x32_1_0_0_1_n_n 512 rfl rfl).symm c) = ix2 p c :=
    funext fun a => Fin.ext (by
      match a with
      | ⟨0, _⟩ => exact rowsByCodewords_apply_l0 _ _
      | ⟨1, _⟩ => exact (rowsByCodewords_apply_l1 _ _).trans hc)
  have er : dot_S1024x512_S512x32_S1024x32_1_0_0_1_n_n.rhsIdx (ix2 p q) ((ValueIdx.contrEquiv1 dot_S1024x512_S512x32_S1024x32_1_0_0_1_n_n 512 rfl rfl).symm c) = ix2 c q :=
    funext fun a => Fin.ext (by
      match a with
      | ⟨0, _⟩ => exact (rowsByCodewords_apply_r0 _ _).trans hc
      | ⟨1, _⟩ => exact rowsByCodewords_apply_r1 _ _)
  rw [el, er]

/-- The scores of the tile's rows against the codewords, operation by operation as the kernel computes them:
    squared lengths of the rows, minus twice the rows' products with the codewords, plus the squared lengths of
    the codewords, times the smoothing factors. -/
def tileScore : FVec Ideal S1024x32 .f32 :=
  mulf
    (addf
      (subf
        (broadcastTo S1024x32
          (shapeCast S1024x1
            (multiReduction .add [1] S1024 (mulf (k0_pay6 (F := Ideal) x) (k0_pay6 (F := Ideal) x)) 0x00000000#32
              reduces_S1024x512_S1024 (.inl rfl) rfl)
            shapeCasts_S1024_S1024x1)
          broadcasts_S1024x1_S1024x32)
        (mulf (broadcast S1024x32 (Scalar.ofBits (F := Ideal) .f32 0x40000000#32))
          (matmul dot_S1024x512_S512x32_S1024x32_1_0_0_1_n_n none (k0_pay7 (F := Ideal) x)
            (transpose S512x32 [1, 0] (truncf (F := Ideal) (φ := .f32) .bf16 cw bitsLt_bf16_f32) transposes_S32x512_p1_0_S512x32)
            (constant (F := Ideal) S1024x32 .f32 0x00000000#32))))
      (broadcastTo S1024x32
        (shapeCast S1x32
          (multiReduction .add [1] S32 (mulf (F := Ideal) (φ := .f32) cw cw) 0x00000000#32 reduces_S32x512_S32 (.inl rfl) rfl)
          shapeCasts_S32_S1x32)
        broadcasts_S1x32_S1024x32))
    (broadcastTo S1024x32 (shapeCast S1x32 sm shapeCasts_S1x32_S1x32) broadcasts_S1x32_S1024x32)

/-- A row's largest entry, repeated along the row. -/
def rowTop (s : FVec Ideal S1024x32 .f32) : FVec Ideal S1024x32 .f32 :=
  broadcastTo S1024x32
    (shapeCast S1024x1 (multiReduction .maximumf [1] S1024 s 0xFF800000#32 reduces_S1024x32_S1024 (.inl rfl) rfl)
      shapeCasts_S1024_S1024x1)
    broadcasts_S1024x1_S1024x32

/-- The softmax of every row of a [1024, 32] array of scores, operation by operation as the kernel computes it:
    shift by the row's largest entry, exponentiate, divide by the row's total. -/
def softRows (s : FVec Ideal S1024x32 .f32) : FVec Ideal S1024x32 .f32 :=
  divf (exp (subf s (rowTop s)))
    (broadcastTo S1024x32
      (shapeCast S1024x1
        (multiReduction .add [1] S1024 (exp (subf s (rowTop s))) 0x00000000#32 reduces_S1024x32_S1024 (.inl rfl) rfl)
        shapeCasts_S1024_S1024x1)
      broadcasts_S1024x1_S1024x32)

/-- The kernel's weights are the row softmax of its scores: the same operations, grouped. -/
theorem pay8_eq : k0_pay8 (F := Ideal) x cw sm = softRows (tileScore x cw sm) := rfl

/-- The kernel's score at (row, codeword) is the specification's. -/
theorem tileScore_apply (r : Fin 1024) (k : Fin 32) :
    tileScore x cw sm (ix2 r k) = Cert.Spec.score (rowOf x r) (cwOf cw) (smOf sm) k := by
  unfold tileScore Cert.Spec.score
  simp only [mulf_apply, addf_apply, subf_apply, broadcast_apply, spread_apply, column_apply,
    broadcastTo_1b_ab_apply, shapeCast_a_1a_apply, shapeCast_self, rowsByCodewords_apply, pay7_apply, scalarWord]
  refine congrArg₂ (· * ·) (congrArg₂ (· + ·) (congrArg₂ (· - ·) ?_
    (congrArg₂ (· * ·) rfl (Finset.sum_congr rfl fun f _ => congrArg₂ (· * ·) rfl ?_))) ?_) rfl
  · refine (sumCols_apply _ _ r).trans (Finset.sum_congr rfl fun f _ => ?_)
    rw [mulf_apply, pay6_apply]
  · exact transpose_ix2_apply (truncf (F := Ideal) (φ := .f32) .bf16 cw bitsLt_bf16_f32) _ f k
  · exact (sumCols_apply _ _ k).trans (Finset.sum_congr rfl fun f _ => rfl)

/-- A row's largest entry, at any entry of the row. -/
theorem rowTop_apply (s : FVec Ideal S1024x32 .f32) (r : Fin 1024) (k : Fin 32) :
    rowTop s (ix2 r k) = Cert.Spec.rowMax (fun c => s (ix2 r c)) := by
  unfold rowTop
  exact (spread_apply _ _ r k).trans ((column_apply _ _ r (0 : Fin 1)).trans ((maxCols_apply _ _ r).trans rfl))

/-- The row softmax at (row, entry). -/
theorem softRows_apply (s : FVec Ideal S1024x32 .f32) (r : Fin 1024) (k : Fin 32) :
    softRows s (ix2 r k)
      = Ideal.div (Ideal.exp (s (ix2 r k) - Cert.Spec.rowMax (fun c => s (ix2 r c))))
          (∑ k', Ideal.exp (s (ix2 r k') - Cert.Spec.rowMax (fun c => s (ix2 r c)))) := by
  unfold softRows
  simp only [divf_apply, exp_apply, subf_apply, spread_apply, column_apply, rowTop_apply]
  refine congrArg (Ideal.div _) ((sumCols_apply _ _ r).trans (Finset.sum_congr rfl fun c _ => ?_))
  simp only [exp_apply, subf_apply, rowTop_apply]

/-- The weights of the tile at (row, codeword). -/
theorem pay8_apply (r : Fin 1024) (k : Fin 32) :
    k0_pay8 (F := Ideal) x cw sm (ix2 r k)
      = Cert.Spec.weight (fun f' => x (ix3 (0 : Fin 1) r f')) (fun k' f' => cw (ix2 k' f'))
          (fun k' => sm (ix2 (0 : Fin 1) k')) k := by
  rw [pay8_eq, softRows_apply]
  simp only [tileScore_apply]
  rfl

end Cert.KernelIdeal.PayValue

end
-- ==== Proof.PayProd.lean ====
/-
  The tile's contribution to the first running total, read at (codeword, feature): the weights, transposed, times
  the tile — the sum over the tile's 1024 rows of the row's weight for the codeword times the row's entry at the
  feature. Both factors pass through a change of float format that is the identity on the extended reals.
-/
import proofs.«123844_j1666447310975_2_alg».proof.Proof.Gen.KernelIdeal.Skeleton
import proofs.«123844_j1666447310975_2_alg».proof.Proof.Spec
import proofs.«123844_j1666447310975_2_alg».proof.Proof.PayLayout
import proofs.«123844_j1666447310975_2_alg».proof.Proof.PayWeights
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.SL.Sem
open ValueIdx

variable (x : Vec Ideal S1x1024x512 .f32) (cw : Vec Ideal S32x512 .f32) (sm : Vec Ideal S1x32 .f32)

theorem weightsByRows_apply_l0 (i : S32x512.Idx) (q : dot_S32x1024_S1024x512_S32x512_1_0_0_1_n_n.contr.Idx) : (dot_S32x1024_S1024x512_S32x512_1_0_0_1_n_n.lhsIdx i q 0).val = (i 0).val := by
  unfold DotDims.lhsIdx
  rw [dif_neg (show ¬(0 : Fin S32x1024.rank) ∈ dot_S32x1024_S1024x512_S32x512_1_0_0_1_n_n.lhsBatch by decide),
    dif_pos (show (0 : Fin S32x1024.rank) ∈ dot_S32x1024_S1024x512_S32x512_1_0_0_1_n_n.lhsNonContracting by decide)]
  rfl
theorem weightsByRows_apply_l1 (i : S32x512.Idx) (q : dot_S32x1024_S1024x512_S32x512_1_0_0_1_n_n.contr.Idx) : (dot_S32x1024_S1024x512_S32x512_1_0_0_1_n_n.lhsIdx i q 1).val = (q ⟨0, by decide⟩).val :=
  dot_S32x1024_S1024x512_S32x512_1_0_0_1_n_n.lhsIdx_val_of_single rfl i q
theorem weightsByRows_apply_r0 (i : S32x512.Idx) (q : dot_S32x1024_S1024x512_S32x512_1_0_0_1_n_n.contr.Idx) : (dot_S32x1024_S1024x512_S32x512_1_0_0_1_n_n.rhsIdx i q 0).val = (q ⟨0, by decide⟩).val :=
  dot_S32x1024_S1024x512_S32x512_1_0_0_1_n_n.rhsIdx_val_of_single rfl i q
theorem weightsByRows_apply_r1 (i : S32x512.Idx) (q : dot_S32x1024_S1024x512_S32x512_1_0_0_1_n_n.contr.Idx) : (dot_S32x1024_S1024x512_S32x512_1_0_0_1_n_n.rhsIdx i q 1).val = (i 1).val := by
  unfold DotDims.rhsIdx
  rw [dif_neg (show ¬(1 : Fin S1024x512.rank) ∈ dot_S32x1024_S1024x512_S32x512_1_0_0_1_n_n.rhsBatch by decide),
    dif_pos (show (1 : Fin S1024x512.rank) ∈ dot_S32x1024_S1024x512_S32x512_1_0_0_1_n_n.rhsNonContracting by decide)]
  rfl

/-- The product of the transposed weights with the tile, at (codeword, feature). -/
theorem weightsByRows_apply (l : FVec Ideal S32x1024 .bf16) (rr : FVec Ideal S1024x512 .bf16) (p : Fin 32) (q : Fin 512) :
    matmul dot_S32x1024_S1024x512_S32x512_1_0_0_1_n_n none l rr (constant S32x512 .f32 0x00000000#32) (ix2 p q)
      = ∑ c : Fin 1024, l (ix2 p c) * rr (ix2 c q) := by
  refine (Ideal.matmul_constant_zero_apply dot_S32x1024_S1024x512_S32x512_1_0_0_1_n_n none l rr (ix2 p q)).trans ?_
  rw [← Equiv.sum_comp (ValueIdx.contrEquiv1 dot_S32x1024_S1024x512_S32x512_1_0_0_1_n_n 1024 rfl rfl).symm]
  refine Finset.sum_congr rfl fun c _ => ?_
  have hc := ValueIdx.contrEquiv1_symm_val dot_S32x1024_S1024x512_S32x512_1_0_0_1_n_n 1024 rfl rfl c
  have el : dot_S32x1024_S1024x512_S32x512_1_0_0_1_n_n.lhsIdx (ix2 p q) ((ValueIdx.contrEquiv1 dot_S32x1024_S1024x512_S32x512_1_0_0_1_n_n 1024 rfl rfl).symm c) = ix2 p c :=
    funext fun a => Fin.ext (by
      match a with
      | ⟨0, _⟩ => exact weightsByRows_apply_l0 _ _
      | ⟨1, _⟩ => exact (weightsByRows_apply_l1 _ _).trans hc)
  have er : dot_S32x1024_S1024x512_S32x512_1_0_0_1_n_n.rhsIdx (ix2 p q) ((ValueIdx.contrEquiv1 dot_S32x1024_S1024x512_S32x512_1_0_0_1_n_n 1024 rfl rfl).symm c) = ix2 c q :=
    funext fun a => Fin.ext (by
      match a with
      | ⟨0, _⟩ => exact (weightsByRows_apply_r0 _ _).trans hc
      | ⟨1, _⟩ => exact weightsByRows_apply_r1 _ _)
  rw [el, er]

/-- The tile's weighted sum of its rows at (codeword, feature). -/
theorem pay9_apply (k : Fin 32) (f : Fin 512) :
    k0_pay9 (F := Ideal) x cw sm (ix2 k f)
      = ∑ r : Fin 1024, Cert.Spec.weight (fun f' => x (ix3 (0 : Fin 1) r f')) (fun k' f' => cw (ix2 k' f'))
          (fun k' => sm (ix2 (0 : Fin 1) k')) k * x (ix3 (0 : Fin 1) r f) := by
  unfold k0_pay9
  refine (weightsByRows_apply _ _ k f).trans (Finset.sum_congr rfl fun r _ => ?_)
  refine congrArg₂ (· * ·) ?_ (pay7_apply x r f)
  exact (transpose_ix2_apply (truncf (F := Ideal) (φ := .f32) .bf16 (k0_pay8 (F := Ideal) x cw sm) bitsLt_bf16_f32) _ k r).trans
    (pay8_apply x cw sm r k)

end Cert.KernelIdeal.PayValue

end
-- ==== Proof.PayEmit.lean ====
/-
  What the encoder emits for an image after its fourth tile, read at a feature: from the two running totals
  (the weighted sums of the rows, and the sums of the weights) it forms the aggregated residual
  `S0 − S1 · codeword`, normalises it feature by feature, cuts it off below at zero and sums over the 32 codewords.
-/
import proofs.«123844_j1666447310975_2_alg».proof.Proof.Gen.KernelIdeal.Skeleton
import proofs.«123844_j1666447310975_2_alg».proof.Proof.Spec
import proofs.«123844_j1666447310975_2_alg».proof.Proof.PayLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.SL.Sem
open ValueIdx

variable (cw S0 : Vec Ideal S32x512 .f32) (S1 : Vec Ideal S32x1 .f32) (mu va g be : Vec Ideal S1x512 .f32)

/-- A reciprocal square root at an entry. -/
theorem rsqrt_apply {s : Shape} (a : FVec Ideal s .f32) (i : s.Idx) :
    (rsqrt a : FVec Ideal s .f32) i = Ideal.rsqrt (a i) := rfl
/-- A literal of the scalar unit is the extended real its word encodes. -/
theorem scalarLit (b : BitVec 32) : Scalar.ofBits (F := Ideal) .f32 b = Ideal.ofBits .f32 b := rfl

/-- The sum over the 32 codewords, at a feature. -/
theorem cwTotal_apply (v : FVec Ideal S32x512 .f32) (h : S32x512.Reduces [0] S512) (hφ : FKind.Formats .f32)
    (hacc : (0x00000000#32 : BitVec 32) = 0x00000000#32) (f : Fin 512) :
    multiReduction .add [0] S512 v 0x00000000#32 h hφ hacc (ix1 f) = ∑ k : Fin 32, v (ix2 k f) :=
  sumRows_apply v h f

/-- The emitted encoding at feature `f`. -/
theorem pay3_apply (f : Fin 512) :
    k0_pay3 (F := Ideal) cw S0 S1 mu va g be (ix3 (0 : Fin 1) (0 : Fin 1) f)
      = ∑ k : Fin 32, Cert.Spec.normCut (S0 (ix2 k f) - S1 (ix2 k (0 : Fin 1)) * cw (ix2 k f))
          (mu (ix2 (0 : Fin 1) f)) (va (ix2 (0 : Fin 1) f)) (g (ix2 (0 : Fin 1) f)) (be (ix2 (0 : Fin 1) f)) := by
  unfold k0_pay3
  simp only [shapeCast_self]
  refine (shapeCast_ab_1ab_apply _ _ (0 : Fin 1) (0 : Fin 1) f).trans ?_
  refine (shapeCast_a_1a_apply _ _ (0 : Fin 1) f).trans ?_
  refine (sumRows_apply _ _ f).trans ?_
  refine Finset.sum_congr rfl fun k _ => ?_
  simp only [maximumf_apply, addf_apply, mulf_apply, subf_apply, rsqrt_apply, broadcast_apply, spread_apply,
    broadcastTo_1b_ab_apply, scalarLit, Ideal.ofBits_zero_f32]
  rfl

end Cert.KernelIdeal.PayValue

end
-- ==== Proof.TileSum.lean ====
/-
  A sum over the 4096 rows of an image is the sum, over its four tiles, of the sums over the 1024 rows of each
  tile: row `n` is row `n % 1024` of tile `n / 1024`.
-/
import Mathlib.Algebra.BigOperators.Fin
import Mathlib.Data.EReal.Basic

namespace Cert.Spec

theorem sum_rows_eq_tiles (g : Fin 4096 → EReal) :
    ∑ n, g n = ∑ j : Fin 4, ∑ r : Fin 1024, g ⟨j.val * 1024 + r.val, by have := j.isLt; have := r.isLt; omega⟩ := by
  rw [← Finset.sum_product', Finset.univ_product_univ]
  refine (Fintype.sum_equiv (finProdFinEquiv (m := 4) (n := 1024)) _ _ fun p => ?_).symm
  refine congrArg g (Fin.ext ?_)
  show p.1.val * 1024 + p.2.val = p.2.val + 1024 * p.1.val
  omega

end Cert.Spec
-- ==== Proof.EncValue.lean ====
/-
  Region 0 at the exact extended reals: the array of encodings it leaves.

  An image's 4096 rows reach the body in four tiles of 1024. For each codeword k and feature f the body keeps the running
  sums  Σ w(n,k)·x(n,f)  and  Σ w(n,k)  over the rows seen so far (w the softmax weight of the row for the codeword),
  started from zero at the first tile; a sum over the 4096 rows is the sum of the four tiles' sums, whatever the order,
  because addition of extended reals is commutative and associative. At the fourth tile the body forms the residual
  Σ w·x − (Σ w)·c(k,f), normalises, cuts off at zero and sums over the codewords: the image's encoding. The fourth
  tiles' blocks tile the output array, so the array ends holding every image's encoding.
-/
import proofs.«123844_j1666447310975_2_alg».proof.Proof.EncPoints
import proofs.«123844_j1666447310975_2_alg».proof.Proof.Spec
import proofs.«123844_j1666447310975_2_alg».proof.Proof.PayAccum
import proofs.«123844_j1666447310975_2_alg».proof.Proof.PayWeights
import proofs.«123844_j1666447310975_2_alg».proof.Proof.PayProd
import proofs.«123844_j1666447310975_2_alg».proof.Proof.PayEmit
import proofs.«123844_j1666447310975_2_alg».proof.Proof.TileSum
import Idealize.ShloMosaic.Lib.ValueIdx
import Idealize.ShloMosaic.Lib.Pipeline.Value

set_option maxRecDepth 16384

noncomputable section

namespace Cert.KernelIdeal.Hand

open Cert.KernelIdeal.Gen Cert.KernelIdeal.PayValue
open Idealize.ShloMosaic Idealize.ShloMosaic.TcCoe Idealize.ShloMosaic.Tactic
open Idealize.SL Idealize.SL.Sem
open Idealize.ShloMosaic.Pipeline (Dat Cfg Window)
open Idealize.ShloMosaic.ValueIdx

section Value
variable (V : (c : Dev nD) → (b : Ref sig .tc) → Buf (Elt Ideal) ((c : Thread nD τ).loc b))

/-! ## The arrays the region reads, as plain functions -/

/-- The 4096 rows of image `b`. -/
def rowsOf (c : Dev nD) (b : Fin 16) : Fin 4096 → Fin 512 → EReal := fun n f => (V c main_v0 : S16x4096x512.Idx → EReal) (ix3 b n f)
/-- The codewords, the smoothing factors, and the four per-feature parameter rows. -/
def cwOf (c : Dev nD) : Fin 32 → Fin 512 → EReal := fun k f => (V c main_arg1 : S32x512.Idx → EReal) (ix2 k f)
def smOf (c : Dev nD) : Fin 32 → EReal := fun k => (V c main_v1 : S1x32.Idx → EReal) (ix2 0 k)
def gOf (c : Dev nD) : Fin 512 → EReal := fun f => (V c main_v2 : S1x512.Idx → EReal) (ix2 0 f)
def beOf (c : Dev nD) : Fin 512 → EReal := fun f => (V c main_v3 : S1x512.Idx → EReal) (ix2 0 f)
def muOf (c : Dev nD) : Fin 512 → EReal := fun f => (V c main_v4 : S1x512.Idx → EReal) (ix2 0 f)
def vaOf (c : Dev nD) : Fin 512 → EReal := fun f => (V c main_v5 : S1x512.Idx → EReal) (ix2 0 f)

/-! ## The windows' blocks read at an index

The feature window's block at point number `n` is rows `1024·(n mod 4) …` of image `n / 4`; every other input
window's one block is its whole array. -/

theorem idx_facts0 : ∀ t : Fin cfg0.N, win0_0.index t (0 : Fin 3) = t.val / 4 ∧ win0_0.index t (1 : Fin 3) = t.val % 4 ∧ win0_0.index t (2 : Fin 3) = 0
    ∧ win0_7.index t (0 : Fin 3) = t.val / 4 ∧ win0_7.index t (1 : Fin 3) = 0 ∧ win0_7.index t (2 : Fin 3) = 0 :=
  (by decide +kernel : ∀ t : Fin grid0.N, _)

theorem idx_facts0' : ∀ t : Fin cfg0.N, (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) :=
  (by decide +kernel : ∀ t : Fin grid0.N, _)

theorem blk0_0_at (c : Dev nD) (n : ℕ) (hn : n < cfg0.N) (b : Fin 16) (j : Fin 4) (hb : n / 4 = b.val) (hj : n % 4 = j.val) (r : Fin 1024) (f : Fin 512) :
    iblk0 V c 0 ⟨n, hn⟩ (ix3 0 r f) = rowsOf V c b ⟨j.val * 1024 + r.val, by have := j.isLt; have := r.isLt; omega⟩ f := by
  obtain ⟨e0, e1, e2, -⟩ := idx_facts0 ⟨n, hn⟩
  have e0' : win0_0.index ⟨n, hn⟩ (0 : Fin 3) = n / 4 := e0
  have e1' : win0_0.index ⟨n, hn⟩ (1 : Fin 3) = n % 4 := e1
  unfold rowsOf
  show (V c main_v0 : S16x4096x512.Idx → EReal) (((cfg0.win 0).blk ⟨n, hn⟩).view.emb (ix3 0 r f)) = _
  refine congrArg _ ?_
  funext a; apply Fin.ext
  match a with
  | ⟨0, _⟩ => show win0_0.index ⟨n, hn⟩ (0 : Fin 3) * 1 + 1 * 0 = b.val; omega
  | ⟨1, _⟩ => show win0_0.index ⟨n, hn⟩ (1 : Fin 3) * 1024 + 1 * r.val = j.val * 1024 + r.val; omega
  | ⟨2, _⟩ => show win0_0.index ⟨n, hn⟩ (2 : Fin 3) * 512 + 1 * f.val = f.val; omega

theorem blk0_1_at (c : Dev nD) (t : Fin cfg0.N) (k : Fin 32) (f : Fin 512) :
    iblk0 V c 1 t (ix2 k f) = cwOf V c k f := by
  obtain ⟨e1, -⟩ := idx_facts0' t
  have e10 := e1 0; have e11 := e1 1
  unfold cwOf
  show (V c main_arg1 : S32x512.Idx → EReal) (((cfg0.win 1).blk t).view.emb (ix2 k f)) = _
  refine congrArg _ ?_
  funext a; apply Fin.ext
  match a with
  | ⟨0, _⟩ => show win0_1.index t (0 : Fin 2) * 32 + 1 * k.val = k.val; omega
  | ⟨1, _⟩ => show win0_1.index t (1 : Fin 2) * 512 + 1 * f.val = f.val; omega

theorem blk0_2_at (c : Dev nD) (t : Fin cfg0.N) (k : Fin 32) :
    iblk0 V c 2 t (ix2 0 k) = smOf V c k := by
  obtain ⟨-, e2, -⟩ := idx_facts0' t
  have e20 := e2 0; have e21 := e2 1
  unfold smOf
  show (V c main_v1 : S1x32.Idx → EReal) (((cfg0.win 2).blk t).view.emb (ix2 0 k)) = _
  refine congrArg _ ?_
  funext a; apply Fin.ext
  match a with
  | ⟨0, _⟩ => show win0_2.index t (0 : Fin 2) * 1 + 1 * 0 = 0; omega
  | ⟨1, _⟩ => show win0_2.index t (1 : Fin 2) * 32 + 1 * k.val = k.val; omega

theorem blk0_3_at (c : Dev nD) (t : Fin cfg0.N) (f : Fin 512) :
    iblk0 V c 3 t (ix2 0 f) = (V c main_v2 : S1x512.Idx → EReal) (ix2 0 f) := by
  obtain ⟨-, -, e3, e4, e5, e6⟩ := idx_facts0' t
  have e0 := e3 0; have e1 := e3 1
  show (V c main_v2 : S1x512.Idx → EReal) (((cfg0.win 3).blk t).view.emb (ix2 0 f)) = _
  refine congrArg _ ?_
  funext a; apply Fin.ext
  match a with
  | ⟨0, _⟩ => show win0_3.index t (0 : Fin 2) * 1 + 1 * 0 = 0; omega
  | ⟨1, _⟩ => show win0_3.index t (1 : Fin 2) * 512 + 1 * f.val = f.val; omega

theorem blk0_4_at (c : Dev nD) (t : Fin cfg0.N) (f : Fin 512) :
    iblk0 V c 4 t (ix2 0 f) = (V c main_v3 : S1x512.Idx → EReal) (ix2 0 f) := by
  obtain ⟨-, -, e3, e4, e5, e6⟩ := idx_facts0' t
  have e0 := e4 0; have e1 := e4 1
  show (V c main_v3 : S1x512.Idx → EReal) (((cfg0.win 4).blk t).view.emb (ix2 0 f)) = _
  refine congrArg _ ?_
  funext a; apply Fin.ext
  match a with
  | ⟨0, _⟩ => show win0_4.index t (0 : Fin 2) * 1 + 1 * 0 = 0; omega
  | ⟨1, _⟩ => show win0_4.index t (1 : Fin 2) * 512 + 1 * f.val = f.val; omega

theorem blk0_5_at (c : Dev nD) (t : Fin cfg0.N) (f : Fin 512) :
    iblk0 V c 5 t (ix2 0 f) = (V c main_v4 : S1x512.Idx → EReal) (ix2 0 f) := by
  obtain ⟨-, -, e3, e4, e5, e6⟩ := idx_facts0' t
  have e0 := e5 0; have e1 := e5 1
  show (V c main_v4 : S1x512.Idx → EReal) (((cfg0.win 5).blk t).view.emb (ix2 0 f)) = _
  refine congrArg _ ?_
  funext a; apply Fin.ext
  match a with
  | ⟨0, _⟩ => show win0_5.index t (0 : Fin 2) * 1 + 1 * 0 = 0; omega
  | ⟨1, _⟩ => show win0_5.index t (1 : Fin 2) * 512 + 1 * f.val = f.val; omega

theorem blk0_6_at (c : Dev nD) (t : Fin cfg0.N) (f : Fin 512) :
    iblk0 V c 6 t (ix2 0 f) = (V c main_v5 : S1x512.Idx → EReal) (ix2 0 f) := by
  obtain ⟨-, -, e3, e4, e5, e6⟩ := idx_facts0' t
  have e0 := e6 0; have e1 := e6 1
  show (V c main_v5 : S1x512.Idx → EReal) (((cfg0.win 6).blk t).view.emb (ix2 0 f)) = _
  refine congrArg _ ?_
  funext a; apply Fin.ext
  match a with
  | ⟨0, _⟩ => show win0_6.index t (0 : Fin 2) * 1 + 1 * 0 = 0; omega
  | ⟨1, _⟩ => show win0_6.index t (1 : Fin 2) * 512 + 1 * f.val = f.val; omega

/-! ## One tile's contribution -/

/-- The softmax weight of codeword `k` for row `n` of image `b`. -/
def wt (c : Dev nD) (b : Fin 16) (k : Fin 32) (n : Fin 4096) : EReal :=
  Cert.Spec.weight (rowsOf V c b n) (cwOf V c) (smOf V c) k

/-- The sum of `g` over the 1024 rows of row tile `j`. -/
def tileSum (g : Fin 4096 → EReal) (j : Fin 4) : EReal :=
  ∑ r : Fin 1024, g ⟨j.val * 1024 + r.val, by have := j.isLt; have := r.isLt; omega⟩

/-- The weights the body computes for the tile at point `n` are the weights of the image's rows in that tile. -/
theorem weights_at (c : Dev nD) (n : ℕ) (hn : n < cfg0.N) (b : Fin 16) (j : Fin 4) (hb : n / 4 = b.val) (hj : n % 4 = j.val) (r : Fin 1024) (k : Fin 32) :
    k0_pay8 (F := Ideal) (iblk0 V c 0 ⟨n, hn⟩) (iblk0 V c 1 ⟨n, hn⟩) (iblk0 V c 2 ⟨n, hn⟩) (ix2 r k)
      = wt V c b k ⟨j.val * 1024 + r.val, by have := j.isLt; have := r.isLt; omega⟩ := by
  refine (pay8_apply (iblk0 V c 0 ⟨n, hn⟩) (iblk0 V c 1 ⟨n, hn⟩) (iblk0 V c 2 ⟨n, hn⟩) r k).trans ?_
  unfold wt
  congr 1
  · funext f'; exact blk0_0_at V c n hn b j hb hj r f'
  · funext k' f'; exact blk0_1_at V c ⟨n, hn⟩ k' f'
  · funext k'; exact blk0_2_at V c ⟨n, hn⟩ k'

/-- The tile's weighted rows, summed: entry (k, f). -/
theorem rowsum_at (c : Dev nD) (n : ℕ) (hn : n < cfg0.N) (b : Fin 16) (j : Fin 4) (hb : n / 4 = b.val) (hj : n % 4 = j.val) (k : Fin 32) (f : Fin 512) :
    k0_pay9 (F := Ideal) (iblk0 V c 0 ⟨n, hn⟩) (iblk0 V c 1 ⟨n, hn⟩) (iblk0 V c 2 ⟨n, hn⟩) (ix2 k f)
      = tileSum (fun n' => wt V c b k n' * rowsOf V c b n' f) j := by
  refine (pay9_apply (iblk0 V c 0 ⟨n, hn⟩) (iblk0 V c 1 ⟨n, hn⟩) (iblk0 V c 2 ⟨n, hn⟩) k f).trans ?_
  unfold tileSum
  refine Finset.sum_congr rfl fun r _ => ?_
  have hw := weights_at V c n hn b j hb hj r k
  rw [pay8_apply] at hw
  rw [hw, blk0_0_at V c n hn b j hb hj r f]

/-- The tile's weights, summed over its rows: entry k. -/
theorem wsum_at (c : Dev nD) (n : ℕ) (hn : n < cfg0.N) (b : Fin 16) (j : Fin 4) (hb : n / 4 = b.val) (hj : n % 4 = j.val) (k : Fin 32) :
    (∑ r : Fin 1024, k0_pay8 (F := Ideal) (iblk0 V c 0 ⟨n, hn⟩) (iblk0 V c 1 ⟨n, hn⟩) (iblk0 V c 2 ⟨n, hn⟩) (ix2 r k))
      = tileSum (wt V c b k) j := by
  unfold tileSum
  exact Finset.sum_congr rfl fun r _ => weights_at V c n hn b j hb hj r k

/-! ## The accumulators after each tile of an image -/

theorem acc0_at (c : Dev nD) (b : Fin 16) (k : Fin 32) (f : Fin 512) (n : ℕ) (hn : n < cfg0.N) (hb : n / 4 = b.val) :
    (n % 4 = 0 → (outsAt0 V c n hn).2.1 (ix2 k f) = 0 + tileSum (fun n' => wt V c b k n' * rowsOf V c b n' f) 0)
    ∧ (n % 4 = 1 → (outsAt0 V c n hn).2.1 (ix2 k f) = 0 + tileSum (fun n' => wt V c b k n' * rowsOf V c b n' f) 0 + tileSum (fun n' => wt V c b k n' * rowsOf V c b n' f) 1)
    ∧ (n % 4 = 2 → (outsAt0 V c n hn).2.1 (ix2 k f) = 0 + tileSum (fun n' => wt V c b k n' * rowsOf V c b n' f) 0 + tileSum (fun n' => wt V c b k n' * rowsOf V c b n' f) 1 + tileSum (fun n' => wt V c b k n' * rowsOf V c b n' f) 2)
    ∧ (n % 4 = 3 → (outsAt0 V c n hn).2.1 (ix2 k f) = 0 + tileSum (fun n' => wt V c b k n' * rowsOf V c b n' f) 0 + tileSum (fun n' => wt V c b k n' * rowsOf V c b n' f) 1 + tileSum (fun n' => wt V c b k n' * rowsOf V c b n' f) 2 + tileSum (fun n' => wt V c b k n' * rowsOf V c b n' f) 3) := by
  have first : ∀ (n : ℕ) (hn : n < cfg0.N), n / 4 = b.val → n % 4 = 0 →
      (outsAt0 V c n hn).2.1 (ix2 k f) = 0 + tileSum (fun n' => wt V c b k n' * rowsOf V c b n' f) 0 := by
    intro n hn hb h
    rw [acc0_first V c n hn h]
    refine (pay1_apply _ _ k f).trans ?_
    rw [pay4_apply, rowsum_at V c n hn b 0 hb (by simpa using h)]
  have later : ∀ (n : ℕ) (hn : n < cfg0.N) (j : Fin 4), n / 4 = b.val → n % 4 = j.val → j.val ≠ 0 →
      (outsAt0 V c n hn).2.1 (ix2 k f) = (outsAt0 V c (n - 1) (by omega)).2.1 (ix2 k f) + tileSum (fun n' => wt V c b k n' * rowsOf V c b n' f) j := by
    intro n hn j hb hj h
    rw [acc0_later V c n hn (by omega)]
    refine (pay1_apply _ _ k f).trans ?_
    rw [rowsum_at V c n hn b j hb hj]
  refine ⟨fun h => first n hn hb h, fun h => ?_, fun h => ?_, fun h => ?_⟩
  · rw [later n hn 1 hb (by simpa using h) (by decide), first (n - 1) (by omega) (by omega) (by omega)]
  · rw [later n hn 2 hb (by simpa using h) (by decide), later (n - 1) (by omega) 1 (by omega) (by simp; omega) (by decide),
      first (n - 1 - 1) (by omega) (by omega) (by omega)]
  · rw [later n hn 3 hb (by simpa using h) (by decide), later (n - 1) (by omega) 2 (by omega) (by simp; omega) (by decide),
      later (n - 1 - 1) (by omega) 1 (by omega) (by simp; omega) (by decide), first (n - 1 - 1 - 1) (by omega) (by omega) (by omega)]

theorem acc1_at (c : Dev nD) (b : Fin 16) (k : Fin 32) (n : ℕ) (hn : n < cfg0.N) (hb : n / 4 = b.val) (h : n % 4 = 3) :
    (outsAt0 V c n hn).2.2 (ix2 k 0) = 0 + tileSum (wt V c b k) 0 + tileSum (wt V c b k) 1 + tileSum (wt V c b k) 2 + tileSum (wt V c b k) 3 := by
  have first : ∀ (n : ℕ) (hn : n < cfg0.N), n / 4 = b.val → n % 4 = 0 →
      (outsAt0 V c n hn).2.2 (ix2 k 0) = 0 + tileSum (wt V c b k) 0 := by
    intro n hn hb h
    rw [acc1_first V c n hn h]
    refine (pay2_apply _ _ k).trans ?_
    rw [pay5_apply, wsum_at V c n hn b 0 hb (by simpa using h)]
  have later : ∀ (n : ℕ) (hn : n < cfg0.N) (j : Fin 4), n / 4 = b.val → n % 4 = j.val → j.val ≠ 0 →
      (outsAt0 V c n hn).2.2 (ix2 k 0) = (outsAt0 V c (n - 1) (by omega)).2.2 (ix2 k 0) + tileSum (wt V c b k) j := by
    intro n hn j hb hj h
    rw [acc1_later V c n hn (by omega)]
    refine (pay2_apply _ _ k).trans ?_
    rw [wsum_at V c n hn b j hb hj]
  rw [later n hn 3 hb (by simpa using h) (by decide), later (n - 1) (by omega) 2 (by omega) (by simp; omega) (by decide),
    later (n - 1 - 1) (by omega) 1 (by omega) (by simp; omega) (by decide), first (n - 1 - 1 - 1) (by omega) (by omega) (by omega)]

/-! ## The output block after an image's last tile is the image's encoding -/

theorem tiles_total (g : Fin 4096 → EReal) : 0 + tileSum g 0 + tileSum g 1 + tileSum g 2 + tileSum g 3 = ∑ n, g n := by
  rw [Cert.Spec.sum_rows_eq_tiles g, Fin.sum_univ_four, zero_add]
  rfl

theorem out_at (c : Dev nD) (b : Fin 16) (f : Fin 512) (n : ℕ) (hn : n < cfg0.N) (hb : n / 4 = b.val) (h : n % 4 = 3) :
    (outsAt0 V c n hn).1 (ix3 0 0 f)
      = Cert.Spec.encode (rowsOf V c b) (cwOf V c) (smOf V c) (gOf V c) (beOf V c) (muOf V c) (vaOf V c) f := by
  rw [out_last V c n hn h]
  refine (pay3_apply _ _ _ _ _ _ _ f).trans ?_
  unfold Cert.Spec.encode Cert.Spec.resid
  refine Finset.sum_congr rfl fun k _ => ?_
  rw [(acc0_at V c b k f n hn hb).2.2.2 h, acc1_at V c b k n hn hb h, tiles_total, tiles_total,
    blk0_1_at, blk0_5_at, blk0_6_at, blk0_3_at, blk0_4_at]
  rfl

end Value

section Final
variable (V : (c : Dev nD) → (b : Ref sig .tc) → Buf (Elt Ideal) ((c : Thread nD τ).loc b))

/-! ## The output array after the region: every image's encoding -/

/-- The [16, 1, 512] array of encodings as one function of the arrays the region reads. -/
def encArr (c : Dev nD) : S16x1x512.Idx → EReal := fun i =>
  Cert.Spec.encode (rowsOf V c (i 0)) (cwOf V c) (smOf V c) (gOf V c) (beOf V c) (muOf V c) (vaOf V c) (i 2)

/-- What a last tile writes back is its image's row of `encArr`. -/
theorem flushed7_eq (c : Dev nD) (t : Fin cfg0.N) (hf : (cfg0.win 7).flush t = true) :
    (dat0 V c).flushed 7 t = ((cfg0.win 7).blk t).view.read (Elt Ideal) (encArr V c) := by
  have h3 : t.val % 4 = 3 := (flush0_7 t).mp hf
  have hN : t.val < 64 := lt_of_lt_of_eq t.isLt (show cfg0.N = 64 from N_0)
  obtain ⟨-, -, -, e0, e1, e2⟩ := idx_facts0 t
  show (cfg0.win 7).cut (grid0.coords t) ((dat0 V c).after 7 t) = _
  rw [after0_7]
  refine funext fun (y : S1x1x512.Idx) => ?_
  have hy : y = ix3 0 0 (y 2) := by
    funext a; apply Fin.ext
    match a with
    | ⟨0, _⟩ => show (y 0).val = 0; have h : (y 0).val < 1 := (y 0).isLt; omega
    | ⟨1, _⟩ => show (y 1).val = 0; have h : (y 1).val < 1 := (y 1).isLt; omega
    | ⟨2, _⟩ => rfl
  rw [hy]
  have hemb : ((cfg0.win 7).blk t).view.emb (ix3 0 0 (y 2)) = ix3 (⟨t.val / 4, by omega⟩ : Fin 16) 0 (y 2) := by
    funext a; apply Fin.ext
    match a with
    | ⟨0, _⟩ => show win0_7.index t (0 : Fin 3) * 1 + 1 * 0 = t.val / 4; omega
    | ⟨1, _⟩ => show win0_7.index t (1 : Fin 3) * 1 + 1 * 0 = 0; omega
    | ⟨2, _⟩ => show win0_7.index t (2 : Fin 3) * 512 + 1 * (y 2).val = (y 2).val; omega
  show (outsAt0 V c t.val t.isLt).1 (ix3 0 0 (y 2)) = encArr V c (((cfg0.win 7).blk t).view.emb (ix3 0 0 (y 2)))
  rw [hemb, out_at V c ⟨t.val / 4, by omega⟩ (y 2) t.val t.isLt rfl h3]
  rfl

/-- An index of the array is in point `t`'s block iff each coordinate is in the block's range on its axis. -/
theorem mem_blk7 (t : Fin cfg0.N) (i : S16x1x512.Idx) :
    i ∈ ((cfg0.win 7).blk t).view.set ↔ ∀ a : Fin 3, win0_7.index t a * S1x1x512.size a ≤ (i a).val ∧ (i a).val < win0_7.index t a * S1x1x512.size a + S1x1x512.size a := by
  show i ∈ ((View.whole main_v6).slice (win0_7.rect t)).set ↔ _
  rw [View.set_slice_whole, Rect.mem_set_unit]
  exact Iff.rfl

/-- Every entry of the array is in the block some last tile writes back. -/
theorem cover7 (i : S16x1x512.Idx) : ∃ t : Fin cfg0.N, (cfg0.win 7).flush t = true ∧ i ∈ ((cfg0.win 7).blk t).view.set := by
  have hi0 : (i 0).val < 16 := (i 0).isLt
  have hi1 : (i 1).val < 1 := (i 1).isLt
  have hi2 : (i 2).val < 512 := (i 2).isLt
  have hN : grid0.N = 64 := N_0
  have hN' : cfg0.N = 64 := N_0
  refine ⟨⟨4 * (i 0).val + 3, by omega⟩, (flush0_7 _).mpr (by show (4 * (i 0).val + 3) % 4 = 3; omega), ?_⟩
  obtain ⟨-, -, -, e0, e1, e2⟩ := idx_facts0 ⟨4 * (i 0).val + 3, by omega⟩
  have e0' : win0_7.index ⟨4 * (i 0).val + 3, by omega⟩ (0 : Fin 3) = (4 * (i 0).val + 3) / 4 := e0
  clear e0
  rw [mem_blk7]
  intro a
  match a with
  | ⟨0, _⟩ => show win0_7.index ⟨4 * (i 0).val + 3, _⟩ (0 : Fin 3) * 1 ≤ (i 0).val ∧ (i 0).val < win0_7.index ⟨4 * (i 0).val + 3, _⟩ (0 : Fin 3) * 1 + 1; omega
  | ⟨1, _⟩ => show win0_7.index ⟨4 * (i 0).val + 3, _⟩ (1 : Fin 3) * 1 ≤ (i 1).val ∧ (i 1).val < win0_7.index ⟨4 * (i 0).val + 3, _⟩ (1 : Fin 3) * 1 + 1; omega
  | ⟨2, _⟩ => show win0_7.index ⟨4 * (i 0).val + 3, _⟩ (2 : Fin 3) * 512 ≤ (i 2).val ∧ (i 2).val < win0_7.index ⟨4 * (i 0).val + 3, _⟩ (2 : Fin 3) * 512 + 512; omega

/-- THE ARRAY after the region. -/
theorem final7 (c : Dev nD) : (dat0 V c).arrAt 7 cfg0.N = encArr V c :=
  (dat0 V c).arrAt_eq_of_cover 7 (encArr V c) (fun t hf => flushed7_eq V c t hf) cover7

end Final

end Cert.KernelIdeal.Hand

end
-- ==== Proof.RefEnc.lean ====
/-
  The reference's encoding, entry by entry, is the encoding of the specification.

  The reference first lays each image out as 4096 rows of 512 features (row `n` is pixel `(n / 64, n % 64)`), and
  from there on every stage is read at an index: the squared length of a row, its products with the codewords and
  the squared lengths of the codewords give the scores; the largest score of a row (the reference takes the larger
  of it and −∞ once more, which changes nothing) shifts the exponentials; their quotients by the row's total are
  the weights; two sums over the 4096 rows give the aggregated residual; the normalisation, the cut-off at zero
  and the sum over the 32 codewords finish the entry. Every float sum of the reference starts from the literal
  zero, which is the real number 0.
-/
import proofs.«123844_j1666447310975_2_alg».proof.Proof.RefDefs
import proofs.«123844_j1666447310975_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open ValueIdx (ix1 ix2 ix3 ix4)

variable (x : FVec Ideal S16x64x64x512 .f32) (cw : FVec Ideal S32x512 .f32) (sm : FVec Ideal S32 .f32)
  (g be mu va : FVec Ideal S512 .f32)

/-- Image `b` as 4096 rows of 512 features: row `n` is pixel `(n / 64, n % 64)`. -/
abbrev img (b : Fin 16) : Fin 4096 → Fin 512 → EReal := fun n f' =>
  x (ix4 b ⟨n.val / 64, by have := n.isLt; omega⟩ ⟨n.val % 64, Nat.mod_lt _ (by decide)⟩ f')
/-- The codewords as a function of (codeword, feature). -/
abbrev cwf : Fin 32 → Fin 512 → EReal := fun k f' => cw (ix2 k f')
/-- The smoothing factors as a function of the codeword. -/
abbrev smf : Fin 32 → EReal := fun k => sm (ix1 k)

/-- The literal the float sums start from is the real number zero. -/
theorem zeroWord : FloatOps.ofBits (F := Ideal) .f32 0x00000000#32 = (0 : EReal) := Ideal.ofBits_zero_f32

/-- The reshaped array at (image, row, feature) is the input at (image, row / 64, row % 64, feature). -/
theorem rows_apply (b : Fin 16) (n : Fin 4096) (f : Fin 512) :
    val_main_v0 (F := Ideal) x (ix3 b n f) = img x b n f := by
  rw [val_main_v0_apply]
  refine congrArg x (funext fun a => Fin.ext ?_)
  have hb := b.isLt; have hn := n.isLt; have hf := f.isLt
  match a with
  | ⟨0, _⟩ => show ((b.val * 4096 + n.val) * 512 + f.val) / 2097152 = b.val; omega
  | ⟨1, _⟩ => show ((b.val * 4096 + n.val) * 512 + f.val) / 32768 % 64 = n.val / 64; omega
  | ⟨2, _⟩ => show ((b.val * 4096 + n.val) * 512 + f.val) / 512 % 64 = n.val % 64; omega
  | ⟨3, _⟩ => show ((b.val * 4096 + n.val) * 512 + f.val) % 512 = f.val; omega

/-- The squared length of a row. -/
theorem rowSq_apply (b : Fin 16) (n : Fin 4096) :
    val_main_v2 (F := Ideal) x (ix2 b n) = ∑ f, img x b n f * img x b n f := by
  rw [val_main_v2_apply, val_main_cst_apply, zeroWord, zero_add]
  refine Finset.sum_congr rfl fun f _ => ?_
  have e : idx_main_v2 (ix2 b n) f = ix3 b n f :=
    funext fun a => Fin.ext (by match a with | ⟨0, _⟩ => rfl | ⟨1, _⟩ => rfl | ⟨2, _⟩ => rfl)
  rw [e, val_main_v1_apply, rows_apply]
  rfl

/-- The squared length of a codeword. -/
theorem cwSq_apply (k : Fin 32) :
    val_main_v5 (F := Ideal) cw (ix1 k) = ∑ f, cwf cw k f * cwf cw k f := by
  rw [val_main_v5_apply, val_main_cst_0_apply, zeroWord, zero_add]
  refine Finset.sum_congr rfl fun f _ => ?_
  have e : idx_main_v5 (ix1 k) f = ix2 k f :=
    funext fun a => Fin.ext (by match a with | ⟨0, _⟩ => rfl | ⟨1, _⟩ => rfl)
  rw [e, val_main_v4_apply]
  rfl

/-- The product of a row with a codeword. -/
theorem cross_apply (b : Fin 16) (n : Fin 4096) (k : Fin 32) :
    val_main_v6 (F := Ideal) x cw (ix3 b n k) = ∑ f, img x b n f * cwf cw k f := by
  rw [val_main_v6_apply]
  refine Finset.sum_congr rfl fun f _ => ?_
  have el : lidx_main_v6 (ix3 b n k) f = ix3 b n f :=
    funext fun a => Fin.ext (by match a with | ⟨0, _⟩ => rfl | ⟨1, _⟩ => rfl | ⟨2, _⟩ => rfl)
  have er : ridx_main_v6 (ix3 b n k) f = ix2 k f :=
    funext fun a => Fin.ext (by match a with | ⟨0, _⟩ => rfl | ⟨1, _⟩ => rfl)
  rw [el, er, rows_apply]

/-- The score of a row for a codeword. -/
theorem score_apply (b : Fin 16) (n : Fin 4096) (k : Fin 32) :
    val_main_v16 (F := Ideal) x cw sm (ix3 b n k) = Cert.Spec.score (img x b n) (cwf cw) (smf sm) k := by
  have e9 : idx_main_v3 (idx_main_v9 (ix3 b n k)) = ix2 b n :=
    funext fun a => Fin.ext (by match a with | ⟨0, _⟩ => rfl | ⟨1, _⟩ => rfl)
  have e12 : idx_main_v11 (idx_main_v12 (ix3 b n k)) = ix1 k :=
    funext fun a => Fin.ext (by match a with | ⟨0, _⟩ => rfl)
  have e15 : idx_main_v14 (idx_main_v15 (ix3 b n k)) = ix1 k :=
    funext fun a => Fin.ext (by match a with | ⟨0, _⟩ => rfl)
  rw [val_main_v16_apply, val_main_v13_apply, val_main_v10_apply, val_main_v9_apply, val_main_v3_apply, e9,
    rowSq_apply, val_main_v8_apply, val_main_v7_apply, val_main_cst_1_apply, cross_apply, val_main_v12_apply,
    val_main_v11_apply, e12, cwSq_apply, val_main_v15_apply, val_main_v14_apply, e15]
  rfl

/-- The largest score of a row. -/
theorem rowMax_apply (b : Fin 16) (n : Fin 4096) :
    val_main_v19 (F := Ideal) x cw sm (ix2 b n) = Cert.Spec.rowMax (Cert.Spec.score (img x b n) (cwf cw) (smf sm)) := by
  have h : S16x4096x32.Reduces [2] S16x4096 := by decide
  have e17 : val_main_v17 (F := Ideal) x cw sm (ix2 b n)
      = (Finset.univ : Finset (Fin 32)).fold max Cert.Spec.negInf (Cert.Spec.score (img x b n) (cwf cw) (smf sm)) := by
    unfold val_main_v17
    refine (Host.reduce_eq_fold_single (FloatOps.maximumf (F := Ideal) (φ := .f32)) _ _ _ h h_S_ (ix2 b n)).trans ?_
    show (Finset.univ : Finset (Fin 32)).fold max Cert.Spec.negInf
      (fun k => val_main_v16 (F := Ideal) x cw sm (h.lift (ix2 b n) k)) = _
    refine Finset.fold_congr fun (k : Fin 32) _ => ?_
    have e : h.lift (ix2 b n) k = ix3 b n k :=
      funext fun a => Fin.ext (by match a with | ⟨0, _⟩ => rfl | ⟨1, _⟩ => rfl | ⟨2, _⟩ => rfl)
    exact (congrArg (val_main_v16 (F := Ideal) x cw sm) e).trans (score_apply x cw sm b n k)
  have hbot : Cert.Spec.negInf = (⊥ : EReal) := by simp [Cert.Spec.negInf, Ideal.ofBits, Ideal.ieee]
  rw [val_main_v19_apply, val_main_v18_apply, val_main_cst_3_apply, e17]
  show max Cert.Spec.negInf (Cert.Spec.rowMax _) = Cert.Spec.rowMax _
  rw [hbot, max_eq_right bot_le]

/-- The shifted exponential of a score. -/
theorem expo_apply (b : Fin 16) (n : Fin 4096) (k : Fin 32) :
    val_main_v23 (F := Ideal) x cw sm (ix3 b n k) = Cert.Spec.expo (img x b n) (cwf cw) (smf sm) k := by
  have e21 : idx_main_v20 (idx_main_v21 (ix3 b n k)) = ix2 b n :=
    funext fun a => Fin.ext (by match a with | ⟨0, _⟩ => rfl | ⟨1, _⟩ => rfl)
  rw [val_main_v23_apply, val_main_v22_apply, score_apply, val_main_v21_apply, val_main_v20_apply, e21, rowMax_apply]
  rfl

/-- The softmax weight of a codeword for a row. -/
theorem weight_apply (b : Fin 16) (n : Fin 4096) (k : Fin 32) :
    val_main_v27 (F := Ideal) x cw sm (ix3 b n k) = Cert.Spec.weight (img x b n) (cwf cw) (smf sm) k := by
  have e26 : idx_main_v25 (idx_main_v26 (ix3 b n k)) = ix2 b n :=
    funext fun a => Fin.ext (by match a with | ⟨0, _⟩ => rfl | ⟨1, _⟩ => rfl)
  have e24 : ∀ k' : Fin 32, idx_main_v24 (ix2 b n) k' = ix3 b n k' := fun k' =>
    funext fun a => Fin.ext (by match a with | ⟨0, _⟩ => rfl | ⟨1, _⟩ => rfl | ⟨2, _⟩ => rfl)
  rw [val_main_v27_apply, expo_apply, val_main_v26_apply, val_main_v25_apply, e26, val_main_v24_apply,
    val_main_cst_4_apply, zeroWord, zero_add]
  simp only [e24, expo_apply]
  rfl

/-- The aggregated residual of an image for a codeword and a feature. -/
theorem resid_apply (b : Fin 16) (k : Fin 32) (f : Fin 512) :
    val_main_v35 (F := Ideal) x cw sm (ix3 b k f) = Cert.Spec.resid (img x b) (cwf cw) (smf sm) k f := by
  have el : ∀ n : Fin 4096, lidx_main_v29 (ix3 b k f) n = ix3 b n k := fun n =>
    funext fun a => Fin.ext (by match a with | ⟨0, _⟩ => rfl | ⟨1, _⟩ => rfl | ⟨2, _⟩ => rfl)
  have er : ∀ n : Fin 4096, ridx_main_v29 (ix3 b k f) n = ix3 b n f := fun n =>
    funext fun a => Fin.ext (by match a with | ⟨0, _⟩ => rfl | ⟨1, _⟩ => rfl | ⟨2, _⟩ => rfl)
  have e32 : idx_main_v30 (idx_main_v32 (ix3 b k f)) = ix2 b k :=
    funext fun a => Fin.ext (by match a with | ⟨0, _⟩ => rfl | ⟨1, _⟩ => rfl)
  have e28 : ∀ n : Fin 4096, idx_main_v28 (ix2 b k) n = ix3 b n k := fun n =>
    funext fun a => Fin.ext (by match a with | ⟨0, _⟩ => rfl | ⟨1, _⟩ => rfl | ⟨2, _⟩ => rfl)
  have e33 : idx_main_v31 (idx_main_v33 (ix3 b k f)) = ix2 k f :=
    funext fun a => Fin.ext (by match a with | ⟨0, _⟩ => rfl | ⟨1, _⟩ => rfl)
  rw [val_main_v35_apply, val_main_v29_apply, val_main_v34_apply, val_main_v32_apply, val_main_v30_apply, e32,
    val_main_v28_apply, val_main_cst_5_apply, zeroWord, zero_add, val_main_v33_apply, val_main_v31_apply, e33]
  simp only [el, er, e28, weight_apply, rows_apply]
  rfl

/-- One normalised, cut-off entry. -/
theorem normCut_apply (b : Fin 16) (k : Fin 32) (f : Fin 512) :
    val_main_v51 (F := Ideal) x cw sm g be mu va (ix3 b k f)
      = Cert.Spec.normCut (Cert.Spec.resid (img x b) (cwf cw) (smf sm) k f) (mu (ix1 f)) (va (ix1 f)) (g (ix1 f)) (be (ix1 f)) := by
  have e1 : ∀ y : FVec Ideal S512 .f32, y (idx_main_v36 (idx_main_v37 (ix3 b k f))) = y (ix1 f) := fun y =>
    congrArg y (funext fun a => Fin.ext (by match a with | ⟨0, _⟩ => rfl))
  rw [val_main_v51_apply, val_main_v50_apply, val_main_v47_apply, val_main_v44_apply, val_main_v38_apply, resid_apply,
    val_main_v37_apply, val_main_v36_apply, val_main_v43_apply, val_main_v42_apply, val_main_v41_apply,
    val_main_v40_apply, val_main_v39_apply, val_main_cst_6_apply, val_main_v46_apply, val_main_v45_apply,
    val_main_v49_apply, val_main_v48_apply, val_main_call0_v0_apply, val_main_call0_cst_apply, zeroWord]
  rw [e1 mu]
  show max ((Cert.Spec.resid (img x b) (cwf cw) (smf sm) k f - mu (ix1 f))
      * Ideal.rsqrt (va (idx_main_v42 (idx_main_v43 (ix3 b k f))) + Cert.Spec.eps)
      * g (idx_main_v45 (idx_main_v46 (ix3 b k f))) + be (idx_main_v48 (idx_main_v49 (ix3 b k f)))) 0 = _
  rw [show va (idx_main_v42 (idx_main_v43 (ix3 b k f))) = va (ix1 f) from
      congrArg va (funext fun a => Fin.ext (by match a with | ⟨0, _⟩ => rfl)),
    show g (idx_main_v45 (idx_main_v46 (ix3 b k f))) = g (ix1 f) from
      congrArg g (funext fun a => Fin.ext (by match a with | ⟨0, _⟩ => rfl)),
    show be (idx_main_v48 (idx_main_v49 (ix3 b k f))) = be (ix1 f) from
      congrArg be (funext fun a => Fin.ext (by match a with | ⟨0, _⟩ => rfl))]
  rfl

/-- The reference's encoding at (image, feature) is the specification's encoding of that image at that feature. -/
theorem refEnc_apply (x : FVec Ideal S16x64x64x512 .f32) (cw : FVec Ideal S32x512 .f32) (sm : FVec Ideal S32 .f32)
    (g be mu va : FVec Ideal S512 .f32) (b : Fin 16) (f : Fin 512) :
    refEnc x cw sm g be mu va (ValueIdx.ix2 b f)
      = Cert.Spec.encode
          (fun n f' => x (ValueIdx.ix4 b ⟨n.val / 64, by have := n.isLt; omega⟩ ⟨n.val % 64, Nat.mod_lt _ (by decide)⟩ f'))
          (fun k f' => cw (ValueIdx.ix2 k f')) (fun k => sm (ValueIdx.ix1 k))
          (fun f' => g (ValueIdx.ix1 f')) (fun f' => be (ValueIdx.ix1 f')) (fun f' => mu (ValueIdx.ix1 f'))
          (fun f' => va (ValueIdx.ix1 f')) f := by
  have e52 : ∀ k : Fin 32, idx_main_v52 (ix2 b f) k = ix3 b k f := fun k =>
    funext fun a => Fin.ext (by match a with | ⟨0, _⟩ => rfl | ⟨1, _⟩ => rfl | ⟨2, _⟩ => rfl)
  unfold refEnc
  rw [val_main_v52_apply, val_main_cst_7_apply, zeroWord, zero_add]
  simp only [e52, normCut_apply]
  rfl

end Cert.ReferenceIdeal.RefValue

end
-- ==== Proof.EncRef.lean ====
/-
  Region 0's array of encodings against the reference's: the region is entered from the arguments re-laid by six
  reshapes (the images as [16, 4096, 512], row n of an image its pixel (n / 64, n % 64); the vectors as rows), so the
  encoding it leaves at (b, 0, f) is the reference's encoding of the arguments at (b, f).
-/
import proofs.«123844_j1666447310975_2_alg».proof.Proof.Run
import proofs.«123844_j1666447310975_2_alg».proof.Proof.EncValue
import proofs.«123844_j1666447310975_2_alg».proof.Proof.RefEnc
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal.Gen Cert.KernelIdeal.PayValue
open Idealize.ShloMosaic Idealize.ShloMosaic.TcCoe Idealize.ShloMosaic.Tactic
open Idealize.SL Idealize.SL.Sem
open Idealize.ShloMosaic.Pipeline (Dat Cfg Window)
open Idealize.ShloMosaic.ValueIdx
open Idealize.ShloMosaic.StableHlo

section Args
variable (m : (ℓ : Loc nD τ sig) → Buf (Elt Ideal) ℓ) (ρ : Dev nD → PrngReg)

/-! ## What region 0 is entered from: the arguments, re-laid by six reshapes -/

theorem V1_v0 (c : Dev nD) : (V1 m ρ c main_v0 : S16x4096x512.Idx → EReal) = shapeCast S16x4096x512 (m ((c : Thread nD τ).loc main_arg0)) shapeCasts_S16x64x64x512_S16x4096x512 := by
  dsimp only [V1, W1, W0, hostOps0]
  after_results
  rfl

/-- Row `n` of image `b` is the image's pixel `(n / 64, n % 64)`. -/
theorem rowsOf_V1 (c : Dev nD) (b : Fin 16) (n : Fin 4096) (f : Fin 512) :
    rowsOf (V1 m ρ) c b n f = (m ((c : Thread nD τ).loc main_arg0) : S16x64x64x512.Idx → EReal) (ix4 b ⟨n.val / 64, by have := n.isLt; omega⟩ ⟨n.val % 64, Nat.mod_lt _ (by decide)⟩ f) := by
  unfold rowsOf
  rw [V1_v0]
  refine shapeCast_apply _ _ _ _ ?_
  show (S16x64x64x512.rowMajor _).val = (S16x4096x512.rowMajor _).val
  rw [Shape.rowMajor_val_four, Shape.rowMajor_val_three]
  show ((b.val * 64 + n.val / 64) * 64 + n.val % 64) * 512 + f.val = (b.val * 4096 + n.val) * 512 + f.val
  have := n.isLt
  omega

theorem V1_arg1 (c : Dev nD) : (V1 m ρ c main_arg1 : S32x512.Idx → EReal) = m ((c : Thread nD τ).loc main_arg1) := by
  dsimp only [V1, W1, W0, hostOps0]
  after_results

theorem cwOf_V1 (c : Dev nD) (k : Fin 32) (f : Fin 512) : cwOf (V1 m ρ) c k f = (m ((c : Thread nD τ).loc main_arg1) : S32x512.Idx → EReal) (ix2 k f) := by
  unfold cwOf
  rw [V1_arg1]

theorem V1_v1 (c : Dev nD) : (V1 m ρ c main_v1 : S1x32.Idx → EReal) = shapeCast S1x32 (m ((c : Thread nD τ).loc main_arg2)) shapeCasts_S32_S1x32 := by
  dsimp only [V1, W1, W0, hostOps0]
  after_results
  rfl

theorem smOf_V1 (c : Dev nD) (k : Fin 32) : smOf (V1 m ρ) c k = (m ((c : Thread nD τ).loc main_arg2) : S32.Idx → EReal) (ix1 k) := by
  unfold smOf
  rw [V1_v1]
  refine shapeCast_apply _ _ _ _ ?_
  show (S32.rowMajor _).val = (S1x32.rowMajor _).val
  rw [Shape.rowMajor_val_one, Shape.rowMajor_val_two]
  show k.val = 0 * 32 + k.val
  omega

theorem V1_v2 (c : Dev nD) : (V1 m ρ c main_v2 : S1x512.Idx → EReal) = shapeCast S1x512 (m ((c : Thread nD τ).loc main_arg3)) shapeCasts_S512_S1x512 := by
  dsimp only [V1, W1, W0, hostOps0]
  after_results
  rfl

theorem gOf_V1 (c : Dev nD) (f : Fin 512) : gOf (V1 m ρ) c f = (m ((c : Thread nD τ).loc main_arg3) : S512.Idx → EReal) (ix1 f) := by
  unfold gOf
  rw [V1_v2]
  refine shapeCast_apply _ _ _ _ ?_
  show (S512.rowMajor _).val = (S1x512.rowMajor _).val
  rw [Shape.rowMajor_val_one, Shape.rowMajor_val_two]
  show f.val = 0 * 512 + f.val
  omega

theorem V1_v3 (c : Dev nD) : (V1 m ρ c main_v3 : S1x512.Idx → EReal) = shapeCast S1x512 (m ((c : Thread nD τ).loc main_arg4)) shapeCasts_S512_S1x512 := by
  dsimp only [V1, W1, W0, hostOps0]
  after_results
  rfl

theorem beOf_V1 (c : Dev nD) (f : Fin 512) : beOf (V1 m ρ) c f = (m ((c : Thread nD τ).loc main_arg4) : S512.Idx → EReal) (ix1 f) := by
  unfold beOf
  rw [V1_v3]
  refine shapeCast_apply _ _ _ _ ?_
  show (S512.rowMajor _).val = (S1x512.rowMajor _).val
  rw [Shape.rowMajor_val_one, Shape.rowMajor_val_two]
  show f.val = 0 * 512 + f.val
  omega

theorem V1_v4 (c : Dev nD) : (V1 m ρ c main_v4 : S1x512.Idx → EReal) = shapeCast S1x512 (m ((c : Thread nD τ).loc main_arg5)) shapeCasts_S512_S1x512 := by
  dsimp only [V1, W1, W0, hostOps0]
  after_results
  rfl

theorem muOf_V1 (c : Dev nD) (f : Fin 512) : muOf (V1 m ρ) c f = (m ((c : Thread nD τ).loc main_arg5) : S512.Idx → EReal) (ix1 f) := by
  unfold muOf
  rw [V1_v4]
  refine shapeCast_apply _ _ _ _ ?_
  show (S512.rowMajor _).val = (S1x512.rowMajor _).val
  rw [Shape.rowMajor_val_one, Shape.rowMajor_val_two]
  show f.val = 0 * 512 + f.val
  omega

theorem V1_v5 (c : Dev nD) : (V1 m ρ c main_v5 : S1x512.Idx → EReal) = shapeCast S1x512 (m ((c : Thread nD τ).loc main_arg6)) shapeCasts_S512_S1x512 := by
  dsimp only [V1, W1, W0, hostOps0]
  after_results
  rfl

theorem vaOf_V1 (c : Dev nD) (f : Fin 512) : vaOf (V1 m ρ) c f = (m ((c : Thread nD τ).loc main_arg6) : S512.Idx → EReal) (ix1 f) := by
  unfold vaOf
  rw [V1_v5]
  refine shapeCast_apply _ _ _ _ ?_
  show (S512.rowMajor _).val = (S1x512.rowMajor _).val
  rw [Shape.rowMajor_val_one, Shape.rowMajor_val_two]
  show f.val = 0 * 512 + f.val
  omega

end Args

section Ref
variable (m : (ℓ : Loc nD τ sig) → Buf (Elt Ideal) ℓ) (ρ : Dev nD → PrngReg)

/-- Region 0's output array, entered from the re-laid arguments, is entry by entry the reference's encoding of the
    arguments. -/
theorem encArr_V1 (c : Dev nD) (b : Fin 16) (f : Fin 512) :
    encArr (V1 m ρ) c (ix3 b 0 f)
      = Cert.ReferenceIdeal.RefValue.refEnc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 b f) := by
  rw [Cert.ReferenceIdeal.RefValue.refEnc_apply]
  unfold encArr
  show Cert.Spec.encode (rowsOf (V1 m ρ) c b) (cwOf (V1 m ρ) c) (smOf (V1 m ρ) c) (gOf (V1 m ρ) c) (beOf (V1 m ρ) c) (muOf (V1 m ρ) c) (vaOf (V1 m ρ) c) f = _
  rw [show rowsOf (V1 m ρ) c b = _ from funext fun n => funext fun f' => rowsOf_V1 m ρ c b n f',
    show cwOf (V1 m ρ) c = _ from funext fun k => funext fun f' => cwOf_V1 m ρ c k f',
    show smOf (V1 m ρ) c = _ from funext fun k => smOf_V1 m ρ c k,
    show gOf (V1 m ρ) c = _ from funext fun f' => gOf_V1 m ρ c f',
    show beOf (V1 m ρ) c = _ from funext fun f' => beOf_V1 m ρ c f',
    show muOf (V1 m ρ) c = _ from funext fun f' => muOf_V1 m ρ c f',
    show vaOf (V1 m ρ) c = _ from funext fun f' => vaOf_V1 m ρ c f']

/-- So after region 0 the buffer of encodings holds, at (b, 0, f), the reference's encoding at (b, f). -/
theorem W2_v6_apply (c : Dev nD) (b : Fin 16) (f : Fin 512) :
    (W2 m ρ c (Proc.devRef .tc main_v6) : S16x1x512.Idx → EReal) (ix3 b 0 f)
      = Cert.ReferenceIdeal.RefValue.refEnc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 b f) := by
  rw [show W2 m ρ c (Proc.devRef .tc main_v6) = (dat0 (V1 m ρ) c).arrAt 7 cfg0.N from W2_arr m ρ c 7, final7]
  exact encArr_V1 m ρ c b f

end Ref

end Cert.KernelIdeal.Hand

end
-- ==== Proof.RefTail.lean ====
/-
  The reference's run with its two results named through the encoding: the scaled feature maps are the gate of
  the encoding, read at (image, feature), times the input entry; the read-out is the affine map of the encoding.
  The last three operations of the reference (two broadcasts and a product) are read at an index here; everything
  before them is either the encoding or one of the two shared chains, and is never opened.
-/
import proofs.«123844_j1666447310975_2_alg».proof.Defs
import proofs.«123844_j1666447310975_2_alg».proof.Proof.RefDefs
import proofs.«123844_j1666447310975_2_alg».proof.Proof.Gen.Pre_finite_inputs

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The reference's stage for the gate is the gate chain applied to the encoding: the same operations, grouped. -/
theorem attn_eq (x0 : FVec Ideal S16x64x64x512 .f32) (x1 : FVec Ideal S32x512 .f32) (x2 : FVec Ideal S32 .f32)
    (x3 x4 x5 x6 : FVec Ideal S512 .f32) (x7 : FVec Ideal S512x512 .f32) (x8 : FVec Ideal S512 .f32) :
    Read.val_main_v62 (F := Ideal) x0 x1 x2 x3 x4 x5 x6 x7 x8 = tailAttn (refEnc x0 x1 x2 x3 x4 x5 x6) x7 x8 := rfl

/-- The reference's stage for the read-out is the read-out chain applied to the encoding. -/
theorem se_eq (x0 : FVec Ideal S16x64x64x512 .f32) (x1 : FVec Ideal S32x512 .f32) (x2 : FVec Ideal S32 .f32)
    (x3 x4 x5 x6 : FVec Ideal S512 .f32) (x9 : FVec Ideal S512x1 .f32) (x10 : FVec Ideal S1 .f32) :
    Read.val_main_v69 (F := Ideal) x0 x1 x2 x3 x4 x5 x6 x9 x10 = tailSe (refEnc x0 x1 x2 x3 x4 x5 x6) x9 x10 := rfl

/-- The scaled feature maps at (image, row, column, feature): the two broadcasts carry the gate's entry at
    (image, feature) to every pixel, and the product with the input entry follows. -/
theorem scaled_apply (x0 : FVec Ideal S16x64x64x512 .f32) (x1 : FVec Ideal S32x512 .f32) (x2 : FVec Ideal S32 .f32)
    (x3 x4 x5 x6 : FVec Ideal S512 .f32) (x7 : FVec Ideal S512x512 .f32) (x8 : FVec Ideal S512 .f32)
    (i : S16x64x64x512.Idx) :
    Read.val_main_v65 (F := Ideal) x0 x1 x2 x3 x4 x5 x6 x7 x8 i
      = tailAttn (refEnc x0 x1 x2 x3 x4 x5 x6) x7 x8 (ValueIdx.ix2 (i 0) (i 3)) * x0 i := by
  have e : Read.idx_main_v63 (Read.idx_main_v64 i) = (ValueIdx.ix2 (i 0) (i 3) : S16x512.Idx) :=
    funext fun a => Fin.ext (by match a with | ⟨0, _⟩ => rfl | ⟨1, _⟩ => rfl)
  rw [Read.val_main_v65_apply, Read.val_main_v64_apply, Read.val_main_v63_apply, e, attn_eq]
  rfl

/-- Every execution of the reference ends with the feature maps at gate × input, the read-out at the affine map of
    the encoding, and its eleven arguments as they were. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = (fun i => tailAttn (refEnc (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (ValueIdx.ix2 (i 0) (i 3)) * m' ((c.tc : Thread Cert.ReferenceIdeal.nD Cert.ReferenceIdeal.τ).loc Cert.ReferenceIdeal.main_arg0) i)
          ∧ r.2.mem ((c.tc : Thread Cert.ReferenceIdeal.nD Cert.ReferenceIdeal.τ).loc Cert.ReferenceIdeal.main_v69) = tailSe (refEnc (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)) :=
  (θ_run Cert.ReferenceIdeal.defs _ _).mono
    (fun _ h c => ⟨(h c).1.trans ((Read.val_main_v65_eq m' c).trans (funext fun i => scaled_apply _ _ _ _ _ _ _ _ _ i)),
      (h c).2.1.trans ((Read.val_main_v69_eq m' c).trans (se_eq _ _ _ _ _ _ _ _ _)), (h c).2.2⟩)
    (Cert.ReferenceIdeal.Value.run (F := Ideal) m' g')

/-- The reference runs to the end and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

end Cert.ReferenceIdeal.RefValue

end
-- ==== Proof.lean ====
/-
  The certificate of the vector-quantisation encoder: a kernel of two grid regions against its array-level reference,
  equal over the exact extended reals.

  Both programs compute, for each of 16 images of 4096 rows of 512 features, the encoding E (softmax weights of every
  row over 32 codewords; weighted residuals summed over the rows; normalised, cut off at zero and summed over the
  codewords), then the gate 1 / (1 + exp(−(E·W + b))) multiplied into the image, and the read-out E·w + b.
  The kernel's first region sums over the rows tile by tile in two accumulators, its second multiplies; between them
  the host applies to E the very operations the reference applies. The two encodings agree because a sum over an
  image's rows is the sum of its four tiles' sums (addition of extended reals is commutative and associative — no
  precondition is needed), and the two products agree because multiplication is commutative.

  The three frame conjuncts: each region's body obligation is proved at every grid point (three control cases for the
  first region, its two accumulators carried in the region's invariant), and the program is run as host stretch ·
  region · host stretch · region · host stretch; the reference is a straight line of host operations.
-/
import proofs.«123844_j1666447310975_2_alg».proof.Defs
import proofs.«123844_j1666447310975_2_alg».proof.Proof.Gen.Kernel
import proofs.«123844_j1666447310975_2_alg».proof.Proof.Gen.KernelIdeal
import proofs.«123844_j1666447310975_2_alg».proof.Proof.Gen.ReferenceIdeal
import proofs.«123844_j1666447310975_2_alg».proof.Proof.Gen.Pre_finite_inputs
import proofs.«123844_j1666447310975_2_alg».proof.Proof.KRun
import proofs.«123844_j1666447310975_2_alg».proof.Proof.Run
import proofs.«123844_j1666447310975_2_alg».proof.Proof.RunValue
import proofs.«123844_j1666447310975_2_alg».proof.Proof.TailMatch
import proofs.«123844_j1666447310975_2_alg».proof.Proof.EncRef
import proofs.«123844_j1666447310975_2_alg».proof.Proof.RefTail
import Idealize.ShloMosaic.Adequacy
import Idealize.ShloMosaic.Init

noncomputable section

namespace Cert.Proof

open Idealize.ShloMosaic Idealize.ShloMosaic.TcCoe Idealize.SL.Sem Idealize.ShloMosaic.ValueIdx
open Cert.KernelIdeal.Hand Cert.ReferenceIdeal.RefValue

/-! ## The two results as functions of the argument arrays -/

/-- The first result: the gate of the encoding times the image, entry by entry. -/
def gated (a0 : FVec Ideal Cert.KernelIdeal.S16x64x64x512 .f32) (a1 : FVec Ideal Cert.KernelIdeal.S32x512 .f32) (a2 : FVec Ideal Cert.KernelIdeal.S32 .f32)
    (a3 a4 a5 a6 : FVec Ideal Cert.KernelIdeal.S512 .f32) (a7 : FVec Ideal Cert.KernelIdeal.S512x512 .f32) (a8 : FVec Ideal Cert.KernelIdeal.S512 .f32) :
    Cert.KernelIdeal.S16x64x64x512.Idx → EReal :=
  fun i => tailAttn (refEnc a0 a1 a2 a3 a4 a5 a6) a7 a8 (ix2 (i 0) (i 3)) * a0 i

/-- The second result: the read-out of the encoding. -/
def readout (a0 : FVec Ideal Cert.KernelIdeal.S16x64x64x512 .f32) (a1 : FVec Ideal Cert.KernelIdeal.S32x512 .f32) (a2 : FVec Ideal Cert.KernelIdeal.S32 .f32)
    (a3 a4 a5 a6 : FVec Ideal Cert.KernelIdeal.S512 .f32) (a9 : FVec Ideal Cert.KernelIdeal.S512x1 .f32) (a10 : FVec Ideal Cert.KernelIdeal.S1 .f32) :
    Cert.KernelIdeal.S16x1.Idx → EReal :=
  tailSe (refEnc a0 a1 a2 a3 a4 a5 a6) a9 a10

/-! ## The kernel's encoding is the reference's -/

theorem encK_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    encK m ρ c = refEnc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  funext j
  obtain ⟨b, f, rfl⟩ : ∃ (b : Fin 16) (f : Fin 512), j = ix2 b f := ⟨j 0, j 1, eq_ix2 j⟩
  rw [encK_apply]
  exact W2_v6_apply m ρ c b f

/-! ## The claims -/

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The kernel's run with its two results named. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v24) = gated (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_v21) = readout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) := by
  refine (θ_run Cert.KernelIdeal.defs _ _).mono (fun r h c => ⟨?_, ?_,
        (h c _ (Cert.KernelIdeal.Hand.ucMem Cert.KernelIdeal.main_arg0 (by decide))).trans (Cert.KernelIdeal.Hand.W5_main_arg0 m ρ c),
        (h c _ (Cert.KernelIdeal.Hand.ucMem Cert.KernelIdeal.main_arg1 (by decide))).trans (Cert.KernelIdeal.Hand.W5_main_arg1 m ρ c),
        (h c _ (Cert.KernelIdeal.Hand.ucMem Cert.KernelIdeal.main_arg2 (by decide))).trans (Cert.KernelIdeal.Hand.W5_main_arg2 m ρ c),
        (h c _ (Cert.KernelIdeal.Hand.ucMem Cert.KernelIdeal.main_arg3 (by decide))).trans (Cert.KernelIdeal.Hand.W5_main_arg3 m ρ c),
        (h c _ (Cert.KernelIdeal.Hand.ucMem Cert.KernelIdeal.main_arg4 (by decide))).trans (Cert.KernelIdeal.Hand.W5_main_arg4 m ρ c),
        (h c _ (Cert.KernelIdeal.Hand.ucMem Cert.KernelIdeal.main_arg5 (by decide))).trans (Cert.KernelIdeal.Hand.W5_main_arg5 m ρ c),
        (h c _ (Cert.KernelIdeal.Hand.ucMem Cert.KernelIdeal.main_arg6 (by decide))).trans (Cert.KernelIdeal.Hand.W5_main_arg6 m ρ c),
        (h c _ (Cert.KernelIdeal.Hand.ucMem Cert.KernelIdeal.main_arg7 (by decide))).trans (Cert.KernelIdeal.Hand.W5_main_arg7 m ρ c),
        (h c _ (Cert.KernelIdeal.Hand.ucMem Cert.KernelIdeal.main_arg8 (by decide))).trans (Cert.KernelIdeal.Hand.W5_main_arg8 m ρ c),
        (h c _ (Cert.KernelIdeal.Hand.ucMem Cert.KernelIdeal.main_arg9 (by decide))).trans (Cert.KernelIdeal.Hand.W5_main_arg9 m ρ c),
        (h c _ (Cert.KernelIdeal.Hand.ucMem Cert.KernelIdeal.main_arg10 (by decide))).trans (Cert.KernelIdeal.Hand.W5_main_arg10 m ρ c)⟩) (run_all (F := Ideal) m ρ)
  · refine ((h c _ (ucMem Cert.KernelIdeal.main_v24 (by decide))).trans (val_main_v24_buf m ρ c)).trans ?_
    funext i
    show imgs m c i * gateK m ρ c (ix2 (i 0) (i 3)) = tailAttn (refEnc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (ix2 (i 0) (i 3)) * imgs m c i
    unfold gateK
    rw [kAttn_eq_tailAttn, encK_eq, mul_comm]
  · refine ((h c _ (ucMem Cert.KernelIdeal.main_v21 (by decide))).trans (val_main_v21 m ρ c)).trans ?_
    rw [kSe_eq_tailSe, encK_eq]
    rfl

theorem algebraic : Cert.algebraic_KernelIdeal_ReferenceIdeal := by
  intro m ρ m' ρ' _ hagree
  refine ⟨fun c => gated (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => readout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), kernel_run m ρ, ?_⟩
  refine (θ_run Cert.ReferenceIdeal.defs _ _).mono (fun r h c => ⟨(h c).1.trans ?_, (h c).2.1.trans ?_, (h c).2.2⟩) (ref_run m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
    rfl
  · rw [(hagree c).1, (hagree c).2.1, (hagree c).2.2.1, (hagree c).2.2.2.1, (hagree c).2.2.2.2.1, (hagree c).2.2.2.2.2.1, (hagree c).2.2.2.2.2.2.1, (hagree c).2.2.2.2.2.2.2.2.2.1, (hagree c).2.2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
